-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v308)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v308) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v310) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S160000x16 : Shape := ⟨2, ![160000, 16]⟩
abbrev S10000x1 : Shape := ⟨2, ![10000, 1]⟩
abbrev S160000x1 : Shape := ⟨2, ![160000, 1]⟩
abbrev S256x256 : Shape := ⟨2, ![256, 256]⟩
abbrev S256 : Shape := ⟨1, ![256]⟩
abbrev S16x256 : Shape := ⟨2, ![16, 256]⟩
abbrev S2x256x256 : Shape := ⟨3, ![2, 256, 256]⟩
abbrev S2x256 : Shape := ⟨2, ![2, 256]⟩
abbrev S2x160000 : Shape := ⟨2, ![2, 160000]⟩
abbrev S50000x3 : Shape := ⟨2, ![50000, 3]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S160000x16 : S_.BroadcastsInDim S160000x16 (![] : Fin 0 → Fin S160000x16.rank)
  reducesTo_S160000x16_S_d0_1 : S160000x16.ReducesTo [0, 1] S_
  bcast_S_S10000x1 : S_.BroadcastsInDim S10000x1 (![] : Fin 0 → Fin S10000x1.rank)
  reducesTo_S10000x1_S_d0_1 : S10000x1.ReducesTo [0, 1] S_
  bcast_S_S160000x1 : S_.BroadcastsInDim S160000x1 (![] : Fin 0 → Fin S160000x1.rank)
  reducesTo_S160000x1_S_d0_1 : S160000x1.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part6 {F : FTy → Type} [FloatOps F] (main_arg21 : FVec F S2x256 .f32) (main_arg22 : FVec F S2x256 .f32) (main_v98 : IVec S_ 1) (main_v101 : IVec S2x256 1) (main_c_39 : IVec S_ 1) : IVec S_ 1 :=
  let main_v102 : IVec S_ 1 := (fun x v => Host.reduce IntOp.andi x v reducesTo_S2x256_S_d0_1 h_S_) main_v101 main_c_39
  let main_v103 : IVec S_ 1 := andi main_v98 main_v102
  let main_v104 : FVec F S2x256 .f32 := Host.absf main_arg21
  let main_cst_40 : FVec F S_ .f32 := constant S_ .f32 0x7F800000#32
  let main_v105 : FVec F S2x256 .f32 := broadcastInDim S2x256 ![] bcast_S_S2x256 main_cst_40
  let main_v106 : IVec S2x256 1 := cmpf .olt main_v104 main_v105
  let main_c_41 : IVec S_ 1 := constantI S_ 1 1#1
  let main_v107 : IVec S_ 1 := (fun x v => Host.reduce IntOp.andi x v reducesTo_S2x256_S_d0_1 h_S_) main_v106 main_c_41
  let main_v108 : IVec S_ 1 := andi main_v103 main_v107
  let main_v109 : FVec F S2x256 .f32 := Host.absf main_arg22
  let main_cst_42 : FVec F S_ .f32 := constant S_ .f32 0x7F800000#32
  let main_v110 : FVec F S2x256 .f32 := broadcastInDim S2x256 ![] bcast_S_S2x256 main_cst_42
  let main_v111 : IVec S2x256 1 := cmpf .olt main_v109 main_v110
  let main_c_43 : IVec S_ 1 := constantI S_ 1 1#1
  let main_v112 : IVec S_ 1 := (fun x v => Host.reduce IntOp.andi x v reducesTo_S2x256_S_d0_1 h_S_) main_v111 main_c_43
  let main_v113 : IVec S_ 1 := andi main_v108 main_v112
  main_v113

def fn_part5 {F : FTy → Type} [FloatOps F] (main_arg18 : FVec F S2x256 .f32) (main_arg19 : FVec F S2x256 .f32) (main_arg20 : FVec F S2x256 .f32) (main_arg21 : FVec F S2x256 .f32) (main_arg22 : FVec F S2x256 .f32) (main_v83 : IVec S_ 1) (main_v84 : FVec F S2x256x256 .f32) (main_cst_32 : FVec F S_ .f32) : IVec S_ 1 :=
  let main_v85 : FVec F S2x256x256 .f32 := broadcastInDim S2x256x256 ![] bcast_S_S2x256x256 main_cst_32
  let main_v86 : IVec S2x256x256 1 := cmpf .olt main_v84 main_v85
  let main_c_33 : IVec S_ 1 := constantI S_ 1 1#1
  let main_v87 : IVec S_ 1 := (fun x v => Host.reduce IntOp.andi x v reducesTo_S2x256x256_S_d0_1_2 h_S_) main_v86 main_c_33
  let main_v88 : IVec S_ 1 := andi main_v83 main_v87
  let main_v89 : FVec F S2x256 .f32 := Host.absf main_arg18
  let main_cst_34 : FVec F S_ .f32 := constant S_ .f32 0x7F800000#32
  let main_v90 : FVec F S2x256 .f32 := broadcastInDim S2x256 ![] bcast_S_S2x256 main_cst_34
  let main_v91 : IVec S2x256 1 := cmpf .olt main_v89 main_v90
  let main_c_35 : IVec S_ 1 := constantI S_ 1 1#1
  let main_v92 : IVec S_ 1 := (fun x v => Host.reduce IntOp.andi x v reducesTo_S2x256_S_d0_1 h_S_) main_v91 main_c_35
  let main_v93 : IVec S_ 1 := andi main_v88 main_v92
  let main_v94 : FVec F S2x256 .f32 := Host.absf main_arg19
  let main_cst_36 : FVec F S_ .f32 := constant S_ .f32 0x7F800000#32
  let main_v95 : FVec F S2x256 .f32 := broadcastInDim S2x256 ![] bcast_S_S2x256 main_cst_36
  let main_v96 : IVec S2x256 1 := cmpf .olt main_v94 main_v95
  let main_c_37 : IVec S_ 1 := constantI S_ 1 1#1
  let main_v97 : IVec S_ 1 := (fun x v => Host.reduce IntOp.andi x v reducesTo_S2x256_S_d0_1 h_S_) main_v96 main_c_37
  let main_v98 : IVec S_ 1 := andi main_v93 main_v97
  let main_v99 : FVec F S2x256 .f32 := Host.absf main_arg20
  let main_cst_38 : FVec F S_ .f32 := constant S_ .f32 0x7F800000#32
  let main_v100 : FVec F S2x256 .f32 := broadcastInDim S2x256 ![] bcast_S_S2x256 main_cst_38
  let main_v101 : IVec S2x256 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S2x256 .f32) (main_arg15 : FVec F S2x256x256 .f32) (main_arg16 : FVec F S2x256 .f32) (main_arg17 : FVec F S2x256x256 .f32) (main_arg18 : FVec F S2x256 .f32) (main_arg19 : FVec F S2x256 .f32) (main_arg20 : FVec F S2x256 .f32) (main_arg21 : FVec F S2x256 .f32) (main_arg22 : FVec F S2x256 .f32) (main_v63 : IVec S_ 1) (main_v67 : IVec S_ 1) : IVec S_ 1 :=
  let main_v68 : IVec S_ 1 := andi main_v63 main_v67
  let main_v69 : FVec F S2x256 .f32 := Host.absf main_arg14
  let main_cst_26 : FVec F S_ .f32 := constant S_ .f32 0x7F800000#32
  let main_v70 : FVec F S2x256 .f32 := broadcastInDim S2x256 ![] bcast_S_S2x256 main_cst_26
  let main_v71 : IVec S2x256 1 := cmpf .olt main_v69 main_v70
  let main_c_27 : IVec S_ 1 := constantI S_ 1 1#1
  let main_v72 : IVec S_ 1 := (fun x v => Host.reduce IntOp.andi x v reducesTo_S2x256_S_d0_1 h_S_) main_v71 main_c_27
  let main_v73 : IVec S_ 1 := andi main_v68 main_v72
  let main_v74 : FVec F S2x256x256 .f32 := Host.absf main_arg15
  let main_cst_28 : FVec F S_ .f32 := constant S_ .f32 0x7F800000#32
  let main_v75 : FVec F S2x256x256 .f32 := broadcastInDim S2x256x256 ![] bcast_S_S2x256x256 main_cst_28
  let main_v76 : IVec S2x256x256 1 := cmpf .olt main_v74 main_v75
  let main_c_29 : IVec S_ 1 := constantI S_ 1 1#1
  let main_v77 : IVec S_ 1 := (fun x v => Host.reduce IntOp.andi x v reducesTo_S2x256x256_S_d0_1_2 h_S_) main_v76 main_c_29
  let main_v78 : IVec S_ 1 := andi main_v73 main_v77
  let main_v79 : FVec F S2x256 .f32 := Host.absf main_arg16
  let main_cst_30 : FVec F S_ .f32 := constant S_ .f32 0x7F800000#32
  let main_v80 : FVec F S2x256 .f32 := broadcastInDim S2x256 ![] bcast_S_S2x256 main_cst_30
  let main_v81 : IVec S2x256 1 := cmpf .olt main_v79 main_v80
  let main_c_31 : IVec S_ 1 := constantI S_ 1 1#1
  let main_v82 : IVec S_ 1 := (fun x v => Host.reduce IntOp.andi x v reducesTo_S2x256_S_d0_1 h_S_) main_v81 main_c_31
  let main_v83 : IVec S_ 1 := andi main_v78 main_v82
  let main_v84 : FVec F S2x256x256 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S2x256x256 .f32) (main_arg12 : FVec F S2x256 .f32) (main_arg13 : FVec F S2x256x256 .f32) (main_arg14 : FVec F S2x256 .f32) (main_arg15 : FVec F S2x256x256 .f32) (main_arg16 : FVec F S2x256 .f32) (main_arg17 : FVec F S2x256x256 .f32) (main_arg18 : FVec F S2x256 .f32) (main_arg19 : FVec F S2x256 .f32) (main_arg20 : FVec F S2x256 .f32) (main_arg21 : FVec F S2x256 .f32) (main_arg22 : FVec F S2x256 .f32) (main_v48 : IVec S_ 1) (main_v49 : FVec F S2x256 .f32) (main_v50 : FVec F S2x256 .f32) : IVec S_ 1 :=
  let main_v51 : IVec S2x256 1 := cmpf .olt main_v49 main_v50
  let main_c_19 : IVec S_ 1 := constantI S_ 1 1#1
  let main_v52 : IVec S_ 1 := (fun x v => Host.reduce IntOp.andi x v reducesTo_S2x256_S_d0_1 h_S_) main_v51 main_c_19
  let main_v53 : IVec S_ 1 := andi main_v48 main_v52
  let main_v54 : FVec F S2x256x256 .f32 := Host.absf main_arg11
  let main_cst_20 : FVec F S_ .f32 := constant S_ .f32 0x7F800000#32
  let main_v55 : FVec F S2x256x256 .f32 := broadcastInDim S2x256x256 ![] bcast_S_S2x256x256 main_cst_20
  let main_v56 : IVec S2x256x256 1 := cmpf .olt main_v54 main_v55
  let main_c_21 : IVec S_ 1 := constantI S_ 1 1#1
  let main_v57 : IVec S_ 1 := (fun x v => Host.reduce IntOp.andi x v reducesTo_S2x256x256_S_d0_1_2 h_S_) main_v56 main_c_21
  let main_v58 : IVec S_ 1 := andi main_v53 main_v57
  let main_v59 : FVec F S2x256 .f32 := Host.absf main_arg12
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  let main_v64 : FVec F S2x256x256 .f32 := Host.absf main_arg13
  let main_cst_24 : FVec F S_ .f32 := constant S_ .f32 0x7F800000#32
  let main_v65 : FVec F S2x256x256 .f32 := broadcastInDim S2x256x256 ![] bcast_S_S2x256x256 main_cst_24
  let main_v66 : IVec S2x256x256 1 := cmpf .olt main_v64 main_v65
  let main_c_25 : IVec S_ 1 := constantI S_ 1 1#1
  let main_v67 : IVec S_ 1 := (fun x v => Host.reduce IntOp.andi x v reducesTo_S2x256x256_S_d0_1_2 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S256 .f32) (main_arg8 : FVec F S16x256 .f32) (main_arg9 : FVec F S2x256x256 .f32) (main_arg10 : FVec F S2x256 .f32) (main_arg11 : FVec F S2x256x256 .f32) (main_arg12 : FVec F S2x256 .f32) (main_arg13 : FVec F S2x256x256 .f32) (main_arg14 : FVec F S2x256 .f32) (main_arg15 : FVec F S2x256x256 .f32) (main_arg16 : FVec F S2x256 .f32) (main_arg17 : FVec F S2x256x256 .f32) (main_arg18 : FVec F S2x256 .f32) (main_arg19 : FVec F S2x256 .f32) (main_arg20 : FVec F S2x256 .f32) (main_arg21 : FVec F S2x256 .f32) (main_arg22 : FVec F S2x256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S16x256 .f32 := Host.absf main_arg8
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S2x256x256 .f32 := Host.absf main_arg9
  let main_cst_16 : FVec F S_ .f32 := constant S_ .f32 0x7F800000#32
  let main_v45 : FVec F S2x256x256 .f32 := broadcastInDim S2x256x256 ![] bcast_S_S2x256x256 main_cst_16
  let main_v46 : IVec S2x256x256 1 := cmpf .olt main_v44 main_v45
  let main_c_17 : IVec S_ 1 := constantI S_ 1 1#1
  let main_v47 : IVec S_ 1 := (fun x v => Host.reduce IntOp.andi x v reducesTo_S2x256x256_S_d0_1_2 h_S_) main_v46 main_c_17
  let main_v48 : IVec S_ 1 := andi main_v43 main_v47
  let main_v49 : FVec F S2x256 .f32 := Host.absf main_arg10
  let main_cst_18 : FVec F S_ .f32 := constant S_ .f32 0x7F800000#32
  let main_v50 : FVec F S2x256 .f32 := broadcastInDim S2x256 ![] bcast_S_S2x256 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S256x256 .f32) (main_arg5 : FVec F S256 .f32) (main_arg6 : FVec F S16x256 .f32) (main_arg7 : FVec F S256 .f32) (main_arg8 : FVec F S16x256 .f32) (main_arg9 : FVec F S2x256x256 .f32) (main_arg10 : FVec F S2x256 .f32) (main_arg11 : FVec F S2x256x256 .f32) (main_arg12 : FVec F S2x256 .f32) (main_arg13 : FVec F S2x256x256 .f32) (main_arg14 : FVec F S2x256 .f32) (main_arg15 : FVec F S2x256x256 .f32) (main_arg16 : FVec F S2x256 .f32) (main_arg17 : FVec F S2x256x256 .f32) (main_arg18 : FVec F S2x256 .f32) (main_arg19 : FVec F S2x256 .f32) (main_arg20 : FVec F S2x256 .f32) (main_arg21 : FVec F S2x256 .f32) (main_arg22 : FVec F S2x256 .f32) (main_v13 : IVec S_ 1) (main_v16 : IVec S160000x1 1) : IVec S_ 1 :=
  let main_c_5 : IVec S_ 1 := constantI S_ 1 1#1
  let main_v17 : IVec S_ 1 := (fun x v => Host.reduce IntOp.andi x v reducesTo_S160000x1_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S16x256 .f32 := Host.absf main_arg6
  let main_cst_10 : FVec F S_ .f32 := constant S_ .f32 0x7F800000#32
  let main_v30 : FVec F S16x256 .f32 := broadcastInDim S16x256 ![] bcast_S_S16x256 main_cst_10
  let main_v31 : IVec S16x256 1 := cmpf .olt main_v29 main_v30
  let main_c_11 : IVec S_ 1 := constantI S_ 1 1#1
  let main_v32 : IVec S_ 1 := (fun x v => Host.reduce IntOp.andi x v reducesTo_S16x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S10000x256 .f32) (main_arg1 : FVec F S160000x16 .f32) (main_arg2 : FVec F S10000x1 .f32) (main_arg3 : FVec F S160000x1 .f32) (main_arg4 : FVec F S256x256 .f32) (main_arg5 : FVec F S256 .f32) (main_arg6 : FVec F S16x256 .f32) (main_arg7 : FVec F S256 .f32) (main_arg8 : FVec F S16x256 .f32) (main_arg9 : FVec F S2x256x256 .f32) (main_arg10 : FVec F S2x256 .f32) (main_arg11 : FVec F S2x256x256 .f32) (main_arg12 : FVec F S2x256 .f32) (main_arg13 : FVec F S2x256x256 .f32) (main_arg14 : FVec F S2x256 .f32) (main_arg15 : FVec F S2x256x256 .f32) (main_arg16 : FVec F S2x256 .f32) (main_arg17 : FVec F S2x256x256 .f32) (main_arg18 : FVec F S2x256 .f32) (main_arg19 : FVec F S2x256 .f32) (main_arg20 : FVec F S2x256 .f32) (main_arg21 : FVec F S2x256 .f32) (main_arg22 : FVec F S2x256 .f32) (main_arg23 : IVec S2x160000 32) (main_arg24 : IVec S50000x3 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S160000x16 .f32 := Host.absf main_arg1
  let main_cst_0 : FVec F S_ .f32 := constant S_ .f32 0x7F800000#32
  let main_v5 : FVec F S160000x16 .f32 := broadcastInDim S160000x16 ![] bcast_S_S160000x16 main_cst_0
  let main_v6 : IVec S160000x16 1 := cmpf .olt main_v4 main_v5
  let main_c_1 : IVec S_ 1 := constantI S_ 1 1#1
  let main_v7 : IVec S_ 1 := (fun x v => Host.reduce IntOp.andi x v reducesTo_S160000x16_S_d0_1 h_S_) main_v6 main_c_1
  let main_v8 : IVec S_ 1 := andi main_v3 main_v7
  let main_v9 : FVec F S10000x1 .f32 := Host.absf main_arg2
  let main_cst_2 : FVec F S_ .f32 := constant S_ .f32 0x7F800000#32
  let main_v10 : FVec F S10000x1 .f32 := broadcastInDim S10000x1 ![] bcast_S_S10000x1 main_cst_2
  let main_v11 : IVec S10000x1 1 := cmpf .olt main_v9 main_v10
  let main_c_3 : IVec S_ 1 := constantI S_ 1 1#1
  let main_v12 : IVec S_ 1 := (fun x v => Host.reduce IntOp.andi x v reducesTo_S10000x1_S_d0_1 h_S_) main_v11 main_c_3
  let main_v13 : IVec S_ 1 := andi main_v8 main_v12
  let main_v14 : FVec F S160000x1 .f32 := Host.absf main_arg3
  let main_cst_4 : FVec F S_ .f32 := constant S_ .f32 0x7F800000#32
  let main_v15 : FVec F S160000x1 .f32 := broadcastInDim S160000x1 ![] bcast_S_S160000x1 main_cst_4
  let main_v16 : IVec S160000x1 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S10000x256 : Shape := ⟨2, ![10000, 256]⟩
abbrev S160000x16 : Shape := ⟨2, ![160000, 16]⟩
abbrev S10000x1 : Shape := ⟨2, ![10000, 1]⟩
abbrev S160000x1 : Shape := ⟨2, ![160000, 1]⟩
abbrev S256x256 : Shape := ⟨2, ![256, 256]⟩
abbrev S256 : Shape := ⟨1, ![256]⟩
abbrev S16x256 : Shape := ⟨2, ![16, 256]⟩
abbrev S2x256x256 : Shape := ⟨3, ![2, 256, 256]⟩
abbrev S2x256 : Shape := ⟨2, ![2, 256]⟩
abbrev S2x160000 : Shape := ⟨2, ![2, 160000]⟩
abbrev S50000x3 : Shape := ⟨2, ![50000, 3]⟩
abbrev S1x160000 : Shape := ⟨2, ![1, 160000]⟩
abbrev S160000 : Shape := ⟨1, ![160000]⟩
abbrev S1x256 : Shape := ⟨2, ![1, 256]⟩
abbrev S1000x256 : Shape := ⟨2, ![1000, 256]⟩
abbrev S160000x256 : Shape := ⟨2, ![160000, 256]⟩
abbrev S1x256x256 : Shape := ⟨3, ![1, 256, 256]⟩
abbrev S_ : Shape := ⟨0, ![]⟩
abbrev S50000x1 : Shape := ⟨2, ![50000, 1]⟩
abbrev S50000 : Shape := ⟨1, ![50000]⟩
abbrev S50000x256 : Shape := ⟨2, ![50000, 256]⟩

abbrev nBuf : Space → Nat
  | .hbm => 492
  | .vmem => 6
  | .smem => 0
  | _ => 0

abbrev hbmTy0_0 (i : Nat) : BufTy := match i % 128 with
  | 0 => ⟨S10000x256, .f32⟩
  | 1 => ⟨S160000x16, .f32⟩
  | 2 => ⟨S10000x1, .f32⟩
  | 3 => ⟨S160000x1, .f32⟩
  | 4 => ⟨S256x256, .f32⟩
  | 5 => ⟨S256, .f32⟩
  | 6 => ⟨S16x256, .f32⟩
  | 7 => ⟨S256, .f32⟩
  | 8 => ⟨S16x256, .f32⟩
  | 9 => ⟨S2x256x256, .f32⟩
  | 10 => ⟨S2x256, .f32⟩
  | 11 => ⟨S2x256x256, .f32⟩
  | 12 => ⟨S2x256, .f32⟩
  | 13 => ⟨S2x256x256, .f32⟩
  | 14 => ⟨S2x256, .f32⟩
  | 15 => ⟨S2x256x256, .f32⟩
  | 16 => ⟨S2x256, .f32⟩
  | 17 => ⟨S2x256x256, .f32⟩
  | 18 => ⟨S2x256, .f32⟩
  | 19 => ⟨S2x256, .f32⟩
  | 20 => ⟨S2x256, .f32⟩
  | 21 => ⟨S2x256, .f32⟩
  | 22 => ⟨S2x256, .f32⟩
  | 23 => ⟨S2x160000, .i32⟩
  | 24 => ⟨S50000x3, .i32⟩
  | 25 => ⟨S1x160000, .i32⟩
  | 26 => ⟨S160000, .i32⟩
  | 27 => ⟨S1x160000, .i32⟩
  | 28 => ⟨S160000, .i32⟩
  | 29 => ⟨S1x256, .f32⟩
  | 30 => ⟨S10000x256, .f32⟩
  | 31 => ⟨S160000x256, .f32⟩
  | 32 => ⟨S1x256, .f32⟩
  | 33 => ⟨S160000x256, .f32⟩
  | 34 => ⟨S160000x256, .f32⟩
  | 35 => ⟨S1x256x256, .f32⟩
  | 36 => ⟨S256x256, .f32⟩
  | 37 => ⟨S10000x256, .f32⟩
  | 38 => ⟨S1x256, .f32⟩
  | 39 => ⟨S256, .f32⟩
  | 40 => ⟨S1x256, .f32⟩
  | 41 => ⟨S10000x256, .f32⟩
  | 42 => ⟨S10000x256, .f32⟩
  | 43 => ⟨S1x256x256, .f32⟩
  | 44 => ⟨S256x256, .f32⟩
  | 45 => ⟨S10000x256, .f32⟩
  | 46 => ⟨S1x256, .f32⟩
  | 47 => ⟨S256, .f32⟩
  | 48 => ⟨S1x256, .f32⟩
  | 49 => ⟨S10000x256, .f32⟩
  | 50 => ⟨S10000x256, .f32⟩
  | 51 => ⟨S1x256x256, .f32⟩
  | 52 => ⟨S256x256, .f32⟩
  | 53 => ⟨S10000x256, .f32⟩
  | 54 => ⟨S1x256, .f32⟩
  | 55 => ⟨S256, .f32⟩
  | 56 => ⟨S1x256, .f32⟩
  | 57 => ⟨S10000x256, .f32⟩
  | 58 => ⟨S10000x256, .f32⟩
  | 59 => ⟨S1x256x256, .f32⟩
  | 60 => ⟨S256x256, .f32⟩
  | 61 => ⟨S10000x256, .f32⟩
  | 62 => ⟨S1x256, .f32⟩
  | 63 => ⟨S256, .f32⟩
  | 64 => ⟨S1x256, .f32⟩
  | 65 => ⟨S10000x256, .f32⟩
  | 66 => ⟨S10000x256, .f32⟩
  | 67 => ⟨S1x256x256, .f32⟩
  | 68 => ⟨S256x256, .f32⟩
  | 69 => ⟨S160000x256, .f32⟩
  | 70 => ⟨S1x256, .f32⟩
  | 71 => ⟨S256, .f32⟩
  | 72 => ⟨S1x256, .f32⟩
  | 73 => ⟨S160000x256, .f32⟩
  | 74 => ⟨S160000x256, .f32⟩
  | 75 => ⟨S_, .i32⟩
  | 76 => ⟨S160000, .i32⟩
  | 77 => ⟨S160000, .i1⟩
  | 78 => ⟨S_, .i32⟩
  | 79 => ⟨S160000, .i32⟩
  | 80 => ⟨S160000, .i32⟩
  | 81 => ⟨S160000, .i32⟩
  | 82 => ⟨S160000x1, .i32⟩
  | 83 => ⟨S160000x256, .f32⟩
  | 84 => ⟨S_, .i32⟩
  | 85 => ⟨S160000, .i32⟩
  | 86 => ⟨S160000, .i1⟩
  | 87 => ⟨S_, .i32⟩
  | 88 => ⟨S160000, .i32⟩
  | 89 => ⟨S160000, .i32⟩
  | 90 => ⟨S160000, .i32⟩
  | 91 => ⟨S160000x1, .i32⟩
  | 92 => ⟨S160000x256, .f32⟩
  | 93 => ⟨S160000x256, .f32⟩
  | 94 => ⟨S160000x256, .f32⟩
  | 95 => ⟨S160000x256, .f32⟩
  | 96 => ⟨S160000x256, .f32⟩
  | 97 => ⟨S_, .f32⟩
  | 98 => ⟨S160000x256, .f32⟩
  | 99 => ⟨S160000x256, .f32⟩
  | 100 => ⟨S_, .f32⟩
  | 101 => ⟨S160000x256, .f32⟩
  | 102 => ⟨S160000x256, .f32⟩
  | 103 => ⟨S_, .i32⟩
  | 104 => ⟨S160000, .i32⟩
  | 105 => ⟨S160000, .i1⟩
  | 106 => ⟨S_, .i32⟩
  | 107 => ⟨S160000, .i32⟩
  | 108 => ⟨S160000, .i32⟩
  | 109 => ⟨S160000, .i32⟩
  | 110 => ⟨S160000x1, .i32⟩
  | 111 => ⟨S160000x256, .f32⟩
  | 112 => ⟨S160000x256, .f32⟩
  | 113 => ⟨S_, .f32⟩
  | 114 => ⟨S10000x256, .f32⟩
  | 115 => ⟨S160000x1, .i32⟩
  | 116 => ⟨S10000x256, .f32⟩
  | 117 => ⟨S_, .f32⟩
  | 118 => ⟨S10000x256, .f32⟩
  | 119 => ⟨S160000x1, .i32⟩
  | 120 => ⟨S10000x256, .f32⟩
  | 121 => ⟨S_, .f32⟩
  | 122 => ⟨S10000x256, .f32⟩
  | 123 => ⟨S10000x256, .f32⟩
  | 124 => ⟨S10000x256, .f32⟩
  | 125 => ⟨S10000x256, .f32⟩
  | 126 => ⟨S10000x256, .f32⟩
  | 127 => ⟨S10000x256, .f32⟩
  | _ => ⟨S10000x256, .f32⟩

abbrev hbmTy0_1 (i : Nat) : BufTy := match i % 128 with
  | 0 => ⟨S160000x256, .f32⟩
  | 1 => ⟨S160000x256, .f32⟩
  | 2 => ⟨S1x256, .f32⟩
  | 3 => ⟨S256, .f32⟩
  | 4 => ⟨S1x256, .f32⟩
  | 5 => ⟨S256, .f32⟩
  | 6 => ⟨S_, .f32⟩
  | 7 => ⟨S256, .f32⟩
  | 8 => ⟨S_, .f32⟩
  | 9 => ⟨S256, .f32⟩
  | 10 => ⟨S256, .f32⟩
  | 11 => ⟨S_, .i32⟩
  | 12 => ⟨S_, .f32⟩
  | 13 => ⟨S256, .f32⟩
  | 14 => ⟨S1x256, .f32⟩
  | 15 => ⟨S_, .f32⟩
  | 16 => ⟨S1x256, .f32⟩
  | 17 => ⟨S1x256, .f32⟩
  | 18 => ⟨S10000x256, .f32⟩
  | 19 => ⟨S10000x256, .f32⟩
  | 20 => ⟨S10000x256, .f32⟩
  | 21 => ⟨S_, .f32⟩
  | 22 => ⟨S_, .f32⟩
  | 23 => ⟨S_, .f32⟩
  | 24 => ⟨S_, .f32⟩
  | 25 => ⟨S256, .f32⟩
  | 26 => ⟨S256, .f32⟩
  | 27 => ⟨S256, .f32⟩
  | 28 => ⟨S_, .f32⟩
  | 29 => ⟨S_, .i1⟩
  | 30 => ⟨S_, .f32⟩
  | 31 => ⟨S_, .f32⟩
  | 32 => ⟨S256, .f32⟩
  | 33 => ⟨S256, .f32⟩
  | 34 => ⟨S1x256, .f32⟩
  | 35 => ⟨S10000x256, .f32⟩
  | 36 => ⟨S10000x256, .f32⟩
  | 37 => ⟨S_, .f32⟩
  | 38 => ⟨S256, .f32⟩
  | 39 => ⟨S256, .f32⟩
  | 40 => ⟨S256, .f32⟩
  | 41 => ⟨S1x256, .f32⟩
  | 42 => ⟨S10000x256, .f32⟩
  | 43 => ⟨S10000x256, .f32⟩
  | 44 => ⟨S1x256, .f32⟩
  | 45 => ⟨S10000x256, .f32⟩
  | 46 => ⟨S10000x256, .f32⟩
  | 47 => ⟨S1x256, .f32⟩
  | 48 => ⟨S10000x256, .f32⟩
  | 49 => ⟨S10000x256, .f32⟩
  | 50 => ⟨S1x256, .f32⟩
  | 51 => ⟨S256, .f32⟩
  | 52 => ⟨S1x256, .f32⟩
  | 53 => ⟨S256, .f32⟩
  | 54 => ⟨S_, .f32⟩
  | 55 => ⟨S256, .f32⟩
  | 56 => ⟨S_, .f32⟩
  | 57 => ⟨S256, .f32⟩
  | 58 => ⟨S256, .f32⟩
  | 59 => ⟨S_, .i32⟩
  | 60 => ⟨S_, .f32⟩
  | 61 => ⟨S256, .f32⟩
  | 62 => ⟨S1x256, .f32⟩
  | 63 => ⟨S_, .f32⟩
  | 64 => ⟨S1x256, .f32⟩
  | 65 => ⟨S1x256, .f32⟩
  | 66 => ⟨S160000x256, .f32⟩
  | 67 => ⟨S160000x256, .f32⟩
  | 68 => ⟨S160000x256, .f32⟩
  | 69 => ⟨S_, .f32⟩
  | 70 => ⟨S_, .f32⟩
  | 71 => ⟨S_, .f32⟩
  | 72 => ⟨S_, .f32⟩
  | 73 => ⟨S256, .f32⟩
  | 74 => ⟨S256, .f32⟩
  | 75 => ⟨S256, .f32⟩
  | 76 => ⟨S_, .f32⟩
  | 77 => ⟨S_, .i1⟩
  | 78 => ⟨S_, .f32⟩
  | 79 => ⟨S_, .f32⟩
  | 80 => ⟨S256, .f32⟩
  | 81 => ⟨S256, .f32⟩
  | 82 => ⟨S1x256, .f32⟩
  | 83 => ⟨S160000x256, .f32⟩
  | 84 => ⟨S160000x256, .f32⟩
  | 85 => ⟨S_, .f32⟩
  | 86 => ⟨S256, .f32⟩
  | 87 => ⟨S256, .f32⟩
  | 88 => ⟨S256, .f32⟩
  | 89 => ⟨S1x256, .f32⟩
  | 90 => ⟨S160000x256, .f32⟩
  | 91 => ⟨S160000x256, .f32⟩
  | 92 => ⟨S1x256, .f32⟩
  | 93 => ⟨S160000x256, .f32⟩
  | 94 => ⟨S160000x256, .f32⟩
  | 95 => ⟨S1x256, .f32⟩
  | 96 => ⟨S160000x256, .f32⟩
  | 97 => ⟨S160000x256, .f32⟩
  | 98 => ⟨S_, .f32⟩
  | 99 => ⟨S10000x256, .f32⟩
  | 100 => ⟨S10000x256, .f32⟩
  | 101 => ⟨S_, .f32⟩
  | 102 => ⟨S160000x256, .f32⟩
  | 103 => ⟨S160000x256, .f32⟩
  | 104 => ⟨S10000x256, .f32⟩
  | 105 => ⟨S160000x256, .f32⟩
  | 106 => ⟨S1x256x256, .f32⟩
  | 107 => ⟨S256x256, .f32⟩
  | 108 => ⟨S10000x256, .f32⟩
  | 109 => ⟨S1x256, .f32⟩
  | 110 => ⟨S256, .f32⟩
  | 111 => ⟨S1x256, .f32⟩
  | 112 => ⟨S10000x256, .f32⟩
  | 113 => ⟨S10000x256, .f32⟩
  | 114 => ⟨S1x256x256, .f32⟩
  | 115 => ⟨S256x256, .f32⟩
  | 116 => ⟨S10000x256, .f32⟩
  | 117 => ⟨S1x256, .f32⟩
  | 118 => ⟨S256, .f32⟩
  | 119 => ⟨S1x256, .f32⟩
  | 120 => ⟨S10000x256, .f32⟩
  | 121 => ⟨S10000x256, .f32⟩
  | 122 => ⟨S1x256x256, .f32⟩
  | 123 => ⟨S256x256, .f32⟩
  | 124 => ⟨S10000x256, .f32⟩
  | 125 => ⟨S1x256, .f32⟩
  | 126 => ⟨S256, .f32⟩
  | 127 => ⟨S1x256, .f32⟩
  | _ => ⟨S10000x256, .f32⟩

abbrev hbmTy0_2 (i : Nat) : BufTy := match i % 128 with
  | 0 => ⟨S10000x256, .f32⟩
  | 1 => ⟨S10000x256, .f32⟩
  | 2 => ⟨S1x256x256, .f32⟩
  | 3 => ⟨S256x256, .f32⟩
  | 4 => ⟨S10000x256, .f32⟩
  | 5 => ⟨S1x256, .f32⟩
  | 6 => ⟨S256, .f32⟩
  | 7 => ⟨S1x256, .f32⟩
  | 8 => ⟨S10000x256, .f32⟩
  | 9 => ⟨S10000x256, .f32⟩
  | 10 => ⟨S1x256x256, .f32⟩
  | 11 => ⟨S256x256, .f32⟩
  | 12 => ⟨S160000x256, .f32⟩
  | 13 => ⟨S1x256, .f32⟩
  | 14 => ⟨S256, .f32⟩
  | 15 => ⟨S1x256, .f32⟩
  | 16 => ⟨S160000x256, .f32⟩
  | 17 => ⟨S160000x256, .f32⟩
  | 18 => ⟨S_, .i32⟩
  | 19 => ⟨S160000, .i32⟩
  | 20 => ⟨S160000, .i1⟩
  | 21 => ⟨S_, .i32⟩
  | 22 => ⟨S160000, .i32⟩
  | 23 => ⟨S160000, .i32⟩
  | 24 => ⟨S160000, .i32⟩
  | 25 => ⟨S160000x1, .i32⟩
  | 26 => ⟨S160000x256, .f32⟩
  | 27 => ⟨S_, .i32⟩
  | 28 => ⟨S160000, .i32⟩
  | 29 => ⟨S160000, .i1⟩
  | 30 => ⟨S_, .i32⟩
  | 31 => ⟨S160000, .i32⟩
  | 32 => ⟨S160000, .i32⟩
  | 33 => ⟨S160000, .i32⟩
  | 34 => ⟨S160000x1, .i32⟩
  | 35 => ⟨S160000x256, .f32⟩
  | 36 => ⟨S160000x256, .f32⟩
  | 37 => ⟨S160000x256, .f32⟩
  | 38 => ⟨S160000x256, .f32⟩
  | 39 => ⟨S160000x256, .f32⟩
  | 40 => ⟨S_, .f32⟩
  | 41 => ⟨S160000x256, .f32⟩
  | 42 => ⟨S160000x256, .f32⟩
  | 43 => ⟨S_, .f32⟩
  | 44 => ⟨S160000x256, .f32⟩
  | 45 => ⟨S160000x256, .f32⟩
  | 46 => ⟨S_, .i32⟩
  | 47 => ⟨S160000, .i32⟩
  | 48 => ⟨S160000, .i1⟩
  | 49 => ⟨S_, .i32⟩
  | 50 => ⟨S160000, .i32⟩
  | 51 => ⟨S160000, .i32⟩
  | 52 => ⟨S160000, .i32⟩
  | 53 => ⟨S160000x1, .i32⟩
  | 54 => ⟨S160000x256, .f32⟩
  | 55 => ⟨S160000x256, .f32⟩
  | 56 => ⟨S_, .f32⟩
  | 57 => ⟨S10000x256, .f32⟩
  | 58 => ⟨S160000x1, .i32⟩
  | 59 => ⟨S10000x256, .f32⟩
  | 60 => ⟨S_, .f32⟩
  | 61 => ⟨S10000x256, .f32⟩
  | 62 => ⟨S160000x1, .i32⟩
  | 63 => ⟨S10000x256, .f32⟩
  | 64 => ⟨S_, .f32⟩
  | 65 => ⟨S10000x256, .f32⟩
  | 66 => ⟨S10000x256, .f32⟩
  | 67 => ⟨S10000x256, .f32⟩
  | 68 => ⟨S10000x256, .f32⟩
  | 69 => ⟨S10000x256, .f32⟩
  | 70 => ⟨S10000x256, .f32⟩
  | 71 => ⟨S160000x256, .f32⟩
  | 72 => ⟨S160000x256, .f32⟩
  | 73 => ⟨S1x256, .f32⟩
  | 74 => ⟨S256, .f32⟩
  | 75 => ⟨S1x256, .f32⟩
  | 76 => ⟨S256, .f32⟩
  | 77 => ⟨S_, .f32⟩
  | 78 => ⟨S256, .f32⟩
  | 79 => ⟨S_, .f32⟩
  | 80 => ⟨S256, .f32⟩
  | 81 => ⟨S256, .f32⟩
  | 82 => ⟨S_, .i32⟩
  | 83 => ⟨S_, .f32⟩
  | 84 => ⟨S256, .f32⟩
  | 85 => ⟨S1x256, .f32⟩
  | 86 => ⟨S_, .f32⟩
  | 87 => ⟨S1x256, .f32⟩
  | 88 => ⟨S1x256, .f32⟩
  | 89 => ⟨S10000x256, .f32⟩
  | 90 => ⟨S10000x256, .f32⟩
  | 91 => ⟨S10000x256, .f32⟩
  | 92 => ⟨S_, .f32⟩
  | 93 => ⟨S_, .f32⟩
  | 94 => ⟨S_, .f32⟩
  | 95 => ⟨S_, .f32⟩
  | 96 => ⟨S256, .f32⟩
  | 97 => ⟨S256, .f32⟩
  | 98 => ⟨S256, .f32⟩
  | 99 => ⟨S_, .f32⟩
  | 100 => ⟨S_, .i1⟩
  | 101 => ⟨S_, .f32⟩
  | 102 => ⟨S_, .f32⟩
  | 103 => ⟨S256, .f32⟩
  | 104 => ⟨S256, .f32⟩
  | 105 => ⟨S1x256, .f32⟩
  | 106 => ⟨S10000x256, .f32⟩
  | 107 => ⟨S10000x256, .f32⟩
  | 108 => ⟨S_, .f32⟩
  | 109 => ⟨S256, .f32⟩
  | 110 => ⟨S256, .f32⟩
  | 111 => ⟨S256, .f32⟩
  | 112 => ⟨S1x256, .f32⟩
  | 113 => ⟨S10000x256, .f32⟩
  | 114 => ⟨S10000x256, .f32⟩
  | 115 => ⟨S1x256, .f32⟩
  | 116 => ⟨S10000x256, .f32⟩
  | 117 => ⟨S10000x256, .f32⟩
  | 118 => ⟨S1x256, .f32⟩
  | 119 => ⟨S10000x256, .f32⟩
  | 120 => ⟨S10000x256, .f32⟩
  | 121 => ⟨S1x256, .f32⟩
  | 122 => ⟨S256, .f32⟩
  | 123 => ⟨S1x256, .f32⟩
  | 124 => ⟨S256, .f32⟩
  | 125 => ⟨S_, .f32⟩
  | 126 => ⟨S256, .f32⟩
  | 127 => ⟨S_, .f32⟩
  | _ => ⟨S10000x256, .f32⟩

abbrev hbmTy0_3 (i : Nat) : BufTy := match i % 128 with
  | 0 => ⟨S256, .f32⟩
  | 1 => ⟨S256, .f32⟩
  | 2 => ⟨S_, .i32⟩
  | 3 => ⟨S_, .f32⟩
  | 4 => ⟨S256, .f32⟩
  | 5 => ⟨S1x256, .f32⟩
  | 6 => ⟨S_, .f32⟩
  | 7 => ⟨S1x256, .f32⟩
  | 8 => ⟨S1x256, .f32⟩
  | 9 => ⟨S160000x256, .f32⟩
  | 10 => ⟨S160000x256, .f32⟩
  | 11 => ⟨S160000x256, .f32⟩
  | 12 => ⟨S_, .f32⟩
  | 13 => ⟨S_, .f32⟩
  | 14 => ⟨S_, .f32⟩
  | 15 => ⟨S_, .f32⟩
  | 16 => ⟨S256, .f32⟩
  | 17 => ⟨S256, .f32⟩
  | 18 => ⟨S256, .f32⟩
  | 19 => ⟨S_, .f32⟩
  | 20 => ⟨S_, .i1⟩
  | 21 => ⟨S_, .f32⟩
  | 22 => ⟨S_, .f32⟩
  | 23 => ⟨S256, .f32⟩
  | 24 => ⟨S256, .f32⟩
  | 25 => ⟨S1x256, .f32⟩
  | 26 => ⟨S160000x256, .f32⟩
  | 27 => ⟨S160000x256, .f32⟩
  | 28 => ⟨S_, .f32⟩
  | 29 => ⟨S256, .f32⟩
  | 30 => ⟨S256, .f32⟩
  | 31 => ⟨S256, .f32⟩
  | 32 => ⟨S1x256, .f32⟩
  | 33 => ⟨S160000x256, .f32⟩
  | 34 => ⟨S160000x256, .f32⟩
  | 35 => ⟨S1x256, .f32⟩
  | 36 => ⟨S160000x256, .f32⟩
  | 37 => ⟨S160000x256, .f32⟩
  | 38 => ⟨S1x256, .f32⟩
  | 39 => ⟨S160000x256, .f32⟩
  | 40 => ⟨S160000x256, .f32⟩
  | 41 => ⟨S_, .f32⟩
  | 42 => ⟨S10000x256, .f32⟩
  | 43 => ⟨S10000x256, .f32⟩
  | 44 => ⟨S_, .f32⟩
  | 45 => ⟨S160000x256, .f32⟩
  | 46 => ⟨S160000x256, .f32⟩
  | 47 => ⟨S10000x256, .f32⟩
  | 48 => ⟨S160000x256, .f32⟩
  | 49 => ⟨S50000x1, .i32⟩
  | 50 => ⟨S50000, .i32⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S50000, .i32⟩
  | 58 => ⟨S50000, .i32⟩
  | 59 => ⟨S_, .i32⟩
  | 60 => ⟨S50000, .i32⟩
  | 61 => ⟨S50000, .i1⟩
  | 62 => ⟨S_, .i32⟩
  | 63 => ⟨S50000, .i32⟩
  | 64 => ⟨S50000, .i1⟩
  | 65 => ⟨S_, .i32⟩
  | 66 => ⟨S_, .i1⟩
  | 67 => ⟨S50000, .i1⟩
  | 68 => ⟨S50000, .i1⟩
  | 69 => ⟨S50000, .i1⟩
  | 70 => ⟨S50000, .i32⟩
  | 71 => ⟨S50000, .i32⟩
  | 72 => ⟨S50000, .i32⟩
  | 73 => ⟨S50000x1, .i32⟩
  | 74 => ⟨S50000, .i32⟩
  | 75 => ⟨S_, .i32⟩
  | 76 => ⟨S50000, .i32⟩
  | 77 => ⟨S50000, .i1⟩
  | 78 => ⟨S_, .i32⟩
  | 79 => ⟨S50000, .i32⟩
  | 80 => ⟨S50000, .i32⟩
  | 81 => ⟨S50000, .i32⟩
  | 82 => ⟨S50000x1, .i32⟩
  | 83 => ⟨S50000x256, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000x256, .f32⟩
  | 93 => ⟨S50000x1, .i32⟩
  | 94 => ⟨S50000, .i32⟩
  | 95 => ⟨S_, .i32⟩
  | 96 => ⟨S50000, .i32⟩
  | 97 => ⟨S50000, .i1⟩
  | 98 => ⟨S_, .i32⟩
  | 99 => ⟨S50000, .i32⟩
  | 100 => ⟨S50000, .i32⟩
  | 101 => ⟨S50000, .i32⟩
  | 102 => ⟨S50000x1, .i32⟩
  | 103 => ⟨S50000x256, .f32⟩
  | 104 => ⟨S50000x256, .f32⟩
  | 105 => ⟨S50000x256, .f32⟩
  | 106 => ⟨S_, .f32⟩
  | 107 => ⟨S50000, .f32⟩
  | _ => ⟨S10000x256, .f32⟩

abbrev hbmTy (i : Nat) : BufTy := match i / 128 with
  | 0 => hbmTy0_0 i
  | 1 => hbmTy0_1 i
  | 2 => hbmTy0_2 i
  | 3 => hbmTy0_3 i
  | _ => ⟨S10000x256, .f32⟩

abbrev bufTy : (tb : Table) → Fin (tcTables nBuf tb) → BufTy
  | .hbm, ⟨i, _⟩ => hbmTy i
  | .local _ .vmem, ⟨0, _⟩ => ⟨S1000x256, .f32⟩
  | .local _ .vmem, ⟨1, _⟩ => ⟨S1000x256, .f32⟩
  | .local _ .vmem, ⟨2, _⟩ => ⟨S256x256, .f32⟩
  | .local _ .vmem, ⟨3, _⟩ => ⟨S1x256, .f32⟩
  | .local _ .vmem, ⟨4, _⟩ => ⟨S1000x256, .f32⟩
  | .local _ .vmem, ⟨5, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_c : Ref sig .tc := ⟨.hbm, 75, rfl⟩
abbrev main_v50 : Ref sig .tc := ⟨.hbm, 76, rfl⟩
abbrev main_v51 : Ref sig .tc := ⟨.hbm, 77, rfl⟩
abbrev main_c_0 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_1 : Ref sig .tc := ⟨.hbm, 84, rfl⟩
abbrev main_v57 : Ref sig .tc := ⟨.hbm, 85, rfl⟩
abbrev main_v58 : Ref sig .tc := ⟨.hbm, 86, rfl⟩
abbrev main_c_2 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst : Ref sig .tc := ⟨.hbm, 97, rfl⟩
abbrev main_v68 : Ref sig .tc := ⟨.hbm, 98, rfl⟩
abbrev main_v69 : Ref sig .tc := ⟨.hbm, 99, rfl⟩
abbrev main_cst_3 : Ref sig .tc := ⟨.hbm, 100, rfl⟩
abbrev main_v70 : Ref sig .tc := ⟨.hbm, 101, rfl⟩
abbrev main_v71 : Ref sig .tc := ⟨.hbm, 102, rfl⟩
abbrev main_c_4 : Ref sig .tc := ⟨.hbm, 103, rfl⟩
abbrev main_v72 : Ref sig .tc := ⟨.hbm, 104, rfl⟩
abbrev main_v73 : Ref sig .tc := ⟨.hbm, 105, rfl⟩
abbrev main_c_5 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_6 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_7 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_8 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_9 : Ref sig .tc := ⟨.hbm, 134, rfl⟩
abbrev main_v98 : Ref sig .tc := ⟨.hbm, 135, rfl⟩
abbrev main_cst_10 : Ref sig .tc := ⟨.hbm, 136, rfl⟩
abbrev main_v99 : Ref sig .tc := ⟨.hbm, 137, rfl⟩
abbrev main_v100 : Ref sig .tc := ⟨.hbm, 138, rfl⟩
abbrev main_c_11 : Ref sig .tc := ⟨.hbm, 139, rfl⟩
abbrev main_call0_cst : Ref sig .tc := ⟨.hbm, 140, rfl⟩
abbrev main_call0_v0 : Ref sig .tc := ⟨.hbm, 141, rfl⟩
abbrev main_call0_v1 : Ref sig .tc := ⟨.hbm, 142, rfl⟩
abbrev main_call0_cst_0 : Ref sig .tc := ⟨.hbm, 143, rfl⟩
abbrev main_call0_v2 : Ref sig .tc := ⟨.hbm, 144, rfl⟩
abbrev main_call0_v3 : Ref sig .tc := ⟨.hbm, 145, rfl⟩
abbrev main_call0_v4 : Ref sig .tc := ⟨.hbm, 146, rfl⟩
abbrev main_call0_v5 : Ref sig .tc := ⟨.hbm, 147, rfl⟩
abbrev main_call0_v6 : Ref sig .tc := ⟨.hbm, 148, rfl⟩
abbrev main_call0_v7 : Ref sig .tc := ⟨.hbm, 149, rfl⟩
abbrev main_call0_cst_1 : Ref sig .tc := ⟨.hbm, 150, rfl⟩
abbrev main_call0_v8 : Ref sig .tc := ⟨.hbm, 151, rfl⟩
abbrev main_call0_cst_2 : Ref sig .tc := ⟨.hbm, 152, rfl⟩
abbrev main_call0_v9 : Ref sig .tc := ⟨.hbm, 153, rfl⟩
abbrev main_call0_v10 : Ref sig .tc := ⟨.hbm, 154, rfl⟩
abbrev main_call0_v11 : Ref sig .tc := ⟨.hbm, 155, rfl⟩
abbrev main_call0_cst_3 : Ref sig .tc := ⟨.hbm, 156, rfl⟩
abbrev main_call0_v12 : Ref sig .tc := ⟨.hbm, 157, rfl⟩
abbrev main_call0_cst_4 : Ref sig .tc := ⟨.hbm, 158, rfl⟩
abbrev main_call0_call0_v0 : Ref sig .tc := ⟨.hbm, 159, rfl⟩
abbrev main_call0_call0_v1 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_12 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_13 : Ref sig .tc := ⟨.hbm, 182, rfl⟩
abbrev main_v121 : Ref sig .tc := ⟨.hbm, 183, rfl⟩
abbrev main_cst_14 : Ref sig .tc := ⟨.hbm, 184, rfl⟩
abbrev main_v122 : Ref sig .tc := ⟨.hbm, 185, rfl⟩
abbrev main_v123 : Ref sig .tc := ⟨.hbm, 186, rfl⟩
abbrev main_c_15 : Ref sig .tc := ⟨.hbm, 187, rfl⟩
abbrev main_call1_cst : Ref sig .tc := ⟨.hbm, 188, rfl⟩
abbrev main_call1_v0 : Ref sig .tc := ⟨.hbm, 189, rfl⟩
abbrev main_call1_v1 : Ref sig .tc := ⟨.hbm, 190, rfl⟩
abbrev main_call1_cst_0 : Ref sig .tc := ⟨.hbm, 191, rfl⟩
abbrev main_call1_v2 : Ref sig .tc := ⟨.hbm, 192, rfl⟩
abbrev main_call1_v3 : Ref sig .tc := ⟨.hbm, 193, rfl⟩
abbrev main_call1_v4 : Ref sig .tc := ⟨.hbm, 194, rfl⟩
abbrev main_call1_v5 : Ref sig .tc := ⟨.hbm, 195, rfl⟩
abbrev main_call1_v6 : Ref sig .tc := ⟨.hbm, 196, rfl⟩
abbrev main_call1_v7 : Ref sig .tc := ⟨.hbm, 197, rfl⟩
abbrev main_call1_cst_1 : Ref sig .tc := ⟨.hbm, 198, rfl⟩
abbrev main_call1_v8 : Ref sig .tc := ⟨.hbm, 199, rfl⟩
abbrev main_call1_cst_2 : Ref sig .tc := ⟨.hbm, 200, rfl⟩
abbrev main_call1_v9 : Ref sig .tc := ⟨.hbm, 201, rfl⟩
abbrev main_call1_v10 : Ref sig .tc := ⟨.hbm, 202, rfl⟩
abbrev main_call1_v11 : Ref sig .tc := ⟨.hbm, 203, rfl⟩
abbrev main_call1_cst_3 : Ref sig .tc := ⟨.hbm, 204, rfl⟩
abbrev main_call1_v12 : Ref sig .tc := ⟨.hbm, 205, rfl⟩
abbrev main_call1_cst_4 : Ref sig .tc := ⟨.hbm, 206, rfl⟩
abbrev main_call1_call0_v0 : Ref sig .tc := ⟨.hbm, 207, rfl⟩
abbrev main_call1_call0_v1 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_cst_16 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_call2_cst : Ref sig .tc := ⟨.hbm, 226, rfl⟩
abbrev main_call2_v0 : Ref sig .tc := ⟨.hbm, 227, rfl⟩
abbrev main_v140 : Ref sig .tc := ⟨.hbm, 228, rfl⟩
abbrev main_call3_cst : Ref sig .tc := ⟨.hbm, 229, rfl⟩
abbrev main_call3_v0 : Ref sig .tc := ⟨.hbm, 230, rfl⟩
abbrev main_v141 : Ref sig .tc := ⟨.hbm, 231, rfl⟩
abbrev main_v142 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_c_17 : Ref sig .tc := ⟨.hbm, 274, rfl⟩
abbrev main_v184 : Ref sig .tc := ⟨.hbm, 275, rfl⟩
abbrev main_v185 : Ref sig .tc := ⟨.hbm, 276, rfl⟩
abbrev main_c_18 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_c_19 : Ref sig .tc := ⟨.hbm, 283, rfl⟩
abbrev main_v191 : Ref sig .tc := ⟨.hbm, 284, rfl⟩
abbrev main_v192 : Ref sig .tc := ⟨.hbm, 285, rfl⟩
abbrev main_c_20 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_cst_21 : Ref sig .tc := ⟨.hbm, 296, rfl⟩
abbrev main_v202 : Ref sig .tc := ⟨.hbm, 297, rfl⟩
abbrev main_v203 : Ref sig .tc := ⟨.hbm, 298, rfl⟩
abbrev main_cst_22 : Ref sig .tc := ⟨.hbm, 299, rfl⟩
abbrev main_v204 : Ref sig .tc := ⟨.hbm, 300, rfl⟩
abbrev main_v205 : Ref sig .tc := ⟨.hbm, 301, rfl⟩
abbrev main_c_23 : Ref sig .tc := ⟨.hbm, 302, rfl⟩
abbrev main_v206 : Ref sig .tc := ⟨.hbm, 303, rfl⟩
abbrev main_v207 : Ref sig .tc := ⟨.hbm, 304, rfl⟩
abbrev main_c_24 : Ref sig .tc := ⟨.hbm, 305, rfl⟩
abbrev main_v208 : Ref sig .tc := ⟨.hbm, 306, rfl⟩
abbrev main_v209 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_cst_25 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_cst_26 : Ref sig .tc := ⟨.hbm, 316, rfl⟩
abbrev main_v217 : Ref sig .tc := ⟨.hbm, 317, rfl⟩
abbrev main_v218 : Ref sig .tc := ⟨.hbm, 318, rfl⟩
abbrev main_v219 : Ref sig .tc := ⟨.hbm, 319, rfl⟩
abbrev main_cst_27 : Ref sig .tc := ⟨.hbm, 320, rfl⟩
abbrev main_v220 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_cst_28 : Ref sig .tc := ⟨.hbm, 333, rfl⟩
abbrev main_v232 : Ref sig .tc := ⟨.hbm, 334, rfl⟩
abbrev main_cst_29 : Ref sig .tc := ⟨.hbm, 335, rfl⟩
abbrev main_v233 : Ref sig .tc := ⟨.hbm, 336, rfl⟩
abbrev main_v234 : Ref sig .tc := ⟨.hbm, 337, rfl⟩
abbrev main_c_30 : Ref sig .tc := ⟨.hbm, 338, rfl⟩
abbrev main_call4_cst : Ref sig .tc := ⟨.hbm, 339, rfl⟩
abbrev main_call4_v0 : Ref sig .tc := ⟨.hbm, 340, rfl⟩
abbrev main_call4_v1 : Ref sig .tc := ⟨.hbm, 341, rfl⟩
abbrev main_call4_cst_0 : Ref sig .tc := ⟨.hbm, 342, rfl⟩
abbrev main_call4_v2 : Ref sig .tc := ⟨.hbm, 343, rfl⟩
abbrev main_call4_v3 : Ref sig .tc := ⟨.hbm, 344, rfl⟩
abbrev main_call4_v4 : Ref sig .tc := ⟨.hbm, 345, rfl⟩
abbrev main_call4_v5 : Ref sig .tc := ⟨.hbm, 346, rfl⟩
abbrev main_call4_v6 : Ref sig .tc := ⟨.hbm, 347, rfl⟩
abbrev main_call4_v7 : Ref sig .tc := ⟨.hbm, 348, rfl⟩
abbrev main_call4_cst_1 : Ref sig .tc := ⟨.hbm, 349, rfl⟩
abbrev main_call4_v8 : Ref sig .tc := ⟨.hbm, 350, rfl⟩
abbrev main_call4_cst_2 : Ref sig .tc := ⟨.hbm, 351, rfl⟩
abbrev main_call4_v9 : Ref sig .tc := ⟨.hbm, 352, rfl⟩
abbrev main_call4_v10 : Ref sig .tc := ⟨.hbm, 353, rfl⟩
abbrev main_call4_v11 : Ref sig .tc := ⟨.hbm, 354, rfl⟩
abbrev main_call4_cst_3 : Ref sig .tc := ⟨.hbm, 355, rfl⟩
abbrev main_call4_v12 : Ref sig .tc := ⟨.hbm, 356, rfl⟩
abbrev main_call4_cst_4 : Ref sig .tc := ⟨.hbm, 357, rfl⟩
abbrev main_call4_call0_v0 : Ref sig .tc := ⟨.hbm, 358, rfl⟩
abbrev main_call4_call0_v1 : Ref sig .tc := ⟨.hbm, 359, rfl⟩
abbrev main_v235 : Ref sig .tc := ⟨.hbm, 360, rfl⟩
abbrev main_v236 : Ref sig .tc := ⟨.hbm, 361, rfl⟩
abbrev main_v237 : Ref sig .tc := ⟨.hbm, 362, rfl⟩
abbrev main_v238 : Ref sig .tc := ⟨.hbm, 363, rfl⟩
abbrev main_cst_31 : Ref sig .tc := ⟨.hbm, 364, rfl⟩
abbrev main_v239 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_cst_32 : Ref sig .tc := ⟨.hbm, 381, rfl⟩
abbrev main_v255 : Ref sig .tc := ⟨.hbm, 382, rfl⟩
abbrev main_cst_33 : Ref sig .tc := ⟨.hbm, 383, rfl⟩
abbrev main_v256 : Ref sig .tc := ⟨.hbm, 384, rfl⟩
abbrev main_v257 : Ref sig .tc := ⟨.hbm, 385, rfl⟩
abbrev main_c_34 : Ref sig .tc := ⟨.hbm, 386, rfl⟩
abbrev main_call5_cst : Ref sig .tc := ⟨.hbm, 387, rfl⟩
abbrev main_call5_v0 : Ref sig .tc := ⟨.hbm, 388, rfl⟩
abbrev main_call5_v1 : Ref sig .tc := ⟨.hbm, 389, rfl⟩
abbrev main_call5_cst_0 : Ref sig .tc := ⟨.hbm, 390, rfl⟩
abbrev main_call5_v2 : Ref sig .tc := ⟨.hbm, 391, rfl⟩
abbrev main_call5_v3 : Ref sig .tc := ⟨.hbm, 392, rfl⟩
abbrev main_call5_v4 : Ref sig .tc := ⟨.hbm, 393, rfl⟩
abbrev main_call5_v5 : Ref sig .tc := ⟨.hbm, 394, rfl⟩
abbrev main_call5_v6 : Ref sig .tc := ⟨.hbm, 395, rfl⟩
abbrev main_call5_v7 : Ref sig .tc := ⟨.hbm, 396, rfl⟩
abbrev main_call5_cst_1 : Ref sig .tc := ⟨.hbm, 397, rfl⟩
abbrev main_call5_v8 : Ref sig .tc := ⟨.hbm, 398, rfl⟩
abbrev main_call5_cst_2 : Ref sig .tc := ⟨.hbm, 399, rfl⟩
abbrev main_call5_v9 : Ref sig .tc := ⟨.hbm, 400, rfl⟩
abbrev main_call5_v10 : Ref sig .tc := ⟨.hbm, 401, rfl⟩
abbrev main_call5_v11 : Ref sig .tc := ⟨.hbm, 402, rfl⟩
abbrev main_call5_cst_3 : Ref sig .tc := ⟨.hbm, 403, rfl⟩
abbrev main_call5_v12 : Ref sig .tc := ⟨.hbm, 404, rfl⟩
abbrev main_call5_cst_4 : Ref sig .tc := ⟨.hbm, 405, rfl⟩
abbrev main_call5_call0_v0 : Ref sig .tc := ⟨.hbm, 406, rfl⟩
abbrev main_call5_call0_v1 : Ref sig .tc := ⟨.hbm, 407, rfl⟩
abbrev main_v258 : Ref sig .tc := ⟨.hbm, 408, rfl⟩
abbrev main_v259 : Ref sig .tc := ⟨.hbm, 409, rfl⟩
abbrev main_v260 : Ref sig .tc := ⟨.hbm, 410, rfl⟩
abbrev main_v261 : Ref sig .tc := ⟨.hbm, 411, rfl⟩
abbrev main_cst_35 : Ref sig .tc := ⟨.hbm, 412, rfl⟩
abbrev main_v262 : Ref sig .tc := ⟨.hbm, 413, rfl⟩
abbrev main_v263 : Ref sig .tc := ⟨.hbm, 414, rfl⟩
abbrev main_v264 : Ref sig .tc := ⟨.hbm, 415, rfl⟩
abbrev main_v265 : Ref sig .tc := ⟨.hbm, 416, rfl⟩
abbrev main_v266 : Ref sig .tc := ⟨.hbm, 417, rfl⟩
abbrev main_v267 : Ref sig .tc := ⟨.hbm, 418, rfl⟩
abbrev main_v268 : Ref sig .tc := ⟨.hbm, 419, rfl⟩
abbrev main_v269 : Ref sig .tc := ⟨.hbm, 420, rfl⟩
abbrev main_v270 : Ref sig .tc := ⟨.hbm, 421, rfl⟩
abbrev main_v271 : Ref sig .tc := ⟨.hbm, 422, rfl⟩
abbrev main_v272 : Ref sig .tc := ⟨.hbm, 423, rfl⟩
abbrev main_v273 : Ref sig .tc := ⟨.hbm, 424, rfl⟩
abbrev main_call6_cst : Ref sig .tc := ⟨.hbm, 425, rfl⟩
abbrev main_call6_v0 : Ref sig .tc := ⟨.hbm, 426, rfl⟩
abbrev main_v274 : Ref sig .tc := ⟨.hbm, 427, rfl⟩
abbrev main_call7_cst : Ref sig .tc := ⟨.hbm, 428, rfl⟩
abbrev main_call7_v0 : Ref sig .tc := ⟨.hbm, 429, rfl⟩
abbrev main_v275 : Ref sig .tc := ⟨.hbm, 430, rfl⟩
abbrev main_v276 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_c_36 : Ref sig .tc := ⟨.hbm, 435, rfl⟩
abbrev main_call8_v0 : Ref sig .tc := ⟨.hbm, 436, rfl⟩
abbrev main_call8_c : Ref sig .tc := ⟨.hbm, 437, rfl⟩
abbrev main_call8_v1 : Ref sig .tc := ⟨.hbm, 438, rfl⟩
abbrev main_call8_c_0 : Ref sig .tc := ⟨.hbm, 439, rfl⟩
abbrev main_call8_v2 : Ref sig .tc := ⟨.hbm, 440, rfl⟩
abbrev main_call8_v3 : Ref sig .tc := ⟨.hbm, 441, rfl⟩
abbrev main_call8_v4 : Ref sig .tc := ⟨.hbm, 442, rfl⟩
abbrev main_call8_c_1 : Ref sig .tc := ⟨.hbm, 443, rfl⟩
abbrev main_call8_v5 : Ref sig .tc := ⟨.hbm, 444, rfl⟩
abbrev main_call8_v6 : Ref sig .tc := ⟨.hbm, 445, rfl⟩
abbrev main_call8_c_2 : Ref sig .tc := ⟨.hbm, 446, rfl⟩
abbrev main_call8_v7 : Ref sig .tc := ⟨.hbm, 447, rfl⟩
abbrev main_call8_v8 : Ref sig .tc := ⟨.hbm, 448, rfl⟩
abbrev main_call8_c_3 : Ref sig .tc := ⟨.hbm, 449, rfl⟩
abbrev main_call8_v9 : Ref sig .tc := ⟨.hbm, 450, rfl⟩
abbrev main_call8_v10 : Ref sig .tc := ⟨.hbm, 451, rfl⟩
abbrev main_call8_v11 : Ref sig .tc := ⟨.hbm, 452, rfl⟩
abbrev main_call8_v12 : Ref sig .tc := ⟨.hbm, 453, rfl⟩
abbrev main_call8_v13 : Ref sig .tc := ⟨.hbm, 454, rfl⟩
abbrev main_call8_v14 : Ref sig .tc := ⟨.hbm, 455, rfl⟩
abbrev main_v280 : Ref sig .tc := ⟨.hbm, 456, rfl⟩
abbrev main_v281 : Ref sig .tc := ⟨.hbm, 457, rfl⟩
abbrev main_v282 : Ref sig .tc := ⟨.hbm, 458, rfl⟩
abbrev main_c_37 : Ref sig .tc := ⟨.hbm, 459, rfl⟩
abbrev main_v283 : Ref sig .tc := ⟨.hbm, 460, rfl⟩
abbrev main_v284 : Ref sig .tc := ⟨.hbm, 461, rfl⟩
abbrev main_c_38 : Ref sig .tc := ⟨.hbm, 462, rfl⟩
abbrev main_v285 : Ref sig .tc := ⟨.hbm, 463, rfl⟩
abbrev main_v286 : Ref sig .tc := ⟨.hbm, 464, rfl⟩
abbrev main_v287 : Ref sig .tc := ⟨.hbm, 465, rfl⟩
abbrev main_v288 : Ref sig .tc := ⟨.hbm, 466, rfl⟩
abbrev main_v289 : Ref sig .tc := ⟨.hbm, 467, rfl⟩
abbrev main_c_39 : Ref sig .tc := ⟨.hbm, 468, rfl⟩
abbrev main_v290 : Ref sig .tc := ⟨.hbm, 469, rfl⟩
abbrev main_v291 : Ref sig .tc := ⟨.hbm, 470, rfl⟩
abbrev main_c_40 : Ref sig .tc := ⟨.hbm, 471, rfl⟩
abbrev main_v292 : Ref sig .tc := ⟨.hbm, 472, rfl⟩
abbrev main_v293 : Ref sig .tc := ⟨.hbm, 473, rfl⟩
abbrev main_v294 : Ref sig .tc := ⟨.hbm, 474, rfl⟩
abbrev main_v295 : Ref sig .tc := ⟨.hbm, 475, rfl⟩
abbrev main_v296 : Ref sig .tc := ⟨.hbm, 476, rfl⟩
abbrev main_v297 : Ref sig .tc := ⟨.hbm, 477, rfl⟩
abbrev main_v298 : Ref sig .tc := ⟨.hbm, 478, rfl⟩
abbrev main_c_41 : Ref sig .tc := ⟨.hbm, 479, rfl⟩
abbrev main_v299 : Ref sig .tc := ⟨.hbm, 480, rfl⟩
abbrev main_v300 : Ref sig .tc := ⟨.hbm, 481, rfl⟩
abbrev main_c_42 : Ref sig .tc := ⟨.hbm, 482, rfl⟩
abbrev main_v301 : Ref sig .tc := ⟨.hbm, 483, rfl⟩
abbrev main_v302 : Ref sig .tc := ⟨.hbm, 484, rfl⟩
abbrev main_v303 : Ref sig .tc := ⟨.hbm, 485, rfl⟩
abbrev main_v304 : Ref sig .tc := ⟨.hbm, 486, rfl⟩
abbrev main_v305 : Ref sig .tc := ⟨.hbm, 487, rfl⟩
abbrev main_v306 : Ref sig .tc := ⟨.hbm, 488, rfl⟩
abbrev main_v307 : Ref sig .tc := ⟨.hbm, 489, rfl⟩
abbrev main_cst_43 : Ref sig .tc := ⟨.hbm, 490, rfl⟩
abbrev main_v308 : Ref sig .tc := ⟨.hbm, 491, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  bcast_S256_S1x256_1 : S256.BroadcastsInDim S1x256 (![1] : Fin 1 → Fin S1x256.rank)
  bcast_S1x256_S160000x256_0_1 : S1x256.BroadcastsInDim S160000x256 (![0, 1] : Fin 2 → Fin S160000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S1x256_S10000x256_0_1 : S1x256.BroadcastsInDim S10000x256 (![0, 1] : Fin 2 → Fin S10000x256.rank)
  bcast_S_S160000 : S_.BroadcastsInDim S160000 (![] : Fin 0 → Fin S160000.rank)
  bcast_S160000_S160000x1_0 : S160000.BroadcastsInDim S160000x1 (![0] : Fin 1 → Fin S160000x1.rank)
  bcast_S_S160000x256 : S_.BroadcastsInDim S160000x256 (![] : Fin 0 → Fin S160000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S160000x1_S160000x256_0_1 : S160000x1.BroadcastsInDim S160000x256 (![0, 1] : Fin 2 → Fin S160000x256.rank)
  reducesTo_S10000x256_S256_d0 : S10000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  reducesTo_S160000x256_S256_d0 : S160000x256.ReducesTo [0] S256
  slices_S2x256x256_S1x256x256_1_0_0 : S2x256x256.Slices ![1, 0, 0] S1x256x256
  slices_S2x256_S1x256_1_0 : S2x256.Slices ![1, 0] S1x256
  slices_S50000x3_S50000x1_0_1 : S50000x3.Slices ![0, 1] S50000x1
  shapeCasts_S50000x1_S50000 : S50000x1.ShapeCasts S50000
  bcast_S_S50000 : S_.BroadcastsInDim S50000 (![] : Fin 0 → Fin S50000.rank)
  slices_S50000x3_S50000x1_0_0 : S50000x3.Slices ![0, 0] S50000x1
  bcast_S50000_S50000x1_0 : S50000.BroadcastsInDim S50000x1 (![0] : Fin 1 → Fin S50000x1.rank)
  slices_S50000x3_S50000x1_0_2 : S50000x3.Slices ![0, 2] S50000x1
  reducesTo_S50000x256_S50000_d1 : S50000x256.ReducesTo [1] S50000
  dot_S1000x256_S256x256_S1000x256_1_0_0_1_n_n_wf : DotDims.WF S1000x256 S256x256 S1000x256 [1] [0] [0] [1] [] []
  dot_S160000x16_S16x256_S160000x256_1_0_0_1_n_n_wf : DotDims.WF S160000x16 S16x256 S160000x256 [1] [0] [0] [1] [] []
  dot_S10000x256_S256x256_S10000x256_1_0_0_1_n_n_wf : DotDims.WF S10000x256 S256x256 S10000x256 [1] [0] [0] [1] [] []
  dot_S160000x256_S256x256_S160000x256_1_0_0_1_n_n_wf : DotDims.WF S160000x256 S256x256 S160000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  gather_S10000x256_S50000x1_S50000x256_1_0_n_n_0_1_1256_wf : GatherDims.WF S10000x256 S50000x1 S50000x256 [1] [0] [] [0] [] 1 ![1, 256]
  gather_S16x256_S50000x1_S50000x256_1_0_n_n_0_1_1256_wf : GatherDims.WF S16x256 S50000x1 S50000x256 [1] [0] [] [0] [] 1 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S10000x256.size a
  hwx0_0 : ∀ i : grid0.Coords, EltTy.bits .f32 = 32 ∨ (Rect.block (s := S10000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x256.size a ≤ S10000x256.size a
  hwx0_3 : ∀ i : grid0.Coords, EltTy.bits .f32 = 32 ∨ (Rect.block (s := S10000x256) S1000x256.size (cc0_transform_3 i) (hinb0_3 i)).WholeWords (EltTy.packing .f32)

variable [Facts₀]

def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf
def dot_S160000x16_S16x256_S160000x256_1_0_0_1_n_n : DotDims S160000x16 S16x256 S160000x256 where
  lhsContracting := [1]
  rhsContracting := [0]
  lhsNonContracting := [0]
  rhsNonContracting := [1]
  lhsBatch := []
  rhsBatch := []
  wf := dot_S160000x16_S16x256_S160000x256_1_0_0_1_n_n_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def gather_S10000x256_S50000x1_S50000x256_1_0_n_n_0_1_1256 : GatherDims S10000x256 S50000x1 S50000x256 where
  offsetDims := [1]
  collapsedSliceDims := [0]
  operandBatchingDims := []
  startIndicesBatchingDims := []
  startIndexMap := [0]
  indexVectorDim := 1
  sliceSizes := ![1, 256]
  wf := gather_S10000x256_S50000x1_S50000x256_1_0_n_n_0_1_1256_wf
def gather_S16x256_S50000x1_S50000x256_1_0_n_n_0_1_1256 : GatherDims S16x256 S50000x1 S50000x256 where
  offsetDims := [1]
  collapsedSliceDims := [0]
  operandBatchingDims := []
  startIndicesBatchingDims := []
  startIndexMap := [0]
  indexVectorDim := 1
  sliceSizes := ![1, 256]
  wf := gather_S16x256_S50000x1_S50000x256_1_0_n_n_0_1_1256_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x256 : Shape := ⟨2, ![10000, 256]⟩
abbrev S160000x16 : Shape := ⟨2, ![160000, 16]⟩
abbrev S10000x1 : Shape := ⟨2, ![10000, 1]⟩
abbrev S160000x1 : Shape := ⟨2, ![160000, 1]⟩
abbrev S256x256 : Shape := ⟨2, ![256, 256]⟩
abbrev S256 : Shape := ⟨1, ![256]⟩
abbrev S16x256 : Shape := ⟨2, ![16, 256]⟩
abbrev S2x256x256 : Shape := ⟨3, ![2, 256, 256]⟩
abbrev S2x256 : Shape := ⟨2, ![2, 256]⟩
abbrev S2x160000 : Shape := ⟨2, ![2, 160000]⟩
abbrev S50000x3 : Shape := ⟨2, ![50000, 3]⟩
abbrev S1x160000 : Shape := ⟨2, ![1, 160000]⟩
abbrev S160000 : Shape := ⟨1, ![160000]⟩
abbrev S1x256 : Shape := ⟨2, ![1, 256]⟩
abbrev S160000x256 : Shape := ⟨2, ![160000, 256]⟩
abbrev S1x256x256 : Shape := ⟨3, ![1, 256, 256]⟩
abbrev S_ : Shape := ⟨0, ![]⟩
abbrev S50000x1 : Shape := ⟨2, ![50000, 1]⟩
abbrev S50000 : Shape := ⟨1, ![50000]⟩
abbrev S50000x256 : Shape := ⟨2, ![50000, 256]⟩

abbrev nBuf : Space → Nat
  | .hbm => 494
  | .vmem => 0
  | .smem => 0
  | _ => 0

abbrev hbmTy0_0 (i : Nat) : BufTy := match i % 128 with
  | 0 => ⟨S10000x256, .f32⟩
  | 1 => ⟨S160000x16, .f32⟩
  | 2 => ⟨S10000x1, .f32⟩
  | 3 => ⟨S160000x1, .f32⟩
  | 4 => ⟨S256x256, .f32⟩
  | 5 => ⟨S256, .f32⟩
  | 6 => ⟨S16x256, .f32⟩
  | 7 => ⟨S256, .f32⟩
  | 8 => ⟨S16x256, .f32⟩
  | 9 => ⟨S2x256x256, .f32⟩
  | 10 => ⟨S2x256, .f32⟩
  | 11 => ⟨S2x256x256, .f32⟩
  | 12 => ⟨S2x256, .f32⟩
  | 13 => ⟨S2x256x256, .f32⟩
  | 14 => ⟨S2x256, .f32⟩
  | 15 => ⟨S2x256x256, .f32⟩
  | 16 => ⟨S2x256, .f32⟩
  | 17 => ⟨S2x256x256, .f32⟩
  | 18 => ⟨S2x256, .f32⟩
  | 19 => ⟨S2x256, .f32⟩
  | 20 => ⟨S2x256, .f32⟩
  | 21 => ⟨S2x256, .f32⟩
  | 22 => ⟨S2x256, .f32⟩
  | 23 => ⟨S2x160000, .i32⟩
  | 24 => ⟨S50000x3, .i32⟩
  | 25 => ⟨S1x160000, .i32⟩
  | 26 => ⟨S160000, .i32⟩
  | 27 => ⟨S1x160000, .i32⟩
  | 28 => ⟨S160000, .i32⟩
  | 29 => ⟨S10000x256, .f32⟩
  | 30 => ⟨S1x256, .f32⟩
  | 31 => ⟨S10000x256, .f32⟩
  | 32 => ⟨S10000x256, .f32⟩
  | 33 => ⟨S160000x256, .f32⟩
  | 34 => ⟨S1x256, .f32⟩
  | 35 => ⟨S160000x256, .f32⟩
  | 36 => ⟨S160000x256, .f32⟩
  | 37 => ⟨S1x256x256, .f32⟩
  | 38 => ⟨S256x256, .f32⟩
  | 39 => ⟨S10000x256, .f32⟩
  | 40 => ⟨S1x256, .f32⟩
  | 41 => ⟨S256, .f32⟩
  | 42 => ⟨S1x256, .f32⟩
  | 43 => ⟨S10000x256, .f32⟩
  | 44 => ⟨S10000x256, .f32⟩
  | 45 => ⟨S1x256x256, .f32⟩
  | 46 => ⟨S256x256, .f32⟩
  | 47 => ⟨S10000x256, .f32⟩
  | 48 => ⟨S1x256, .f32⟩
  | 49 => ⟨S256, .f32⟩
  | 50 => ⟨S1x256, .f32⟩
  | 51 => ⟨S10000x256, .f32⟩
  | 52 => ⟨S10000x256, .f32⟩
  | 53 => ⟨S1x256x256, .f32⟩
  | 54 => ⟨S256x256, .f32⟩
  | 55 => ⟨S10000x256, .f32⟩
  | 56 => ⟨S1x256, .f32⟩
  | 57 => ⟨S256, .f32⟩
  | 58 => ⟨S1x256, .f32⟩
  | 59 => ⟨S10000x256, .f32⟩
  | 60 => ⟨S10000x256, .f32⟩
  | 61 => ⟨S1x256x256, .f32⟩
  | 62 => ⟨S256x256, .f32⟩
  | 63 => ⟨S10000x256, .f32⟩
  | 64 => ⟨S1x256, .f32⟩
  | 65 => ⟨S256, .f32⟩
  | 66 => ⟨S1x256, .f32⟩
  | 67 => ⟨S10000x256, .f32⟩
  | 68 => ⟨S10000x256, .f32⟩
  | 69 => ⟨S1x256x256, .f32⟩
  | 70 => ⟨S256x256, .f32⟩
  | 71 => ⟨S160000x256, .f32⟩
  | 72 => ⟨S1x256, .f32⟩
  | 73 => ⟨S256, .f32⟩
  | 74 => ⟨S1x256, .f32⟩
  | 75 => ⟨S160000x256, .f32⟩
  | 76 => ⟨S160000x256, .f32⟩
  | 77 => ⟨S_, .i32⟩
  | 78 => ⟨S160000, .i32⟩
  | 79 => ⟨S160000, .i1⟩
  | 80 => ⟨S_, .i32⟩
  | 81 => ⟨S160000, .i32⟩
  | 82 => ⟨S160000, .i32⟩
  | 83 => ⟨S160000, .i32⟩
  | 84 => ⟨S160000x1, .i32⟩
  | 85 => ⟨S160000x256, .f32⟩
  | 86 => ⟨S_, .i32⟩
  | 87 => ⟨S160000, .i32⟩
  | 88 => ⟨S160000, .i1⟩
  | 89 => ⟨S_, .i32⟩
  | 90 => ⟨S160000, .i32⟩
  | 91 => ⟨S160000, .i32⟩
  | 92 => ⟨S160000, .i32⟩
  | 93 => ⟨S160000x1, .i32⟩
  | 94 => ⟨S160000x256, .f32⟩
  | 95 => ⟨S160000x256, .f32⟩
  | 96 => ⟨S160000x256, .f32⟩
  | 97 => ⟨S160000x256, .f32⟩
  | 98 => ⟨S160000x256, .f32⟩
  | 99 => ⟨S_, .f32⟩
  | 100 => ⟨S160000x256, .f32⟩
  | 101 => ⟨S160000x256, .f32⟩
  | 102 => ⟨S_, .f32⟩
  | 103 => ⟨S160000x256, .f32⟩
  | 104 => ⟨S160000x256, .f32⟩
  | 105 => ⟨S_, .i32⟩
  | 106 => ⟨S160000, .i32⟩
  | 107 => ⟨S160000, .i1⟩
  | 108 => ⟨S_, .i32⟩
  | 109 => ⟨S160000, .i32⟩
  | 110 => ⟨S160000, .i32⟩
  | 111 => ⟨S160000, .i32⟩
  | 112 => ⟨S160000x1, .i32⟩
  | 113 => ⟨S160000x256, .f32⟩
  | 114 => ⟨S160000x256, .f32⟩
  | 115 => ⟨S_, .f32⟩
  | 116 => ⟨S10000x256, .f32⟩
  | 117 => ⟨S160000x1, .i32⟩
  | 118 => ⟨S10000x256, .f32⟩
  | 119 => ⟨S_, .f32⟩
  | 120 => ⟨S10000x256, .f32⟩
  | 121 => ⟨S160000x1, .i32⟩
  | 122 => ⟨S10000x256, .f32⟩
  | 123 => ⟨S_, .f32⟩
  | 124 => ⟨S10000x256, .f32⟩
  | 125 => ⟨S10000x256, .f32⟩
  | 126 => ⟨S10000x256, .f32⟩
  | 127 => ⟨S10000x256, .f32⟩
  | _ => ⟨S10000x256, .f32⟩

abbrev hbmTy0_1 (i : Nat) : BufTy := match i % 128 with
  | 0 => ⟨S10000x256, .f32⟩
  | 1 => ⟨S10000x256, .f32⟩
  | 2 => ⟨S160000x256, .f32⟩
  | 3 => ⟨S160000x256, .f32⟩
  | 4 => ⟨S1x256, .f32⟩
  | 5 => ⟨S256, .f32⟩
  | 6 => ⟨S1x256, .f32⟩
  | 7 => ⟨S256, .f32⟩
  | 8 => ⟨S_, .f32⟩
  | 9 => ⟨S256, .f32⟩
  | 10 => ⟨S_, .f32⟩
  | 11 => ⟨S256, .f32⟩
  | 12 => ⟨S256, .f32⟩
  | 13 => ⟨S_, .i32⟩
  | 14 => ⟨S_, .f32⟩
  | 15 => ⟨S256, .f32⟩
  | 16 => ⟨S1x256, .f32⟩
  | 17 => ⟨S_, .f32⟩
  | 18 => ⟨S1x256, .f32⟩
  | 19 => ⟨S1x256, .f32⟩
  | 20 => ⟨S10000x256, .f32⟩
  | 21 => ⟨S10000x256, .f32⟩
  | 22 => ⟨S10000x256, .f32⟩
  | 23 => ⟨S_, .f32⟩
  | 24 => ⟨S_, .f32⟩
  | 25 => ⟨S_, .f32⟩
  | 26 => ⟨S_, .f32⟩
  | 27 => ⟨S256, .f32⟩
  | 28 => ⟨S256, .f32⟩
  | 29 => ⟨S256, .f32⟩
  | 30 => ⟨S_, .f32⟩
  | 31 => ⟨S_, .i1⟩
  | 32 => ⟨S_, .f32⟩
  | 33 => ⟨S_, .f32⟩
  | 34 => ⟨S256, .f32⟩
  | 35 => ⟨S256, .f32⟩
  | 36 => ⟨S1x256, .f32⟩
  | 37 => ⟨S10000x256, .f32⟩
  | 38 => ⟨S10000x256, .f32⟩
  | 39 => ⟨S_, .f32⟩
  | 40 => ⟨S256, .f32⟩
  | 41 => ⟨S256, .f32⟩
  | 42 => ⟨S256, .f32⟩
  | 43 => ⟨S1x256, .f32⟩
  | 44 => ⟨S10000x256, .f32⟩
  | 45 => ⟨S10000x256, .f32⟩
  | 46 => ⟨S1x256, .f32⟩
  | 47 => ⟨S10000x256, .f32⟩
  | 48 => ⟨S10000x256, .f32⟩
  | 49 => ⟨S1x256, .f32⟩
  | 50 => ⟨S10000x256, .f32⟩
  | 51 => ⟨S10000x256, .f32⟩
  | 52 => ⟨S1x256, .f32⟩
  | 53 => ⟨S256, .f32⟩
  | 54 => ⟨S1x256, .f32⟩
  | 55 => ⟨S256, .f32⟩
  | 56 => ⟨S_, .f32⟩
  | 57 => ⟨S256, .f32⟩
  | 58 => ⟨S_, .f32⟩
  | 59 => ⟨S256, .f32⟩
  | 60 => ⟨S256, .f32⟩
  | 61 => ⟨S_, .i32⟩
  | 62 => ⟨S_, .f32⟩
  | 63 => ⟨S256, .f32⟩
  | 64 => ⟨S1x256, .f32⟩
  | 65 => ⟨S_, .f32⟩
  | 66 => ⟨S1x256, .f32⟩
  | 67 => ⟨S1x256, .f32⟩
  | 68 => ⟨S160000x256, .f32⟩
  | 69 => ⟨S160000x256, .f32⟩
  | 70 => ⟨S160000x256, .f32⟩
  | 71 => ⟨S_, .f32⟩
  | 72 => ⟨S_, .f32⟩
  | 73 => ⟨S_, .f32⟩
  | 74 => ⟨S_, .f32⟩
  | 75 => ⟨S256, .f32⟩
  | 76 => ⟨S256, .f32⟩
  | 77 => ⟨S256, .f32⟩
  | 78 => ⟨S_, .f32⟩
  | 79 => ⟨S_, .i1⟩
  | 80 => ⟨S_, .f32⟩
  | 81 => ⟨S_, .f32⟩
  | 82 => ⟨S256, .f32⟩
  | 83 => ⟨S256, .f32⟩
  | 84 => ⟨S1x256, .f32⟩
  | 85 => ⟨S160000x256, .f32⟩
  | 86 => ⟨S160000x256, .f32⟩
  | 87 => ⟨S_, .f32⟩
  | 88 => ⟨S256, .f32⟩
  | 89 => ⟨S256, .f32⟩
  | 90 => ⟨S256, .f32⟩
  | 91 => ⟨S1x256, .f32⟩
  | 92 => ⟨S160000x256, .f32⟩
  | 93 => ⟨S160000x256, .f32⟩
  | 94 => ⟨S1x256, .f32⟩
  | 95 => ⟨S160000x256, .f32⟩
  | 96 => ⟨S160000x256, .f32⟩
  | 97 => ⟨S1x256, .f32⟩
  | 98 => ⟨S160000x256, .f32⟩
  | 99 => ⟨S160000x256, .f32⟩
  | 100 => ⟨S_, .f32⟩
  | 101 => ⟨S10000x256, .f32⟩
  | 102 => ⟨S10000x256, .f32⟩
  | 103 => ⟨S_, .f32⟩
  | 104 => ⟨S160000x256, .f32⟩
  | 105 => ⟨S160000x256, .f32⟩
  | 106 => ⟨S10000x256, .f32⟩
  | 107 => ⟨S160000x256, .f32⟩
  | 108 => ⟨S1x256x256, .f32⟩
  | 109 => ⟨S256x256, .f32⟩
  | 110 => ⟨S10000x256, .f32⟩
  | 111 => ⟨S1x256, .f32⟩
  | 112 => ⟨S256, .f32⟩
  | 113 => ⟨S1x256, .f32⟩
  | 114 => ⟨S10000x256, .f32⟩
  | 115 => ⟨S10000x256, .f32⟩
  | 116 => ⟨S1x256x256, .f32⟩
  | 117 => ⟨S256x256, .f32⟩
  | 118 => ⟨S10000x256, .f32⟩
  | 119 => ⟨S1x256, .f32⟩
  | 120 => ⟨S256, .f32⟩
  | 121 => ⟨S1x256, .f32⟩
  | 122 => ⟨S10000x256, .f32⟩
  | 123 => ⟨S10000x256, .f32⟩
  | 124 => ⟨S1x256x256, .f32⟩
  | 125 => ⟨S256x256, .f32⟩
  | 126 => ⟨S10000x256, .f32⟩
  | 127 => ⟨S1x256, .f32⟩
  | _ => ⟨S10000x256, .f32⟩

abbrev hbmTy0_2 (i : Nat) : BufTy := match i % 128 with
  | 0 => ⟨S256, .f32⟩
  | 1 => ⟨S1x256, .f32⟩
  | 2 => ⟨S10000x256, .f32⟩
  | 3 => ⟨S10000x256, .f32⟩
  | 4 => ⟨S1x256x256, .f32⟩
  | 5 => ⟨S256x256, .f32⟩
  | 6 => ⟨S10000x256, .f32⟩
  | 7 => ⟨S1x256, .f32⟩
  | 8 => ⟨S256, .f32⟩
  | 9 => ⟨S1x256, .f32⟩
  | 10 => ⟨S10000x256, .f32⟩
  | 11 => ⟨S10000x256, .f32⟩
  | 12 => ⟨S1x256x256, .f32⟩
  | 13 => ⟨S256x256, .f32⟩
  | 14 => ⟨S160000x256, .f32⟩
  | 15 => ⟨S1x256, .f32⟩
  | 16 => ⟨S256, .f32⟩
  | 17 => ⟨S1x256, .f32⟩
  | 18 => ⟨S160000x256, .f32⟩
  | 19 => ⟨S160000x256, .f32⟩
  | 20 => ⟨S_, .i32⟩
  | 21 => ⟨S160000, .i32⟩
  | 22 => ⟨S160000, .i1⟩
  | 23 => ⟨S_, .i32⟩
  | 24 => ⟨S160000, .i32⟩
  | 25 => ⟨S160000, .i32⟩
  | 26 => ⟨S160000, .i32⟩
  | 27 => ⟨S160000x1, .i32⟩
  | 28 => ⟨S160000x256, .f32⟩
  | 29 => ⟨S_, .i32⟩
  | 30 => ⟨S160000, .i32⟩
  | 31 => ⟨S160000, .i1⟩
  | 32 => ⟨S_, .i32⟩
  | 33 => ⟨S160000, .i32⟩
  | 34 => ⟨S160000, .i32⟩
  | 35 => ⟨S160000, .i32⟩
  | 36 => ⟨S160000x1, .i32⟩
  | 37 => ⟨S160000x256, .f32⟩
  | 38 => ⟨S160000x256, .f32⟩
  | 39 => ⟨S160000x256, .f32⟩
  | 40 => ⟨S160000x256, .f32⟩
  | 41 => ⟨S160000x256, .f32⟩
  | 42 => ⟨S_, .f32⟩
  | 43 => ⟨S160000x256, .f32⟩
  | 44 => ⟨S160000x256, .f32⟩
  | 45 => ⟨S_, .f32⟩
  | 46 => ⟨S160000x256, .f32⟩
  | 47 => ⟨S160000x256, .f32⟩
  | 48 => ⟨S_, .i32⟩
  | 49 => ⟨S160000, .i32⟩
  | 50 => ⟨S160000, .i1⟩
  | 51 => ⟨S_, .i32⟩
  | 52 => ⟨S160000, .i32⟩
  | 53 => ⟨S160000, .i32⟩
  | 54 => ⟨S160000, .i32⟩
  | 55 => ⟨S160000x1, .i32⟩
  | 56 => ⟨S160000x256, .f32⟩
  | 57 => ⟨S160000x256, .f32⟩
  | 58 => ⟨S_, .f32⟩
  | 59 => ⟨S10000x256, .f32⟩
  | 60 => ⟨S160000x1, .i32⟩
  | 61 => ⟨S10000x256, .f32⟩
  | 62 => ⟨S_, .f32⟩
  | 63 => ⟨S10000x256, .f32⟩
  | 64 => ⟨S160000x1, .i32⟩
  | 65 => ⟨S10000x256, .f32⟩
  | 66 => ⟨S_, .f32⟩
  | 67 => ⟨S10000x256, .f32⟩
  | 68 => ⟨S10000x256, .f32⟩
  | 69 => ⟨S10000x256, .f32⟩
  | 70 => ⟨S10000x256, .f32⟩
  | 71 => ⟨S10000x256, .f32⟩
  | 72 => ⟨S10000x256, .f32⟩
  | 73 => ⟨S160000x256, .f32⟩
  | 74 => ⟨S160000x256, .f32⟩
  | 75 => ⟨S1x256, .f32⟩
  | 76 => ⟨S256, .f32⟩
  | 77 => ⟨S1x256, .f32⟩
  | 78 => ⟨S256, .f32⟩
  | 79 => ⟨S_, .f32⟩
  | 80 => ⟨S256, .f32⟩
  | 81 => ⟨S_, .f32⟩
  | 82 => ⟨S256, .f32⟩
  | 83 => ⟨S256, .f32⟩
  | 84 => ⟨S_, .i32⟩
  | 85 => ⟨S_, .f32⟩
  | 86 => ⟨S256, .f32⟩
  | 87 => ⟨S1x256, .f32⟩
  | 88 => ⟨S_, .f32⟩
  | 89 => ⟨S1x256, .f32⟩
  | 90 => ⟨S1x256, .f32⟩
  | 91 => ⟨S10000x256, .f32⟩
  | 92 => ⟨S10000x256, .f32⟩
  | 93 => ⟨S10000x256, .f32⟩
  | 94 => ⟨S_, .f32⟩
  | 95 => ⟨S_, .f32⟩
  | 96 => ⟨S_, .f32⟩
  | 97 => ⟨S_, .f32⟩
  | 98 => ⟨S256, .f32⟩
  | 99 => ⟨S256, .f32⟩
  | 100 => ⟨S256, .f32⟩
  | 101 => ⟨S_, .f32⟩
  | 102 => ⟨S_, .i1⟩
  | 103 => ⟨S_, .f32⟩
  | 104 => ⟨S_, .f32⟩
  | 105 => ⟨S256, .f32⟩
  | 106 => ⟨S256, .f32⟩
  | 107 => ⟨S1x256, .f32⟩
  | 108 => ⟨S10000x256, .f32⟩
  | 109 => ⟨S10000x256, .f32⟩
  | 110 => ⟨S_, .f32⟩
  | 111 => ⟨S256, .f32⟩
  | 112 => ⟨S256, .f32⟩
  | 113 => ⟨S256, .f32⟩
  | 114 => ⟨S1x256, .f32⟩
  | 115 => ⟨S10000x256, .f32⟩
  | 116 => ⟨S10000x256, .f32⟩
  | 117 => ⟨S1x256, .f32⟩
  | 118 => ⟨S10000x256, .f32⟩
  | 119 => ⟨S10000x256, .f32⟩
  | 120 => ⟨S1x256, .f32⟩
  | 121 => ⟨S10000x256, .f32⟩
  | 122 => ⟨S10000x256, .f32⟩
  | 123 => ⟨S1x256, .f32⟩
  | 124 => ⟨S256, .f32⟩
  | 125 => ⟨S1x256, .f32⟩
  | 126 => ⟨S256, .f32⟩
  | 127 => ⟨S_, .f32⟩
  | _ => ⟨S10000x256, .f32⟩

abbrev hbmTy0_3 (i : Nat) : BufTy := match i % 128 with
  | 0 => ⟨S256, .f32⟩
  | 1 => ⟨S_, .f32⟩
  | 2 => ⟨S256, .f32⟩
  | 3 => ⟨S256, .f32⟩
  | 4 => ⟨S_, .i32⟩
  | 5 => ⟨S_, .f32⟩
  | 6 => ⟨S256, .f32⟩
  | 7 => ⟨S1x256, .f32⟩
  | 8 => ⟨S_, .f32⟩
  | 9 => ⟨S1x256, .f32⟩
  | 10 => ⟨S1x256, .f32⟩
  | 11 => ⟨S160000x256, .f32⟩
  | 12 => ⟨S160000x256, .f32⟩
  | 13 => ⟨S160000x256, .f32⟩
  | 14 => ⟨S_, .f32⟩
  | 15 => ⟨S_, .f32⟩
  | 16 => ⟨S_, .f32⟩
  | 17 => ⟨S_, .f32⟩
  | 18 => ⟨S256, .f32⟩
  | 19 => ⟨S256, .f32⟩
  | 20 => ⟨S256, .f32⟩
  | 21 => ⟨S_, .f32⟩
  | 22 => ⟨S_, .i1⟩
  | 23 => ⟨S_, .f32⟩
  | 24 => ⟨S_, .f32⟩
  | 25 => ⟨S256, .f32⟩
  | 26 => ⟨S256, .f32⟩
  | 27 => ⟨S1x256, .f32⟩
  | 28 => ⟨S160000x256, .f32⟩
  | 29 => ⟨S160000x256, .f32⟩
  | 30 => ⟨S_, .f32⟩
  | 31 => ⟨S256, .f32⟩
  | 32 => ⟨S256, .f32⟩
  | 33 => ⟨S256, .f32⟩
  | 34 => ⟨S1x256, .f32⟩
  | 35 => ⟨S160000x256, .f32⟩
  | 36 => ⟨S160000x256, .f32⟩
  | 37 => ⟨S1x256, .f32⟩
  | 38 => ⟨S160000x256, .f32⟩
  | 39 => ⟨S160000x256, .f32⟩
  | 40 => ⟨S1x256, .f32⟩
  | 41 => ⟨S160000x256, .f32⟩
  | 42 => ⟨S160000x256, .f32⟩
  | 43 => ⟨S_, .f32⟩
  | 44 => ⟨S10000x256, .f32⟩
  | 45 => ⟨S10000x256, .f32⟩
  | 46 => ⟨S_, .f32⟩
  | 47 => ⟨S160000x256, .f32⟩
  | 48 => ⟨S160000x256, .f32⟩
  | 49 => ⟨S10000x256, .f32⟩
  | 50 => ⟨S160000x256, .f32⟩
  | 51 => ⟨S50000x1, .i32⟩
  | 52 => ⟨S50000, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S50000, .i32⟩
  | 60 => ⟨S50000, .i32⟩
  | 61 => ⟨S_, .i32⟩
  | 62 => ⟨S50000, .i32⟩
  | 63 => ⟨S50000, .i1⟩
  | 64 => ⟨S_, .i32⟩
  | 65 => ⟨S50000, .i32⟩
  | 66 => ⟨S50000, .i1⟩
  | 67 => ⟨S_, .i32⟩
  | 68 => ⟨S_, .i1⟩
  | 69 => ⟨S50000, .i1⟩
  | 70 => ⟨S50000, .i1⟩
  | 71 => ⟨S50000, .i1⟩
  | 72 => ⟨S50000, .i32⟩
  | 73 => ⟨S50000, .i32⟩
  | 74 => ⟨S50000, .i32⟩
  | 75 => ⟨S50000x1, .i32⟩
  | 76 => ⟨S50000, .i32⟩
  | 77 => ⟨S_, .i32⟩
  | 78 => ⟨S50000, .i32⟩
  | 79 => ⟨S50000, .i1⟩
  | 80 => ⟨S_, .i32⟩
  | 81 => ⟨S50000, .i32⟩
  | 82 => ⟨S50000, .i32⟩
  | 83 => ⟨S50000, .i32⟩
  | 84 => ⟨S50000x1, .i32⟩
  | 85 => ⟨S50000x256, .f32⟩
  | 86 => ⟨S_, .i32⟩
  | 87 => ⟨S50000, .i32⟩
  | 88 => ⟨S50000, .i1⟩
  | 89 => ⟨S_, .i32⟩
  | 90 => ⟨S50000, .i32⟩
  | 91 => ⟨S50000, .i32⟩
  | 92 => ⟨S50000, .i32⟩
  | 93 => ⟨S50000x1, .i32⟩
  | 94 => ⟨S50000x256, .f32⟩
  | 95 => ⟨S50000x1, .i32⟩
  | 96 => ⟨S50000, .i32⟩
  | 97 => ⟨S_, .i32⟩
  | 98 => ⟨S50000, .i32⟩
  | 99 => ⟨S50000, .i1⟩
  | 100 => ⟨S_, .i32⟩
  | 101 => ⟨S50000, .i32⟩
  | 102 => ⟨S50000, .i32⟩
  | 103 => ⟨S50000, .i32⟩
  | 104 => ⟨S50000x1, .i32⟩
  | 105 => ⟨S50000x256, .f32⟩
  | 106 => ⟨S50000x256, .f32⟩
  | 107 => ⟨S50000x256, .f32⟩
  | 108 => ⟨S_, .f32⟩
  | 109 => ⟨S50000, .f32⟩
  | _ => ⟨S10000x256, .f32⟩

abbrev hbmTy (i : Nat) : BufTy := match i / 128 with
  | 0 => hbmTy0_0 i
  | 1 => hbmTy0_1 i
  | 2 => hbmTy0_2 i
  | 3 => hbmTy0_3 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c : Ref sig .tc := ⟨.hbm, 77, rfl⟩
abbrev main_v52 : Ref sig .tc := ⟨.hbm, 78, rfl⟩
abbrev main_v53 : Ref sig .tc := ⟨.hbm, 79, rfl⟩
abbrev main_c_0 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_1 : Ref sig .tc := ⟨.hbm, 86, rfl⟩
abbrev main_v59 : Ref sig .tc := ⟨.hbm, 87, rfl⟩
abbrev main_v60 : Ref sig .tc := ⟨.hbm, 88, rfl⟩
abbrev main_c_2 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst : Ref sig .tc := ⟨.hbm, 99, rfl⟩
abbrev main_v70 : Ref sig .tc := ⟨.hbm, 100, rfl⟩
abbrev main_v71 : Ref sig .tc := ⟨.hbm, 101, rfl⟩
abbrev main_cst_3 : Ref sig .tc := ⟨.hbm, 102, rfl⟩
abbrev main_v72 : Ref sig .tc := ⟨.hbm, 103, rfl⟩
abbrev main_v73 : Ref sig .tc := ⟨.hbm, 104, rfl⟩
abbrev main_c_4 : Ref sig .tc := ⟨.hbm, 105, rfl⟩
abbrev main_v74 : Ref sig .tc := ⟨.hbm, 106, rfl⟩
abbrev main_v75 : Ref sig .tc := ⟨.hbm, 107, rfl⟩
abbrev main_c_5 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_6 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_7 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_8 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_9 : Ref sig .tc := ⟨.hbm, 136, rfl⟩
abbrev main_v100 : Ref sig .tc := ⟨.hbm, 137, rfl⟩
abbrev main_cst_10 : Ref sig .tc := ⟨.hbm, 138, rfl⟩
abbrev main_v101 : Ref sig .tc := ⟨.hbm, 139, rfl⟩
abbrev main_v102 : Ref sig .tc := ⟨.hbm, 140, rfl⟩
abbrev main_c_11 : Ref sig .tc := ⟨.hbm, 141, rfl⟩
abbrev main_call0_cst : Ref sig .tc := ⟨.hbm, 142, rfl⟩
abbrev main_call0_v0 : Ref sig .tc := ⟨.hbm, 143, rfl⟩
abbrev main_call0_v1 : Ref sig .tc := ⟨.hbm, 144, rfl⟩
abbrev main_call0_cst_0 : Ref sig .tc := ⟨.hbm, 145, rfl⟩
abbrev main_call0_v2 : Ref sig .tc := ⟨.hbm, 146, rfl⟩
abbrev main_call0_v3 : Ref sig .tc := ⟨.hbm, 147, rfl⟩
abbrev main_call0_v4 : Ref sig .tc := ⟨.hbm, 148, rfl⟩
abbrev main_call0_v5 : Ref sig .tc := ⟨.hbm, 149, rfl⟩
abbrev main_call0_v6 : Ref sig .tc := ⟨.hbm, 150, rfl⟩
abbrev main_call0_v7 : Ref sig .tc := ⟨.hbm, 151, rfl⟩
abbrev main_call0_cst_1 : Ref sig .tc := ⟨.hbm, 152, rfl⟩
abbrev main_call0_v8 : Ref sig .tc := ⟨.hbm, 153, rfl⟩
abbrev main_call0_cst_2 : Ref sig .tc := ⟨.hbm, 154, rfl⟩
abbrev main_call0_v9 : Ref sig .tc := ⟨.hbm, 155, rfl⟩
abbrev main_call0_v10 : Ref sig .tc := ⟨.hbm, 156, rfl⟩
abbrev main_call0_v11 : Ref sig .tc := ⟨.hbm, 157, rfl⟩
abbrev main_call0_cst_3 : Ref sig .tc := ⟨.hbm, 158, rfl⟩
abbrev main_call0_v12 : Ref sig .tc := ⟨.hbm, 159, rfl⟩
abbrev main_call0_cst_4 : Ref sig .tc := ⟨.hbm, 160, rfl⟩
abbrev main_call0_call0_v0 : Ref sig .tc := ⟨.hbm, 161, rfl⟩
abbrev main_call0_call0_v1 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_12 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_cst_13 : Ref sig .tc := ⟨.hbm, 184, rfl⟩
abbrev main_v123 : Ref sig .tc := ⟨.hbm, 185, rfl⟩
abbrev main_cst_14 : Ref sig .tc := ⟨.hbm, 186, rfl⟩
abbrev main_v124 : Ref sig .tc := ⟨.hbm, 187, rfl⟩
abbrev main_v125 : Ref sig .tc := ⟨.hbm, 188, rfl⟩
abbrev main_c_15 : Ref sig .tc := ⟨.hbm, 189, rfl⟩
abbrev main_call1_cst : Ref sig .tc := ⟨.hbm, 190, rfl⟩
abbrev main_call1_v0 : Ref sig .tc := ⟨.hbm, 191, rfl⟩
abbrev main_call1_v1 : Ref sig .tc := ⟨.hbm, 192, rfl⟩
abbrev main_call1_cst_0 : Ref sig .tc := ⟨.hbm, 193, rfl⟩
abbrev main_call1_v2 : Ref sig .tc := ⟨.hbm, 194, rfl⟩
abbrev main_call1_v3 : Ref sig .tc := ⟨.hbm, 195, rfl⟩
abbrev main_call1_v4 : Ref sig .tc := ⟨.hbm, 196, rfl⟩
abbrev main_call1_v5 : Ref sig .tc := ⟨.hbm, 197, rfl⟩
abbrev main_call1_v6 : Ref sig .tc := ⟨.hbm, 198, rfl⟩
abbrev main_call1_v7 : Ref sig .tc := ⟨.hbm, 199, rfl⟩
abbrev main_call1_cst_1 : Ref sig .tc := ⟨.hbm, 200, rfl⟩
abbrev main_call1_v8 : Ref sig .tc := ⟨.hbm, 201, rfl⟩
abbrev main_call1_cst_2 : Ref sig .tc := ⟨.hbm, 202, rfl⟩
abbrev main_call1_v9 : Ref sig .tc := ⟨.hbm, 203, rfl⟩
abbrev main_call1_v10 : Ref sig .tc := ⟨.hbm, 204, rfl⟩
abbrev main_call1_v11 : Ref sig .tc := ⟨.hbm, 205, rfl⟩
abbrev main_call1_cst_3 : Ref sig .tc := ⟨.hbm, 206, rfl⟩
abbrev main_call1_v12 : Ref sig .tc := ⟨.hbm, 207, rfl⟩
abbrev main_call1_cst_4 : Ref sig .tc := ⟨.hbm, 208, rfl⟩
abbrev main_call1_call0_v0 : Ref sig .tc := ⟨.hbm, 209, rfl⟩
abbrev main_call1_call0_v1 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_cst_16 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_call2_cst : Ref sig .tc := ⟨.hbm, 228, rfl⟩
abbrev main_call2_v0 : Ref sig .tc := ⟨.hbm, 229, rfl⟩
abbrev main_v142 : Ref sig .tc := ⟨.hbm, 230, rfl⟩
abbrev main_call3_cst : Ref sig .tc := ⟨.hbm, 231, rfl⟩
abbrev main_call3_v0 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_v146 : Ref sig .tc := ⟨.hbm, 236, rfl⟩
abbrev main_v147 : Ref sig .tc := ⟨.hbm, 237, rfl⟩
abbrev main_v148 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_v155 : Ref sig .tc := ⟨.hbm, 245, rfl⟩
abbrev main_v156 : Ref sig .tc := ⟨.hbm, 246, rfl⟩
abbrev main_v157 : Ref sig .tc := ⟨.hbm, 247, rfl⟩
abbrev main_v158 : Ref sig .tc := ⟨.hbm, 248, rfl⟩
abbrev main_v159 : Ref sig .tc := ⟨.hbm, 249, rfl⟩
abbrev main_v160 : Ref sig .tc := ⟨.hbm, 250, rfl⟩
abbrev main_v161 : Ref sig .tc := ⟨.hbm, 251, rfl⟩
abbrev main_v162 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_v177 : Ref sig .tc := ⟨.hbm, 267, rfl⟩
abbrev main_v178 : Ref sig .tc := ⟨.hbm, 268, rfl⟩
abbrev main_v179 : Ref sig .tc := ⟨.hbm, 269, rfl⟩
abbrev main_v180 : Ref sig .tc := ⟨.hbm, 270, rfl⟩
abbrev main_v181 : Ref sig .tc := ⟨.hbm, 271, rfl⟩
abbrev main_v182 : Ref sig .tc := ⟨.hbm, 272, rfl⟩
abbrev main_v183 : Ref sig .tc := ⟨.hbm, 273, rfl⟩
abbrev main_v184 : Ref sig .tc := ⟨.hbm, 274, rfl⟩
abbrev main_v185 : Ref sig .tc := ⟨.hbm, 275, rfl⟩
abbrev main_c_17 : Ref sig .tc := ⟨.hbm, 276, rfl⟩
abbrev main_v186 : Ref sig .tc := ⟨.hbm, 277, rfl⟩
abbrev main_v187 : Ref sig .tc := ⟨.hbm, 278, rfl⟩
abbrev main_c_18 : Ref sig .tc := ⟨.hbm, 279, rfl⟩
abbrev main_v188 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_c_19 : Ref sig .tc := ⟨.hbm, 285, rfl⟩
abbrev main_v193 : Ref sig .tc := ⟨.hbm, 286, rfl⟩
abbrev main_v194 : Ref sig .tc := ⟨.hbm, 287, rfl⟩
abbrev main_c_20 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_v202 : Ref sig .tc := ⟨.hbm, 296, rfl⟩
abbrev main_v203 : Ref sig .tc := ⟨.hbm, 297, rfl⟩
abbrev main_cst_21 : Ref sig .tc := ⟨.hbm, 298, rfl⟩
abbrev main_v204 : Ref sig .tc := ⟨.hbm, 299, rfl⟩
abbrev main_v205 : Ref sig .tc := ⟨.hbm, 300, rfl⟩
abbrev main_cst_22 : Ref sig .tc := ⟨.hbm, 301, rfl⟩
abbrev main_v206 : Ref sig .tc := ⟨.hbm, 302, rfl⟩
abbrev main_v207 : Ref sig .tc := ⟨.hbm, 303, rfl⟩
abbrev main_c_23 : Ref sig .tc := ⟨.hbm, 304, rfl⟩
abbrev main_v208 : Ref sig .tc := ⟨.hbm, 305, rfl⟩
abbrev main_v209 : Ref sig .tc := ⟨.hbm, 306, rfl⟩
abbrev main_c_24 : Ref sig .tc := ⟨.hbm, 307, rfl⟩
abbrev main_v210 : Ref sig .tc := ⟨.hbm, 308, rfl⟩
abbrev main_v211 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_cst_25 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_cst_26 : Ref sig .tc := ⟨.hbm, 318, rfl⟩
abbrev main_v219 : Ref sig .tc := ⟨.hbm, 319, rfl⟩
abbrev main_v220 : Ref sig .tc := ⟨.hbm, 320, rfl⟩
abbrev main_v221 : Ref sig .tc := ⟨.hbm, 321, rfl⟩
abbrev main_cst_27 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_v226 : Ref sig .tc := ⟨.hbm, 327, rfl⟩
abbrev main_v227 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_v233 : Ref sig .tc := ⟨.hbm, 334, rfl⟩
abbrev main_cst_28 : Ref sig .tc := ⟨.hbm, 335, rfl⟩
abbrev main_v234 : Ref sig .tc := ⟨.hbm, 336, rfl⟩
abbrev main_cst_29 : Ref sig .tc := ⟨.hbm, 337, rfl⟩
abbrev main_v235 : Ref sig .tc := ⟨.hbm, 338, rfl⟩
abbrev main_v236 : Ref sig .tc := ⟨.hbm, 339, rfl⟩
abbrev main_c_30 : Ref sig .tc := ⟨.hbm, 340, rfl⟩
abbrev main_call4_cst : Ref sig .tc := ⟨.hbm, 341, rfl⟩
abbrev main_call4_v0 : Ref sig .tc := ⟨.hbm, 342, rfl⟩
abbrev main_call4_v1 : Ref sig .tc := ⟨.hbm, 343, rfl⟩
abbrev main_call4_cst_0 : Ref sig .tc := ⟨.hbm, 344, rfl⟩
abbrev main_call4_v2 : Ref sig .tc := ⟨.hbm, 345, rfl⟩
abbrev main_call4_v3 : Ref sig .tc := ⟨.hbm, 346, rfl⟩
abbrev main_call4_v4 : Ref sig .tc := ⟨.hbm, 347, rfl⟩
abbrev main_call4_v5 : Ref sig .tc := ⟨.hbm, 348, rfl⟩
abbrev main_call4_v6 : Ref sig .tc := ⟨.hbm, 349, rfl⟩
abbrev main_call4_v7 : Ref sig .tc := ⟨.hbm, 350, rfl⟩
abbrev main_call4_cst_1 : Ref sig .tc := ⟨.hbm, 351, rfl⟩
abbrev main_call4_v8 : Ref sig .tc := ⟨.hbm, 352, rfl⟩
abbrev main_call4_cst_2 : Ref sig .tc := ⟨.hbm, 353, rfl⟩
abbrev main_call4_v9 : Ref sig .tc := ⟨.hbm, 354, rfl⟩
abbrev main_call4_v10 : Ref sig .tc := ⟨.hbm, 355, rfl⟩
abbrev main_call4_v11 : Ref sig .tc := ⟨.hbm, 356, rfl⟩
abbrev main_call4_cst_3 : Ref sig .tc := ⟨.hbm, 357, rfl⟩
abbrev main_call4_v12 : Ref sig .tc := ⟨.hbm, 358, rfl⟩
abbrev main_call4_cst_4 : Ref sig .tc := ⟨.hbm, 359, rfl⟩
abbrev main_call4_call0_v0 : Ref sig .tc := ⟨.hbm, 360, rfl⟩
abbrev main_call4_call0_v1 : Ref sig .tc := ⟨.hbm, 361, rfl⟩
abbrev main_v237 : Ref sig .tc := ⟨.hbm, 362, rfl⟩
abbrev main_v238 : Ref sig .tc := ⟨.hbm, 363, rfl⟩
abbrev main_v239 : Ref sig .tc := ⟨.hbm, 364, rfl⟩
abbrev main_v240 : Ref sig .tc := ⟨.hbm, 365, rfl⟩
abbrev main_cst_31 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩
abbrev main_v245 : Ref sig .tc := ⟨.hbm, 371, rfl⟩
abbrev main_v246 : Ref sig .tc := ⟨.hbm, 372, rfl⟩
abbrev main_v247 : Ref sig .tc := ⟨.hbm, 373, rfl⟩
abbrev main_v248 : Ref sig .tc := ⟨.hbm, 374, rfl⟩
abbrev main_v249 : Ref sig .tc := ⟨.hbm, 375, rfl⟩
abbrev main_v250 : Ref sig .tc := ⟨.hbm, 376, rfl⟩
abbrev main_v251 : Ref sig .tc := ⟨.hbm, 377, rfl⟩
abbrev main_v252 : Ref sig .tc := ⟨.hbm, 378, rfl⟩
abbrev main_v253 : Ref sig .tc := ⟨.hbm, 379, rfl⟩
abbrev main_v254 : Ref sig .tc := ⟨.hbm, 380, rfl⟩
abbrev main_v255 : Ref sig .tc := ⟨.hbm, 381, rfl⟩
abbrev main_v256 : Ref sig .tc := ⟨.hbm, 382, rfl⟩
abbrev main_cst_32 : Ref sig .tc := ⟨.hbm, 383, rfl⟩
abbrev main_v257 : Ref sig .tc := ⟨.hbm, 384, rfl⟩
abbrev main_cst_33 : Ref sig .tc := ⟨.hbm, 385, rfl⟩
abbrev main_v258 : Ref sig .tc := ⟨.hbm, 386, rfl⟩
abbrev main_v259 : Ref sig .tc := ⟨.hbm, 387, rfl⟩
abbrev main_c_34 : Ref sig .tc := ⟨.hbm, 388, rfl⟩
abbrev main_call5_cst : Ref sig .tc := ⟨.hbm, 389, rfl⟩
abbrev main_call5_v0 : Ref sig .tc := ⟨.hbm, 390, rfl⟩
abbrev main_call5_v1 : Ref sig .tc := ⟨.hbm, 391, rfl⟩
abbrev main_call5_cst_0 : Ref sig .tc := ⟨.hbm, 392, rfl⟩
abbrev main_call5_v2 : Ref sig .tc := ⟨.hbm, 393, rfl⟩
abbrev main_call5_v3 : Ref sig .tc := ⟨.hbm, 394, rfl⟩
abbrev main_call5_v4 : Ref sig .tc := ⟨.hbm, 395, rfl⟩
abbrev main_call5_v5 : Ref sig .tc := ⟨.hbm, 396, rfl⟩
abbrev main_call5_v6 : Ref sig .tc := ⟨.hbm, 397, rfl⟩
abbrev main_call5_v7 : Ref sig .tc := ⟨.hbm, 398, rfl⟩
abbrev main_call5_cst_1 : Ref sig .tc := ⟨.hbm, 399, rfl⟩
abbrev main_call5_v8 : Ref sig .tc := ⟨.hbm, 400, rfl⟩
abbrev main_call5_cst_2 : Ref sig .tc := ⟨.hbm, 401, rfl⟩
abbrev main_call5_v9 : Ref sig .tc := ⟨.hbm, 402, rfl⟩
abbrev main_call5_v10 : Ref sig .tc := ⟨.hbm, 403, rfl⟩
abbrev main_call5_v11 : Ref sig .tc := ⟨.hbm, 404, rfl⟩
abbrev main_call5_cst_3 : Ref sig .tc := ⟨.hbm, 405, rfl⟩
abbrev main_call5_v12 : Ref sig .tc := ⟨.hbm, 406, rfl⟩
abbrev main_call5_cst_4 : Ref sig .tc := ⟨.hbm, 407, rfl⟩
abbrev main_call5_call0_v0 : Ref sig .tc := ⟨.hbm, 408, rfl⟩
abbrev main_call5_call0_v1 : Ref sig .tc := ⟨.hbm, 409, rfl⟩
abbrev main_v260 : Ref sig .tc := ⟨.hbm, 410, rfl⟩
abbrev main_v261 : Ref sig .tc := ⟨.hbm, 411, rfl⟩
abbrev main_v262 : Ref sig .tc := ⟨.hbm, 412, rfl⟩
abbrev main_v263 : Ref sig .tc := ⟨.hbm, 413, rfl⟩
abbrev main_cst_35 : Ref sig .tc := ⟨.hbm, 414, rfl⟩
abbrev main_v264 : Ref sig .tc := ⟨.hbm, 415, rfl⟩
abbrev main_v265 : Ref sig .tc := ⟨.hbm, 416, rfl⟩
abbrev main_v266 : Ref sig .tc := ⟨.hbm, 417, rfl⟩
abbrev main_v267 : Ref sig .tc := ⟨.hbm, 418, rfl⟩
abbrev main_v268 : Ref sig .tc := ⟨.hbm, 419, rfl⟩
abbrev main_v269 : Ref sig .tc := ⟨.hbm, 420, rfl⟩
abbrev main_v270 : Ref sig .tc := ⟨.hbm, 421, rfl⟩
abbrev main_v271 : Ref sig .tc := ⟨.hbm, 422, rfl⟩
abbrev main_v272 : Ref sig .tc := ⟨.hbm, 423, rfl⟩
abbrev main_v273 : Ref sig .tc := ⟨.hbm, 424, rfl⟩
abbrev main_v274 : Ref sig .tc := ⟨.hbm, 425, rfl⟩
abbrev main_v275 : Ref sig .tc := ⟨.hbm, 426, rfl⟩
abbrev main_call6_cst : Ref sig .tc := ⟨.hbm, 427, rfl⟩
abbrev main_call6_v0 : Ref sig .tc := ⟨.hbm, 428, rfl⟩
abbrev main_v276 : Ref sig .tc := ⟨.hbm, 429, rfl⟩
abbrev main_call7_cst : Ref sig .tc := ⟨.hbm, 430, rfl⟩
abbrev main_call7_v0 : Ref sig .tc := ⟨.hbm, 431, rfl⟩
abbrev main_v277 : Ref sig .tc := ⟨.hbm, 432, rfl⟩
abbrev main_v278 : Ref sig .tc := ⟨.hbm, 433, rfl⟩
abbrev main_v279 : Ref sig .tc := ⟨.hbm, 434, rfl⟩
abbrev main_v280 : Ref sig .tc := ⟨.hbm, 435, rfl⟩
abbrev main_v281 : Ref sig .tc := ⟨.hbm, 436, rfl⟩
abbrev main_c_36 : Ref sig .tc := ⟨.hbm, 437, rfl⟩
abbrev main_call8_v0 : Ref sig .tc := ⟨.hbm, 438, rfl⟩
abbrev main_call8_c : Ref sig .tc := ⟨.hbm, 439, rfl⟩
abbrev main_call8_v1 : Ref sig .tc := ⟨.hbm, 440, rfl⟩
abbrev main_call8_c_0 : Ref sig .tc := ⟨.hbm, 441, rfl⟩
abbrev main_call8_v2 : Ref sig .tc := ⟨.hbm, 442, rfl⟩
abbrev main_call8_v3 : Ref sig .tc := ⟨.hbm, 443, rfl⟩
abbrev main_call8_v4 : Ref sig .tc := ⟨.hbm, 444, rfl⟩
abbrev main_call8_c_1 : Ref sig .tc := ⟨.hbm, 445, rfl⟩
abbrev main_call8_v5 : Ref sig .tc := ⟨.hbm, 446, rfl⟩
abbrev main_call8_v6 : Ref sig .tc := ⟨.hbm, 447, rfl⟩
abbrev main_call8_c_2 : Ref sig .tc := ⟨.hbm, 448, rfl⟩
abbrev main_call8_v7 : Ref sig .tc := ⟨.hbm, 449, rfl⟩
abbrev main_call8_v8 : Ref sig .tc := ⟨.hbm, 450, rfl⟩
abbrev main_call8_c_3 : Ref sig .tc := ⟨.hbm, 451, rfl⟩
abbrev main_call8_v9 : Ref sig .tc := ⟨.hbm, 452, rfl⟩
abbrev main_call8_v10 : Ref sig .tc := ⟨.hbm, 453, rfl⟩
abbrev main_call8_v11 : Ref sig .tc := ⟨.hbm, 454, rfl⟩
abbrev main_call8_v12 : Ref sig .tc := ⟨.hbm, 455, rfl⟩
abbrev main_call8_v13 : Ref sig .tc := ⟨.hbm, 456, rfl⟩
abbrev main_call8_v14 : Ref sig .tc := ⟨.hbm, 457, rfl⟩
abbrev main_v282 : Ref sig .tc := ⟨.hbm, 458, rfl⟩
abbrev main_v283 : Ref sig .tc := ⟨.hbm, 459, rfl⟩
abbrev main_v284 : Ref sig .tc := ⟨.hbm, 460, rfl⟩
abbrev main_c_37 : Ref sig .tc := ⟨.hbm, 461, rfl⟩
abbrev main_v285 : Ref sig .tc := ⟨.hbm, 462, rfl⟩
abbrev main_v286 : Ref sig .tc := ⟨.hbm, 463, rfl⟩
abbrev main_c_38 : Ref sig .tc := ⟨.hbm, 464, rfl⟩
abbrev main_v287 : Ref sig .tc := ⟨.hbm, 465, rfl⟩
abbrev main_v288 : Ref sig .tc := ⟨.hbm, 466, rfl⟩
abbrev main_v289 : Ref sig .tc := ⟨.hbm, 467, rfl⟩
abbrev main_v290 : Ref sig .tc := ⟨.hbm, 468, rfl⟩
abbrev main_v291 : Ref sig .tc := ⟨.hbm, 469, rfl⟩
abbrev main_c_39 : Ref sig .tc := ⟨.hbm, 470, rfl⟩
abbrev main_v292 : Ref sig .tc := ⟨.hbm, 471, rfl⟩
abbrev main_v293 : Ref sig .tc := ⟨.hbm, 472, rfl⟩
abbrev main_c_40 : Ref sig .tc := ⟨.hbm, 473, rfl⟩
abbrev main_v294 : Ref sig .tc := ⟨.hbm, 474, rfl⟩
abbrev main_v295 : Ref sig .tc := ⟨.hbm, 475, rfl⟩
abbrev main_v296 : Ref sig .tc := ⟨.hbm, 476, rfl⟩
abbrev main_v297 : Ref sig .tc := ⟨.hbm, 477, rfl⟩
abbrev main_v298 : Ref sig .tc := ⟨.hbm, 478, rfl⟩
abbrev main_v299 : Ref sig .tc := ⟨.hbm, 479, rfl⟩
abbrev main_v300 : Ref sig .tc := ⟨.hbm, 480, rfl⟩
abbrev main_c_41 : Ref sig .tc := ⟨.hbm, 481, rfl⟩
abbrev main_v301 : Ref sig .tc := ⟨.hbm, 482, rfl⟩
abbrev main_v302 : Ref sig .tc := ⟨.hbm, 483, rfl⟩
abbrev main_c_42 : Ref sig .tc := ⟨.hbm, 484, rfl⟩
abbrev main_v303 : Ref sig .tc := ⟨.hbm, 485, rfl⟩
abbrev main_v304 : Ref sig .tc := ⟨.hbm, 486, rfl⟩
abbrev main_v305 : Ref sig .tc := ⟨.hbm, 487, rfl⟩
abbrev main_v306 : Ref sig .tc := ⟨.hbm, 488, rfl⟩
abbrev main_v307 : Ref sig .tc := ⟨.hbm, 489, rfl⟩
abbrev main_v308 : Ref sig .tc := ⟨.hbm, 490, rfl⟩
abbrev main_v309 : Ref sig .tc := ⟨.hbm, 491, rfl⟩
abbrev main_cst_43 : Ref sig .tc := ⟨.hbm, 492, rfl⟩
abbrev main_v310 : Ref sig .tc := ⟨.hbm, 493, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S160000x256_0_1 : S1x256.BroadcastsInDim S160000x256 (![0, 1] : Fin 2 → Fin S160000x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  bcast_S_S160000 : S_.BroadcastsInDim S160000 (![] : Fin 0 → Fin S160000.rank)
  bcast_S160000_S160000x1_0 : S160000.BroadcastsInDim S160000x1 (![0] : Fin 1 → Fin S160000x1.rank)
  bcast_S_S160000x256 : S_.BroadcastsInDim S160000x256 (![] : Fin 0 → Fin S160000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S160000x1_S160000x256_0_1 : S160000x1.BroadcastsInDim S160000x256 (![0, 1] : Fin 2 → Fin S160000x256.rank)
  reducesTo_S10000x256_S256_d0 : S10000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  reducesTo_S160000x256_S256_d0 : S160000x256.ReducesTo [0] S256
  slices_S2x256x256_S1x256x256_1_0_0 : S2x256x256.Slices ![1, 0, 0] S1x256x256
  slices_S2x256_S1x256_1_0 : S2x256.Slices ![1, 0] S1x256
  slices_S50000x3_S50000x1_0_1 : S50000x3.Slices ![0, 1] S50000x1
  shapeCasts_S50000x1_S50000 : S50000x1.ShapeCasts S50000
  bcast_S_S50000 : S_.BroadcastsInDim S50000 (![] : Fin 0 → Fin S50000.rank)
  slices_S50000x3_S50000x1_0_0 : S50000x3.Slices ![0, 0] S50000x1
  bcast_S50000_S50000x1_0 : S50000.BroadcastsInDim S50000x1 (![0] : Fin 1 → Fin S50000x1.rank)
  slices_S50000x3_S50000x1_0_2 : S50000x3.Slices ![0, 2] S50000x1
  reducesTo_S50000x256_S50000_d1 : S50000x256.ReducesTo [1] S50000
  dot_S10000x256_S256x256_S10000x256_1_0_0_1_n_n_wf : DotDims.WF S10000x256 S256x256 S10000x256 [1] [0] [0] [1] [] []
  dot_S160000x16_S16x256_S160000x256_1_0_0_1_n_n_wf : DotDims.WF S160000x16 S16x256 S160000x256 [1] [0] [0] [1] [] []
  dot_S160000x256_S256x256_S160000x256_1_0_0_1_n_n_wf : DotDims.WF S160000x256 S256x256 S160000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  gather_S10000x256_S50000x1_S50000x256_1_0_n_n_0_1_1256_wf : GatherDims.WF S10000x256 S50000x1 S50000x256 [1] [0] [] [0] [] 1 ![1, 256]
  gather_S16x256_S50000x1_S50000x256_1_0_n_n_0_1_1256_wf : GatherDims.WF S16x256 S50000x1 S50000x256 [1] [0] [] [0] [] 1 ![1, 256]

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S160000x16_S16x256_S160000x256_1_0_0_1_n_n : DotDims S160000x16 S16x256 S160000x256 where
  lhsContracting := [1]
  rhsContracting := [0]
  lhsNonContracting := [0]
  rhsNonContracting := [1]
  lhsBatch := []
  rhsBatch := []
  wf := dot_S160000x16_S16x256_S160000x256_1_0_0_1_n_n_wf
def dot_S160000x256_S256x256_S160000x256_1_0_0_1_n_n : DotDims S160000x256 S256x256 S160000x256 where
  lhsContracting := [1]
  rhsContracting := [0]
  lhsNonContracting := [0]
  rhsNonContracting := [1]
  lhsBatch := []
  rhsBatch := []
  wf := dot_S160000x256_S256x256_S160000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def gather_S10000x256_S50000x1_S50000x256_1_0_n_n_0_1_1256 : GatherDims S10000x256 S50000x1 S50000x256 where
  offsetDims := [1]
  collapsedSliceDims := [0]
  operandBatchingDims := []
  startIndicesBatchingDims := []
  startIndexMap := [0]
  indexVectorDim := 1
  sliceSizes := ![1, 256]
  wf := gather_S10000x256_S50000x1_S50000x256_1_0_n_n_0_1_1256_wf
def gather_S16x256_S50000x1_S50000x256_1_0_n_n_0_1_1256 : GatherDims S16x256 S50000x1 S50000x256 where
  offsetDims := [1]
  collapsedSliceDims := [0]
  operandBatchingDims := []
  startIndicesBatchingDims := []
  startIndexMap := [0]
  indexVectorDim := 1
  sliceSizes := ![1, 256]
  wf := gather_S16x256_S50000x1_S50000x256_1_0_n_n_0_1_1256_wf

class Facts : Prop extends Facts₀ where

variable [Facts]
-- ==== Proof.KDefs.lean ====
/-
  The launch-side definitions shared by the frame and the value proofs of the kernel program (generic in the float
  instance): the contents the region finds (the host lines before it folded over the launch memory), each window's
  block at a grid point, what the body leaves in the output window's staging buffer — the one store of
  x_block · w + bias row, as the canon of that store over the loaded blocks —, and the pipeline's proof data:
  inputs at their blocks, the output at that canon, the class invariant, full shares, nothing owed.
-/
import proofs.«121394_g42563125903665_cont_8to1_b_1637_2_alg».proof.Proof.Gen.Kernel.Launch
import proofs.«121394_g42563125903665_cont_8to1_b_1637_2_alg».proof.Proof.Gen.Kernel.Skeleton
import proofs.«121394_g42563125903665_cont_8to1_b_1637_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s buffer contents when the region is entered: the launch memory after the host lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's whole-buffer rectangles: the row block, the weights, the bias row. -/
abbrev rX : Rect S1000x256 := Rect.unit (s := S1000x256) ![0, 0] S1000x256.size inb_S1000x256_S1000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The output window's staging buffer after the body, from the three input blocks: its one store. -/
def out0_3 (x0 : Vec F S1000x256 .f32) (x1 : Vec F S256x256 .f32) (x2 : Vec F S1x256 .f32) : Vec F S1000x256 .f32 :=
  View.canon [⟨rX, k0_pay1 (View.ld x0 rX) (View.ld x1 rW) (View.ld x2 rB)⟩]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.Kernel.Hand

end
-- ==== Proof.KBody.lean ====
/-
  The kernel body's triple. On whole staging buffers — the row block, the weights and the bias row at read contents,
  the output's at anything — the body reads the three inputs, reads the output buffer (a value it never uses) and
  stores x_block · w + bias row through the whole output rectangle: it leaves the inputs as they were and the output
  buffer at the canon of that one store, a store that covers the buffer.
-/
import proofs.«121394_g42563125903665_cont_8to1_b_1637_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one store is through the whole output rectangle, so it covers the buffer. -/
theorem cover0_3 (p0 : Vec F S1000x256 .f32) (y : S1000x256.Idx) :
    ∃ pc ∈ ([⟨rX, p0⟩] : List (View.Piece (Elt F) S1000x256 .f32)), y ∈ pc.1.set :=
  View.cover_of_tiled [⟨rX, p0⟩] S1000x256.size (by rfl) y

set_option maxHeartbeats 1000000 in
/-- The body on whole staging buffers: the inputs' at read contents `x0 x1 x2`, the output's at anything; it runs to
    the continuation holding the inputs' as they were and the output's at `out0_3 x0 x1 x2`. -/
theorem sound_kernel (c : Dev nD) (E : Set ℕ) (i : grid0.Coords)
    (arg1 : Memref sig .tc .vmem S1000x256 .f32) (harg1 : arg1.IsWhole)
    (arg2 : Memref sig .tc .vmem S256x256 .f32) (harg2 : arg2.IsWhole)
    (arg3 : Memref sig .tc .vmem S1x256 .f32) (harg3 : arg3.IsWhole)
    (arg4 : Memref sig .tc .vmem S1000x256 .f32) (harg4 : arg4.IsWhole)
    (x0 : Vec F S1000x256 .f32) (x1 : Vec F S256x256 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Hand

end
-- ==== Proof.KWrites.lean ====
/-
  Which references the host lines write. Every host operation writes exactly one reference, its result. Stretch by
  stretch the results are listed in order, and each entry is checked against its operation; a reference that is in
  no list is therefore written by no line, so the lines leave it as they found it. Applied to the 25 arguments
  (none is a result of any line) and to the four arrays of the pipeline (none is a result of a line after the region).
-/
import proofs.«121394_g42563125903665_cont_8to1_b_1637_2_alg».proof.Proof.KDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One operation, one written reference -/

/-- The operation writes exactly the reference `y`. -/
abbrev WritesRef (op : HloOp τ sig (Elt F)) (y : Ref sig .tc) : Prop := op.writes = {Proc.devRef (τ := τ) .tc y}

/-- Operations paired in order with the references they write: each writes within the list. -/
theorem writes_sub_of_forall₂ {ops : List (HloOp τ sig (Elt F))} {W : List (Ref sig .tc)}
    (h : List.Forall₂ WritesRef ops W) : ∀ op ∈ ops, op.writes ⊆ (W.map (Proc.devRef (τ := τ) .tc)).toFinset := by
  induction h with
  | nil => intro op hop; cases hop
  | @cons op y ops W hy _ ih =>
    intro o ho
    rw [List.map_cons, List.toFinset_cons]
    rcases List.mem_cons.mp ho with rfl | ho
    · rw [show o.writes = _ from hy]; exact Finset.singleton_subset_iff.mpr (Finset.mem_insert_self _ _)
    · exact (ih o ho).trans (Finset.subset_insert _ _)

/-- The same as a `List.Forall`. -/
theorem forall_writes_of_forall₂ {ops : List (HloOp τ sig (Elt F))} {W : List (Ref sig .tc)}
    (h : List.Forall₂ WritesRef ops W) : ops.Forall fun op => op.writes ⊆ (W.map (Proc.devRef (τ := τ) .tc)).toFinset :=
  List.forall_iff_forall_mem.mpr (writes_sub_of_forall₂ h)

/-- A reference outside a list holding everything an operation writes is not written by it. -/
theorem not_mem_writes_of_sub {W : List (Ref sig .tc)} {r : Ref sig .tc} {op : HloOp τ sig (Elt F)}
    (h : op.writes ⊆ (W.map (Proc.devRef (τ := τ) .tc)).toFinset) (hr : r ∉ W) : Proc.devRef (τ := τ) .tc r ∉ op.writes := fun hb => by
  obtain ⟨y, hy, he⟩ := List.mem_map.mp (List.mem_toFinset.mp (h hb))
  exact hr (Proc.devRef_injective _ he ▸ hy)

/-! ## The written references, stretch by stretch, in order -/

/-- Written by the five lines before the region. -/
noncomputable def wlist0 : List (Ref sig .tc) := [main_v0, main_v1, main_v2, main_v3, main_v4]
/-- Written by stretch `hostOps1` (109 operations). -/
noncomputable def wlist1 : List (Ref sig .tc) :=
  [main_v6, main_v7, main_v8, main_v9, main_v10, main_v11, main_v12, main_v13,
   main_v14, main_v15, main_v16, main_v17, main_v18, main_v19, main_v20, main_v21,
   main_v22, main_v23, main_v24, main_v25, main_v26, main_v27, main_v28, main_v29,
   main_v30, main_v31, main_v32, main_v33, main_v34, main_v35, main_v36, main_v37,
   main_v38, main_v39, main_v40, main_v41, main_v42, main_v43, main_v44, main_v45,
   main_v46, main_v47, main_v48, main_v49, main_c, main_v50, main_v51, main_c_0,
   main_v52, main_v53, main_v54, main_v55, main_v56, main_c_1, main_v57, main_v58,
   main_c_2, main_v59, main_v60, main_v61, main_v62, main_v63, main_v64, main_v65,
   main_v66, main_v67, main_cst, main_v68, main_v69, main_cst_3, main_v70, main_v71,
   main_c_4, main_v72, main_v73, main_c_5, main_v74, main_v75, main_v76, main_v77,
   main_v78, main_v79, main_cst_6, main_v80, main_v81, main_v82, main_cst_7, main_v83,
   main_v84, main_v85, main_cst_8, main_v86, main_v87, main_v88, main_v89, main_v90,
   main_v91, main_v92, main_v93, main_v94, main_v95, main_v96, main_v97, main_cst_9,
   main_v98, main_cst_10, main_v99, main_v100, main_c_11]
/-- Written by stretch `hostOps1_1` (22 operations). -/
noncomputable def wlist1_1 : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v101]
/-- Written by stretch `hostOps1_2` (26 operations). -/
noncomputable def wlist1_2 : List (Ref sig .tc) :=
  [main_v102, main_v103, main_v104, main_cst_12, main_v105, main_v106, main_v107, main_v108,
   main_v109, main_v110, main_v111, main_v112, main_v113, main_v114, main_v115, main_v116,
   main_v117, main_v118, main_v119, main_v120, main_cst_13, main_v121, main_cst_14, main_v122,
   main_v123, main_c_15]
/-- Written by stretch `hostOps1_3` (22 operations). -/
noncomputable def wlist1_3 : List (Ref sig .tc) :=
  [main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10, main_call1_v11,
   main_call1_cst_3, main_call1_v12, main_call1_cst_4, main_call1_call0_v0, main_call1_call0_v1, main_v124]
/-- Written by stretch `hostOps1_4` (16 operations). -/
noncomputable def wlist1_4 : List (Ref sig .tc) :=
  [main_v125, main_v126, main_v127, main_cst_16, main_v128, main_v129, main_v130, main_v131,
   main_v132, main_v133, main_v134, main_v135, main_v136, main_v137, main_v138, main_v139]
/-- Written by stretch `hostOps1_5` (3 operations). -/
noncomputable def wlist1_5 : List (Ref sig .tc) :=
  [main_call2_cst, main_call2_v0, main_v140]
/-- Written by stretch `hostOps1_6` (3 operations). -/
noncomputable def wlist1_6 : List (Ref sig .tc) :=
  [main_call3_cst, main_call3_v0, main_v141]
/-- Written by stretch `hostOps1_7` (107 operations). -/
noncomputable def wlist1_7 : List (Ref sig .tc) :=
  [main_v142, main_v143, main_v144, main_v145, main_v146, main_v147, main_v148, main_v149,
   main_v150, main_v151, main_v152, main_v153, main_v154, main_v155, main_v156, main_v157,
   main_v158, main_v159, main_v160, main_v161, main_v162, main_v163, main_v164, main_v165,
   main_v166, main_v167, main_v168, main_v169, main_v170, main_v171, main_v172, main_v173,
   main_v174, main_v175, main_v176, main_v177, main_v178, main_v179, main_v180, main_v181,
   main_v182, main_v183, main_c_17, main_v184, main_v185, main_c_18, main_v186, main_v187,
   main_v188, main_v189, main_v190, main_c_19, main_v191, main_v192, main_c_20, main_v193,
   main_v194, main_v195, main_v196, main_v197, main_v198, main_v199, main_v200, main_v201,
   main_cst_21, main_v202, main_v203, main_cst_22, main_v204, main_v205, main_c_23, main_v206,
   main_v207, main_c_24, main_v208, main_v209, main_v210, main_v211, main_v212, main_v213,
   main_cst_25, main_v214, main_v215, main_v216, main_cst_26, main_v217, main_v218, main_v219,
   main_cst_27, main_v220, main_v221, main_v222, main_v223, main_v224, main_v225, main_v226,
   main_v227, main_v228, main_v229, main_v230, main_v231, main_cst_28, main_v232, main_cst_29,
   main_v233, main_v234, main_c_30]
/-- Written by stretch `hostOps1_8` (22 operations). -/
noncomputable def wlist1_8 : List (Ref sig .tc) :=
  [main_call4_cst, main_call4_v0, main_call4_v1, main_call4_cst_0, main_call4_v2, main_call4_v3, main_call4_v4, main_call4_v5,
   main_call4_v6, main_call4_v7, main_call4_cst_1, main_call4_v8, main_call4_cst_2, main_call4_v9, main_call4_v10, main_call4_v11,
   main_call4_cst_3, main_call4_v12, main_call4_cst_4, main_call4_call0_v0, main_call4_call0_v1, main_v235]
/-- Written by stretch `hostOps1_9` (26 operations). -/
noncomputable def wlist1_9 : List (Ref sig .tc) :=
  [main_v236, main_v237, main_v238, main_cst_31, main_v239, main_v240, main_v241, main_v242,
   main_v243, main_v244, main_v245, main_v246, main_v247, main_v248, main_v249, main_v250,
   main_v251, main_v252, main_v253, main_v254, main_cst_32, main_v255, main_cst_33, main_v256,
   main_v257, main_c_34]
/-- Written by stretch `hostOps1_10` (22 operations). -/
noncomputable def wlist1_10 : List (Ref sig .tc) :=
  [main_call5_cst, main_call5_v0, main_call5_v1, main_call5_cst_0, main_call5_v2, main_call5_v3, main_call5_v4, main_call5_v5,
   main_call5_v6, main_call5_v7, main_call5_cst_1, main_call5_v8, main_call5_cst_2, main_call5_v9, main_call5_v10, main_call5_v11,
   main_call5_cst_3, main_call5_v12, main_call5_cst_4, main_call5_call0_v0, main_call5_call0_v1, main_v258]
/-- Written by stretch `hostOps1_11` (16 operations). -/
noncomputable def wlist1_11 : List (Ref sig .tc) :=
  [main_v259, main_v260, main_v261, main_cst_35, main_v262, main_v263, main_v264, main_v265,
   main_v266, main_v267, main_v268, main_v269, main_v270, main_v271, main_v272, main_v273]
/-- Written by stretch `hostOps1_12` (3 operations). -/
noncomputable def wlist1_12 : List (Ref sig .tc) :=
  [main_call6_cst, main_call6_v0, main_v274]
/-- Written by stretch `hostOps1_13` (3 operations). -/
noncomputable def wlist1_13 : List (Ref sig .tc) :=
  [main_call7_cst, main_call7_v0, main_v275]
/-- Written by stretch `hostOps1_14` (5 operations). -/
noncomputable def wlist1_14 : List (Ref sig .tc) :=
  [main_v276, main_v277, main_v278, main_v279, main_c_36]
/-- Written by stretch `hostOps1_15` (21 operations). -/
noncomputable def wlist1_15 : List (Ref sig .tc) :=
  [main_call8_v0, main_call8_c, main_call8_v1, main_call8_c_0, main_call8_v2, main_call8_v3, main_call8_v4, main_call8_c_1,
   main_call8_v5, main_call8_v6, main_call8_c_2, main_call8_v7, main_call8_v8, main_call8_c_3, main_call8_v9, main_call8_v10,
   main_call8_v11, main_call8_v12, main_call8_v13, main_call8_v14, main_v280]
/-- Written by stretch `hostOps1_16` (35 operations). -/
noncomputable def wlist1_16 : List (Ref sig .tc) :=
  [main_v281, main_v282, main_c_37, main_v283, main_v284, main_c_38, main_v285, main_v286,
   main_v287, main_v288, main_v289, main_c_39, main_v290, main_v291, main_c_40, main_v292,
   main_v293, main_v294, main_v295, main_v296, main_v297, main_v298, main_c_41, main_v299,
   main_v300, main_c_42, main_v301, main_v302, main_v303, main_v304, main_v305, main_v306,
   main_v307, main_cst_43, main_v308]

/-- The stretches after the region, in order. -/
noncomputable def wtails : List (List (Ref sig .tc)) :=
  [wlist1, wlist1_1, wlist1_2, wlist1_3, wlist1_4, wlist1_5, wlist1_6, wlist1_7, wlist1_8, wlist1_9, wlist1_10, wlist1_11, wlist1_12, wlist1_13, wlist1_14, wlist1_15, wlist1_16]

/-! ## Each entry is what its operation writes -/

theorem hostOps0_wr : List.Forall₂ WritesRef (hostOps0 : List (HloOp τ sig (Elt F))) wlist0 := by
  unfold wlist0; repeat' constructor
set_option maxHeartbeats 4000000 in
theorem hostOps1_wr : List.Forall₂ WritesRef (hostOps1 : List (HloOp τ sig (Elt F))) wlist1 := by
  unfold wlist1; repeat' constructor
theorem hostOps1_1_wr : List.Forall₂ WritesRef (hostOps1_1 : List (HloOp τ sig (Elt F))) wlist1_1 := by
  unfold wlist1_1; repeat' constructor
theorem hostOps1_2_wr : List.Forall₂ WritesRef (hostOps1_2 : List (HloOp τ sig (Elt F))) wlist1_2 := by
  unfold wlist1_2; repeat' constructor
theorem hostOps1_3_wr : List.Forall₂ WritesRef (hostOps1_3 : List (HloOp τ sig (Elt F))) wlist1_3 := by
  unfold wlist1_3; repeat' constructor
theorem hostOps1_4_wr : List.Forall₂ WritesRef (hostOps1_4 : List (HloOp τ sig (Elt F))) wlist1_4 := by
  unfold wlist1_4; repeat' constructor
theorem hostOps1_5_wr : List.Forall₂ WritesRef (hostOps1_5 : List (HloOp τ sig (Elt F))) wlist1_5 := by
  unfold wlist1_5; repeat' constructor
theorem hostOps1_6_wr : List.Forall₂ WritesRef (hostOps1_6 : List (HloOp τ sig (Elt F))) wlist1_6 := by
  unfold wlist1_6; repeat' constructor
set_option maxHeartbeats 4000000 in
theorem hostOps1_7_wr : List.Forall₂ WritesRef (hostOps1_7 : List (HloOp τ sig (Elt F))) wlist1_7 := by
  unfold wlist1_7; repeat' constructor
theorem hostOps1_8_wr : List.Forall₂ WritesRef (hostOps1_8 : List (HloOp τ sig (Elt F))) wlist1_8 := by
  unfold wlist1_8; repeat' constructor
theorem hostOps1_9_wr : List.Forall₂ WritesRef (hostOps1_9 : List (HloOp τ sig (Elt F))) wlist1_9 := by
  unfold wlist1_9; repeat' constructor
theorem hostOps1_10_wr : List.Forall₂ WritesRef (hostOps1_10 : List (HloOp τ sig (Elt F))) wlist1_10 := by
  unfold wlist1_10; repeat' constructor
theorem hostOps1_11_wr : List.Forall₂ WritesRef (hostOps1_11 : List (HloOp τ sig (Elt F))) wlist1_11 := by
  unfold wlist1_11; repeat' constructor
theorem hostOps1_12_wr : List.Forall₂ WritesRef (hostOps1_12 : List (HloOp τ sig (Elt F))) wlist1_12 := by
  unfold wlist1_12; repeat' constructor
theorem hostOps1_13_wr : List.Forall₂ WritesRef (hostOps1_13 : List (HloOp τ sig (Elt F))) wlist1_13 := by
  unfold wlist1_13; repeat' constructor
theorem hostOps1_14_wr : List.Forall₂ WritesRef (hostOps1_14 : List (HloOp τ sig (Elt F))) wlist1_14 := by
  unfold wlist1_14; repeat' constructor
theorem hostOps1_15_wr : List.Forall₂ WritesRef (hostOps1_15 : List (HloOp τ sig (Elt F))) wlist1_15 := by
  unfold wlist1_15; repeat' constructor
theorem hostOps1_16_wr : List.Forall₂ WritesRef (hostOps1_16 : List (HloOp τ sig (Elt F))) wlist1_16 := by
  unfold wlist1_16; repeat' constructor

/-- The lines after the region, stretch against stretch. -/
theorem tail_wr : List.Forall₂ (List.Forall₂ WritesRef) (tailOps : List (List (HloOp τ sig (Elt F)))) wtails := by
  unfold wtails
  exact .cons hostOps1_wr (.cons hostOps1_1_wr (.cons hostOps1_2_wr (.cons hostOps1_3_wr (.cons hostOps1_4_wr (.cons hostOps1_5_wr (.cons hostOps1_6_wr (.cons hostOps1_7_wr (.cons hostOps1_8_wr (.cons hostOps1_9_wr (.cons hostOps1_10_wr (.cons hostOps1_11_wr (.cons hostOps1_12_wr (.cons hostOps1_13_wr (.cons hostOps1_14_wr (.cons hostOps1_15_wr (.cons hostOps1_16_wr (.nil)))))))))))))))))

/-- Every operation after the region writes within the tail's list. -/
theorem tail_writes : ∀ ops ∈ (tailOps : List (List (HloOp τ sig (Elt F)))), ∀ op ∈ ops,
    op.writes ⊆ (wtails.flatten.map (Proc.devRef (τ := τ) .tc)).toFinset :=
  fun ops hops op hop => writes_sub_of_forall₂ (List.rel_flatten tail_wr) op (List.mem_flatten.mpr ⟨ops, hops, hop⟩)

/-! ## What no line writes -/

/-- No line after the region has an array of the pipeline as its result. -/
theorem arr_not_written : ∀ w, Pipeline.arrRef spec0 w ∉ wtails.flatten := by decide

/-- A reference no line before the region writes is found by the region as launched. -/
theorem V_of (c : Dev nD) (r : Ref sig .tc) (hr : r ∉ wlist0) : V m c r = m ((c : Thread nD τ).loc r) :=
  StableHlo.after_of_writes_sub (r := r) _ _ (forall_writes_of_forall₂ hostOps0_wr) hr

/-- A reference that is no array of the pipeline and that no line writes ends as launched. -/
theorem W_of (dats' : (p : Fin 1) → (c : Dev nD) → Dat τ (Elt F) Unit ℕ (UR sig nD τ) ℕ (cfgs p) c) (c : Dev nD)
    (r : Ref sig .tc) (hr : r ∉ wtails.flatten) (ha : ∀ w, Pipeline.arrRef spec0 w ≠ r)
    (hV : V m c r = m ((c : Thread nD τ).loc r)) :
    Pipeline.afterTail₀ cfgs dats' 0 (V0 m) tailOps c r = m ((c : Thread nD τ).loc r) := by
  unfold Pipeline.afterTail₀
  rw [StableHlo.after_of_writes_sub (r := r) _ _
      (List.forall_iff_forall_mem.mpr (writes_sub_of_forall₂ (List.rel_flatten tail_wr))) hr,
    Pipeline.withArrays_of_ne _ c (V0 m c) _ r ha]
  exact hV

/-! ## The arguments -/

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)
theorem V_main_arg14 (c : Dev nD) : V m c main_arg14 = m ((c : Thread nD τ).loc main_arg14) := V_of m c main_arg14 (by decide)
theorem V_main_arg15 (c : Dev nD) : V m c main_arg15 = m ((c : Thread nD τ).loc main_arg15) := V_of m c main_arg15 (by decide)
theorem V_main_arg16 (c : Dev nD) : V m c main_arg16 = m ((c : Thread nD τ).loc main_arg16) := V_of m c main_arg16 (by decide)
theorem V_main_arg17 (c : Dev nD) : V m c main_arg17 = m ((c : Thread nD τ).loc main_arg17) := V_of m c main_arg17 (by decide)
theorem V_main_arg18 (c : Dev nD) : V m c main_arg18 = m ((c : Thread nD τ).loc main_arg18) := V_of m c main_arg18 (by decide)
theorem V_main_arg19 (c : Dev nD) : V m c main_arg19 = m ((c : Thread nD τ).loc main_arg19) := V_of m c main_arg19 (by decide)
theorem V_main_arg20 (c : Dev nD) : V m c main_arg20 = m ((c : Thread nD τ).loc main_arg20) := V_of m c main_arg20 (by decide)
theorem V_main_arg21 (c : Dev nD) : V m c main_arg21 = m ((c : Thread nD τ).loc main_arg21) := V_of m c main_arg21 (by decide)
theorem V_main_arg22 (c : Dev nD) : V m c main_arg22 = m ((c : Thread nD τ).loc main_arg22) := V_of m c main_arg22 (by decide)
theorem V_main_arg23 (c : Dev nD) : V m c main_arg23 = m ((c : Thread nD τ).loc main_arg23) := V_of m c main_arg23 (by decide)
theorem V_main_arg24 (c : Dev nD) : V m c main_arg24 = m ((c : Thread nD τ).loc main_arg24) := V_of m c main_arg24 (by decide)

theorem W_main_arg1 (dats' : (p : Fin 1) → (c : Dev nD) → Dat τ (Elt F) Unit ℕ (UR sig nD τ) ℕ (cfgs p) c) (c : Dev nD) :
    Pipeline.afterTail₀ cfgs dats' 0 (V0 m) tailOps c main_arg1 = m ((c : Thread nD τ).loc main_arg1) :=
  W_of m dats' c main_arg1 (by decide) (by decide) (V_main_arg1 m c)
theorem W_main_arg2 (dats' : (p : Fin 1) → (c : Dev nD) → Dat τ (Elt F) Unit ℕ (UR sig nD τ) ℕ (cfgs p) c) (c : Dev nD) :
    Pipeline.afterTail₀ cfgs dats' 0 (V0 m) tailOps c main_arg2 = m ((c : Thread nD τ).loc main_arg2) :=
  W_of m dats' c main_arg2 (by decide) (by decide) (V_main_arg2 m c)
theorem W_main_arg3 (dats' : (p : Fin 1) → (c : Dev nD) → Dat τ (Elt F) Unit ℕ (UR sig nD τ) ℕ (cfgs p) c) (c : Dev nD) :
    Pipeline.afterTail₀ cfgs dats' 0 (V0 m) tailOps c main_arg3 = m ((c : Thread nD τ).loc main_arg3) :=
  W_of m dats' c main_arg3 (by decide) (by decide) (V_main_arg3 m c)
theorem W_main_arg5 (dats' : (p : Fin 1) → (c : Dev nD) → Dat τ (Elt F) Unit ℕ (UR sig nD τ) ℕ (cfgs p) c) (c : Dev nD) :
    Pipeline.afterTail₀ cfgs dats' 0 (V0 m) tailOps c main_arg5 = m ((c : Thread nD τ).loc main_arg5) :=
  W_of m dats' c main_arg5 (by decide) (by decide) (V_main_arg5 m c)
theorem W_main_arg6 (dats' : (p : Fin 1) → (c : Dev nD) → Dat τ (Elt F) Unit ℕ (UR sig nD τ) ℕ (cfgs p) c) (c : Dev nD) :
    Pipeline.afterTail₀ cfgs dats' 0 (V0 m) tailOps c main_arg6 = m ((c : Thread nD τ).loc main_arg6) :=
  W_of m dats' c main_arg6 (by decide) (by decide) (V_main_arg6 m c)
theorem W_main_arg7 (dats' : (p : Fin 1) → (c : Dev nD) → Dat τ (Elt F) Unit ℕ (UR sig nD τ) ℕ (cfgs p) c) (c : Dev nD) :
    Pipeline.afterTail₀ cfgs dats' 0 (V0 m) tailOps c main_arg7 = m ((c : Thread nD τ).loc main_arg7) :=
  W_of m dats' c main_arg7 (by decide) (by decide) (V_main_arg7 m c)
theorem W_main_arg8 (dats' : (p : Fin 1) → (c : Dev nD) → Dat τ (Elt F) Unit ℕ (UR sig nD τ) ℕ (cfgs p) c) (c : Dev nD) :
    Pipeline.afterTail₀ cfgs dats' 0 (V0 m) tailOps c main_arg8 = m ((c : Thread nD τ).loc main_arg8) :=
  W_of m dats' c main_arg8 (by decide) (by decide) (V_main_arg8 m c)
theorem W_main_arg9 (dats' : (p : Fin 1) → (c : Dev nD) → Dat τ (Elt F) Unit ℕ (UR sig nD τ) ℕ (cfgs p) c) (c : Dev nD) :
    Pipeline.afterTail₀ cfgs dats' 0 (V0 m) tailOps c main_arg9 = m ((c : Thread nD τ).loc main_arg9) :=
  W_of m dats' c main_arg9 (by decide) (by decide) (V_main_arg9 m c)
theorem W_main_arg10 (dats' : (p : Fin 1) → (c : Dev nD) → Dat τ (Elt F) Unit ℕ (UR sig nD τ) ℕ (cfgs p) c) (c : Dev nD) :
    Pipeline.afterTail₀ cfgs dats' 0 (V0 m) tailOps c main_arg10 = m ((c : Thread nD τ).loc main_arg10) :=
  W_of m dats' c main_arg10 (by decide) (by decide) (V_main_arg10 m c)
theorem W_main_arg11 (dats' : (p : Fin 1) → (c : Dev nD) → Dat τ (Elt F) Unit ℕ (UR sig nD τ) ℕ (cfgs p) c) (c : Dev nD) :
    Pipeline.afterTail₀ cfgs dats' 0 (V0 m) tailOps c main_arg11 = m ((c : Thread nD τ).loc main_arg11) :=
  W_of m dats' c main_arg11 (by decide) (by decide) (V_main_arg11 m c)
theorem W_main_arg12 (dats' : (p : Fin 1) → (c : Dev nD) → Dat τ (Elt F) Unit ℕ (UR sig nD τ) ℕ (cfgs p) c) (c : Dev nD) :
    Pipeline.afterTail₀ cfgs dats' 0 (V0 m) tailOps c main_arg12 = m ((c : Thread nD τ).loc main_arg12) :=
  W_of m dats' c main_arg12 (by decide) (by decide) (V_main_arg12 m c)
theorem W_main_arg13 (dats' : (p : Fin 1) → (c : Dev nD) → Dat τ (Elt F) Unit ℕ (UR sig nD τ) ℕ (cfgs p) c) (c : Dev nD) :
    Pipeline.afterTail₀ cfgs dats' 0 (V0 m) tailOps c main_arg13 = m ((c : Thread nD τ).loc main_arg13) :=
  W_of m dats' c main_arg13 (by decide) (by decide) (V_main_arg13 m c)
theorem W_main_arg14 (dats' : (p : Fin 1) → (c : Dev nD) → Dat τ (Elt F) Unit ℕ (UR sig nD τ) ℕ (cfgs p) c) (c : Dev nD) :
    Pipeline.afterTail₀ cfgs dats' 0 (V0 m) tailOps c main_arg14 = m ((c : Thread nD τ).loc main_arg14) :=
  W_of m dats' c main_arg14 (by decide) (by decide) (V_main_arg14 m c)
theorem W_main_arg15 (dats' : (p : Fin 1) → (c : Dev nD) → Dat τ (Elt F) Unit ℕ (UR sig nD τ) ℕ (cfgs p) c) (c : Dev nD) :
    Pipeline.afterTail₀ cfgs dats' 0 (V0 m) tailOps c main_arg15 = m ((c : Thread nD τ).loc main_arg15) :=
  W_of m dats' c main_arg15 (by decide) (by decide) (V_main_arg15 m c)
theorem W_main_arg16 (dats' : (p : Fin 1) → (c : Dev nD) → Dat τ (Elt F) Unit ℕ (UR sig nD τ) ℕ (cfgs p) c) (c : Dev nD) :
    Pipeline.afterTail₀ cfgs dats' 0 (V0 m) tailOps c main_arg16 = m ((c : Thread nD τ).loc main_arg16) :=
  W_of m dats' c main_arg16 (by decide) (by decide) (V_main_arg16 m c)
theorem W_main_arg17 (dats' : (p : Fin 1) → (c : Dev nD) → Dat τ (Elt F) Unit ℕ (UR sig nD τ) ℕ (cfgs p) c) (c : Dev nD) :
    Pipeline.afterTail₀ cfgs dats' 0 (V0 m) tailOps c main_arg17 = m ((c : Thread nD τ).loc main_arg17) :=
  W_of m dats' c main_arg17 (by decide) (by decide) (V_main_arg17 m c)
theorem W_main_arg18 (dats' : (p : Fin 1) → (c : Dev nD) → Dat τ (Elt F) Unit ℕ (UR sig nD τ) ℕ (cfgs p) c) (c : Dev nD) :
    Pipeline.afterTail₀ cfgs dats' 0 (V0 m) tailOps c main_arg18 = m ((c : Thread nD τ).loc main_arg18) :=
  W_of m dats' c main_arg18 (by decide) (by decide) (V_main_arg18 m c)
theorem W_main_arg19 (dats' : (p : Fin 1) → (c : Dev nD) → Dat τ (Elt F) Unit ℕ (UR sig nD τ) ℕ (cfgs p) c) (c : Dev nD) :
    Pipeline.afterTail₀ cfgs dats' 0 (V0 m) tailOps c main_arg19 = m ((c : Thread nD τ).loc main_arg19) :=
  W_of m dats' c main_arg19 (by decide) (by decide) (V_main_arg19 m c)
theorem W_main_arg20 (dats' : (p : Fin 1) → (c : Dev nD) → Dat τ (Elt F) Unit ℕ (UR sig nD τ) ℕ (cfgs p) c) (c : Dev nD) :
    Pipeline.afterTail₀ cfgs dats' 0 (V0 m) tailOps c main_arg20 = m ((c : Thread nD τ).loc main_arg20) :=
  W_of m dats' c main_arg20 (by decide) (by decide) (V_main_arg20 m c)
theorem W_main_arg21 (dats' : (p : Fin 1) → (c : Dev nD) → Dat τ (Elt F) Unit ℕ (UR sig nD τ) ℕ (cfgs p) c) (c : Dev nD) :
    Pipeline.afterTail₀ cfgs dats' 0 (V0 m) tailOps c main_arg21 = m ((c : Thread nD τ).loc main_arg21) :=
  W_of m dats' c main_arg21 (by decide) (by decide) (V_main_arg21 m c)
theorem W_main_arg22 (dats' : (p : Fin 1) → (c : Dev nD) → Dat τ (Elt F) Unit ℕ (UR sig nD τ) ℕ (cfgs p) c) (c : Dev nD) :
    Pipeline.afterTail₀ cfgs dats' 0 (V0 m) tailOps c main_arg22 = m ((c : Thread nD τ).loc main_arg22) :=
  W_of m dats' c main_arg22 (by decide) (by decide) (V_main_arg22 m c)
theorem W_main_arg23 (dats' : (p : Fin 1) → (c : Dev nD) → Dat τ (Elt F) Unit ℕ (UR sig nD τ) ℕ (cfgs p) c) (c : Dev nD) :
    Pipeline.afterTail₀ cfgs dats' 0 (V0 m) tailOps c main_arg23 = m ((c : Thread nD τ).loc main_arg23) :=
  W_of m dats' c main_arg23 (by decide) (by decide) (V_main_arg23 m c)
theorem W_main_arg24 (dats' : (p : Fin 1) → (c : Dev nD) → Dat τ (Elt F) Unit ℕ (UR sig nD τ) ℕ (cfgs p) c) (c : Dev nD) :
    Pipeline.afterTail₀ cfgs dats' 0 (V0 m) tailOps c main_arg24 = m ((c : Thread nD τ).loc main_arg24) :=
  W_of m dats' c main_arg24 (by decide) (by decide) (V_main_arg24 m c)

end Cert.Kernel.Hand

end
-- ==== Proof.KFrame.lean ====
/-
  The frame of the program: it runs, and its 25 argument arrays end as launched. The program is five host lines, one
  pipelined region over ten row blocks, and seventeen stretches of host lines. The lines before the region touch
  TensorCore references only and allocate nothing, so the region is entered at their contents; the region's body meets
  the pipeline's obligation at every point (the inputs' staging buffers hold their blocks whether or not they were
  fetched there, the body's triple does the rest); the lines after the region touch unscoped references only, allocate
  nothing and write no array of the pipeline. So the run ends with every array at what the pipeline computes and every
  other buffer as the later lines leave it; an argument that is an input array ends as it started, and no line writes
  any argument.
-/
import proofs.«121394_g42563125903665_cont_8to1_b_1637_2_alg».proof.Proof.KBody
import proofs.«121394_g42563125903665_cont_8to1_b_1637_2_alg».proof.Proof.KWrites

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
set_option maxHeartbeats 4000000 in
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- The program is the lines before the region, the region, and the later stretches: it reduces to the region
    continued by the later lines, entered at the contents the first lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only: their buffers are unscoped TensorCore
    references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop

/-- And they write no array of the pipeline: each writes its own result, and no result is an array. -/
theorem sfx_keeps : ∀ ops ∈ (tailOps : List (List (HloOp τ sig (Elt F)))), ∀ op ∈ ops,
    ∀ w, Proc.devRef .tc (Pipeline.arrRef spec0 w) ∉ op.writes :=
  fun ops hops op hop w => not_mem_writes_of_sub (tail_writes ops hops op hop) (arr_not_written w)

/-! ## The input windows' blocks -/

/-- Input window 0's current staging buffer holds its block at every point, fetched there or not (unfetched, the
    block index has not moved), for any proof data whose array is the region-entry contents and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not (unfetched, the
    block index has not moved), for any proof data whose array is the region-entry contents and whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not (unfetched, the
    block index has not moved), for any proof data whose array is the region-entry contents and whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates, and
    every final state has every array of the pipeline at what the pipeline computes from the proof data and every
    other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The arguments in a final state that meets the frame run's post, for any proof data whose arrays are the
    region-entry contents: an argument that is an input array of the pipeline ends as the region found it, which is
    as launched; every other argument bypasses the region and is written by no later line. -/
theorem args_of_post (dats' : (p : Fin 1) → (c : Dev nD) → Dat τ (Elt F) Unit ℕ (UR sig nD τ) ℕ (cfgs p) c)
    (hA : ∀ c w, (dats' 0 c).A w = V m c (Pipeline.arrRef spec0 w)) (r : PUnit × MemSt nD τ sig (Elt F))
    (h : Pipeline.FramePost cfgs dats' 0 (Pipeline.afterTail₀ cfgs dats' 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).1 0).trans (((dats' 0 c).arrAt_in 0 rfl _).trans ((hA c 0).trans (V_main_arg0 m c))),
   ((h c).2 main_arg1 (Pipeline.mem_restRefs_of main_arg1 (by decide) (by decide))).trans (W_main_arg1 m dats' c),
   ((h c).2 main_arg2 (Pipeline.mem_restRefs_of main_arg2 (by decide) (by decide))).trans (W_main_arg2 m dats' c),
   ((h c).2 main_arg3 (Pipeline.mem_restRefs_of main_arg3 (by decide) (by decide))).trans (W_main_arg3 m dats' c),
   ((h c).1 1).trans (((dats' 0 c).arrAt_in 1 rfl _).trans ((hA c 1).trans (V_main_arg4 m c))),
   ((h c).2 main_arg5 (Pipeline.mem_restRefs_of main_arg5 (by decide) (by decide))).trans (W_main_arg5 m dats' c),
   ((h c).2 main_arg6 (Pipeline.mem_restRefs_of main_arg6 (by decide) (by decide))).trans (W_main_arg6 m dats' c),
   ((h c).2 main_arg7 (Pipeline.mem_restRefs_of main_arg7 (by decide) (by decide))).trans (W_main_arg7 m dats' c),
   ((h c).2 main_arg8 (Pipeline.mem_restRefs_of main_arg8 (by decide) (by decide))).trans (W_main_arg8 m dats' c),
   ((h c).2 main_arg9 (Pipeline.mem_restRefs_of main_arg9 (by decide) (by decide))).trans (W_main_arg9 m dats' c),
   ((h c).2 main_arg10 (Pipeline.mem_restRefs_of main_arg10 (by decide) (by decide))).trans (W_main_arg10 m dats' c),
   ((h c).2 main_arg11 (Pipeline.mem_restRefs_of main_arg11 (by decide) (by decide))).trans (W_main_arg11 m dats' c),
   ((h c).2 main_arg12 (Pipeline.mem_restRefs_of main_arg12 (by decide) (by decide))).trans (W_main_arg12 m dats' c),
   ((h c).2 main_arg13 (Pipeline.mem_restRefs_of main_arg13 (by decide) (by decide))).trans (W_main_arg13 m dats' c),
   ((h c).2 main_arg14 (Pipeline.mem_restRefs_of main_arg14 (by decide) (by decide))).trans (W_main_arg14 m dats' c),
   ((h c).2 main_arg15 (Pipeline.mem_restRefs_of main_arg15 (by decide) (by decide))).trans (W_main_arg15 m dats' c),
   ((h c).2 main_arg16 (Pipeline.mem_restRefs_of main_arg16 (by decide) (by decide))).trans (W_main_arg16 m dats' c),
   ((h c).2 main_arg17 (Pipeline.mem_restRefs_of main_arg17 (by decide) (by decide))).trans (W_main_arg17 m dats' c),
   ((h c).2 main_arg18 (Pipeline.mem_restRefs_of main_arg18 (by decide) (by decide))).trans (W_main_arg18 m dats' c),
   ((h c).2 main_arg19 (Pipeline.mem_restRefs_of main_arg19 (by decide) (by decide))).trans (W_main_arg19 m dats' c),
   ((h c).2 main_arg20 (Pipeline.mem_restRefs_of main_arg20 (by decide) (by decide))).trans (W_main_arg20 m dats' c),
   ((h c).2 main_arg21 (Pipeline.mem_restRefs_of main_arg21 (by decide) (by decide))).trans (W_main_arg21 m dats' c),
   ((h c).2 main_arg22 (Pipeline.mem_restRefs_of main_arg22 (by decide) (by decide))).trans (W_main_arg22 m dats' c),
   ((h c).2 main_arg23 (Pipeline.mem_restRefs_of main_arg23 (by decide) (by decide))).trans (W_main_arg23 m dats' c),
   ((h c).2 main_arg24 (Pipeline.mem_restRefs_of main_arg24 (by decide) (by decide))).trans (W_main_arg24 m dats' c)⟩

/-- The result buffer in such a final state: it bypasses the region, so it holds what the later lines leave in it. -/
theorem result_of_post (dats' : (p : Fin 1) → (c : Dev nD) → Dat τ (Elt F) Unit ℕ (UR sig nD τ) ℕ (cfgs p) c)
    (hA : ∀ c w, (dats' 0 c).A w = V m c (Pipeline.arrRef spec0 w)) (r : PUnit × MemSt nD τ sig (Elt F))
    (h : Pipeline.FramePost cfgs dats' 0 (Pipeline.afterTail₀ cfgs dats' 0 (V0 m) tailOps) r) (c : Dev nD) :
    r.2.mem ((c.tc : Thread nD τ).loc main_v308) = Pipeline.afterTail₀ cfgs dats' 0 (V0 m) tailOps c main_v308 :=
  (h c).2 main_v308 (Pipeline.mem_restRefs_of main_v308 (by decide) (by decide))

/-- The frame from a frame run: the post read at the arguments in every final state. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (Pipeline.afterTail₀ cfgs dats' 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => args_of_post m dats' hA r h c) h

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.Kernel.Hand

end
-- ==== Proof.KIDefs.lean ====
/-
  The launch-side definitions shared by the frame and the value proofs of the kernel program (generic in the float
  instance): the contents the region finds (the host lines before it folded over the launch memory), each window's
  block at a grid point, what the body leaves in the output window's staging buffer — the one store of
  x_block · w + bias row, as the canon of that store over the loaded blocks —, and the pipeline's proof data:
  inputs at their blocks, the output at that canon, the class invariant, full shares, nothing owed.
-/
import proofs.«121394_g42563125903665_cont_8to1_b_1637_2_alg».proof.Proof.Gen.KernelIdeal.Launch
import proofs.«121394_g42563125903665_cont_8to1_b_1637_2_alg».proof.Proof.Gen.KernelIdeal.Skeleton
import proofs.«121394_g42563125903665_cont_8to1_b_1637_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- The host lines after the region, stretch by stretch (a called function's lines are a stretch of their own). -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-- Core `c`'s buffer contents when the region is entered: the launch memory after the host lines before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's whole-buffer rectangles: the row block, the weights, the bias row. -/
abbrev rX : Rect S1000x256 := Rect.unit (s := S1000x256) ![0, 0] S1000x256.size inb_S1000x256_S1000x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

/-- The output window's staging buffer after the body, from the three input blocks: its one store. -/
def out0_3 (x0 : Vec F S1000x256 .f32) (x1 : Vec F S256x256 .f32) (x2 : Vec F S1x256 .f32) : Vec F S1000x256 .f32 :=
  View.canon [⟨rX, k0_pay1 (View.ld x0 rX) (View.ld x1 rW) (View.ld x2 rB)⟩]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

end Cert.KernelIdeal.Hand

end
-- ==== Proof.KIBody.lean ====
/-
  The kernel body's triple. On whole staging buffers — the row block, the weights and the bias row at read contents,
  the output's at anything — the body reads the three inputs, reads the output buffer (a value it never uses) and
  stores x_block · w + bias row through the whole output rectangle: it leaves the inputs as they were and the output
  buffer at the canon of that one store, a store that covers the buffer.
-/
import proofs.«121394_g42563125903665_cont_8to1_b_1637_2_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one store is through the whole output rectangle, so it covers the buffer. -/
theorem cover0_3 (p0 : Vec F S1000x256 .f32) (y : S1000x256.Idx) :
    ∃ pc ∈ ([⟨rX, p0⟩] : List (View.Piece (Elt F) S1000x256 .f32)), y ∈ pc.1.set :=
  View.cover_of_tiled [⟨rX, p0⟩] S1000x256.size (by rfl) y

set_option maxHeartbeats 1000000 in
/-- The body on whole staging buffers: the inputs' at read contents `x0 x1 x2`, the output's at anything; it runs to
    the continuation holding the inputs' as they were and the output's at `out0_3 x0 x1 x2`. -/
theorem sound_kernel (c : Dev nD) (E : Set ℕ) (i : grid0.Coords)
    (arg1 : Memref sig .tc .vmem S1000x256 .f32) (harg1 : arg1.IsWhole)
    (arg2 : Memref sig .tc .vmem S256x256 .f32) (harg2 : arg2.IsWhole)
    (arg3 : Memref sig .tc .vmem S1x256 .f32) (harg3 : arg3.IsWhole)
    (arg4 : Memref sig .tc .vmem S1000x256 .f32) (harg4 : arg4.IsWhole)
    (x0 : Vec F S1000x256 .f32) (x1 : Vec F S256x256 .f32) (x2 : Vec F S1x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__mm_kernel i arg1 harg1 arg2 harg2 arg3 harg3 arg4 harg4) K := by
  simp only [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Hand

end
-- ==== Proof.KIWrites.lean ====
/-
  Which references the host lines write. Every host operation writes exactly one reference, its result. Stretch by
  stretch the results are listed in order, and each entry is checked against its operation; a reference that is in
  no list is therefore written by no line, so the lines leave it as they found it. Applied to the 25 arguments
  (none is a result of any line) and to the four arrays of the pipeline (none is a result of a line after the region).
-/
import proofs.«121394_g42563125903665_cont_8to1_b_1637_2_alg».proof.Proof.KIDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One operation, one written reference -/

/-- The operation writes exactly the reference `y`. -/
abbrev WritesRef (op : HloOp τ sig (Elt F)) (y : Ref sig .tc) : Prop := op.writes = {Proc.devRef (τ := τ) .tc y}

/-- Operations paired in order with the references they write: each writes within the list. -/
theorem writes_sub_of_forall₂ {ops : List (HloOp τ sig (Elt F))} {W : List (Ref sig .tc)}
    (h : List.Forall₂ WritesRef ops W) : ∀ op ∈ ops, op.writes ⊆ (W.map (Proc.devRef (τ := τ) .tc)).toFinset := by
  induction h with
  | nil => intro op hop; cases hop
  | @cons op y ops W hy _ ih =>
    intro o ho
    rw [List.map_cons, List.toFinset_cons]
    rcases List.mem_cons.mp ho with rfl | ho
    · rw [show o.writes = _ from hy]; exact Finset.singleton_subset_iff.mpr (Finset.mem_insert_self _ _)
    · exact (ih o ho).trans (Finset.subset_insert _ _)

/-- The same as a `List.Forall`. -/
theorem forall_writes_of_forall₂ {ops : List (HloOp τ sig (Elt F))} {W : List (Ref sig .tc)}
    (h : List.Forall₂ WritesRef ops W) : ops.Forall fun op => op.writes ⊆ (W.map (Proc.devRef (τ := τ) .tc)).toFinset :=
  List.forall_iff_forall_mem.mpr (writes_sub_of_forall₂ h)

/-- A reference outside a list holding everything an operation writes is not written by it. -/
theorem not_mem_writes_of_sub {W : List (Ref sig .tc)} {r : Ref sig .tc} {op : HloOp τ sig (Elt F)}
    (h : op.writes ⊆ (W.map (Proc.devRef (τ := τ) .tc)).toFinset) (hr : r ∉ W) : Proc.devRef (τ := τ) .tc r ∉ op.writes := fun hb => by
  obtain ⟨y, hy, he⟩ := List.mem_map.mp (List.mem_toFinset.mp (h hb))
  exact hr (Proc.devRef_injective _ he ▸ hy)

/-! ## The written references, stretch by stretch, in order -/

/-- Written by the five lines before the region. -/
noncomputable def wlist0 : List (Ref sig .tc) := [main_v0, main_v1, main_v2, main_v3, main_v4]
/-- Written by stretch `hostOps1` (109 operations). -/
noncomputable def wlist1 : List (Ref sig .tc) :=
  [main_v6, main_v7, main_v8, main_v9, main_v10, main_v11, main_v12, main_v13,
   main_v14, main_v15, main_v16, main_v17, main_v18, main_v19, main_v20, main_v21,
   main_v22, main_v23, main_v24, main_v25, main_v26, main_v27, main_v28, main_v29,
   main_v30, main_v31, main_v32, main_v33, main_v34, main_v35, main_v36, main_v37,
   main_v38, main_v39, main_v40, main_v41, main_v42, main_v43, main_v44, main_v45,
   main_v46, main_v47, main_v48, main_v49, main_c, main_v50, main_v51, main_c_0,
   main_v52, main_v53, main_v54, main_v55, main_v56, main_c_1, main_v57, main_v58,
   main_c_2, main_v59, main_v60, main_v61, main_v62, main_v63, main_v64, main_v65,
   main_v66, main_v67, main_cst, main_v68, main_v69, main_cst_3, main_v70, main_v71,
   main_c_4, main_v72, main_v73, main_c_5, main_v74, main_v75, main_v76, main_v77,
   main_v78, main_v79, main_cst_6, main_v80, main_v81, main_v82, main_cst_7, main_v83,
   main_v84, main_v85, main_cst_8, main_v86, main_v87, main_v88, main_v89, main_v90,
   main_v91, main_v92, main_v93, main_v94, main_v95, main_v96, main_v97, main_cst_9,
   main_v98, main_cst_10, main_v99, main_v100, main_c_11]
/-- Written by stretch `hostOps1_1` (22 operations). -/
noncomputable def wlist1_1 : List (Ref sig .tc) :=
  [main_call0_cst, main_call0_v0, main_call0_v1, main_call0_cst_0, main_call0_v2, main_call0_v3, main_call0_v4, main_call0_v5,
   main_call0_v6, main_call0_v7, main_call0_cst_1, main_call0_v8, main_call0_cst_2, main_call0_v9, main_call0_v10, main_call0_v11,
   main_call0_cst_3, main_call0_v12, main_call0_cst_4, main_call0_call0_v0, main_call0_call0_v1, main_v101]
/-- Written by stretch `hostOps1_2` (26 operations). -/
noncomputable def wlist1_2 : List (Ref sig .tc) :=
  [main_v102, main_v103, main_v104, main_cst_12, main_v105, main_v106, main_v107, main_v108,
   main_v109, main_v110, main_v111, main_v112, main_v113, main_v114, main_v115, main_v116,
   main_v117, main_v118, main_v119, main_v120, main_cst_13, main_v121, main_cst_14, main_v122,
   main_v123, main_c_15]
/-- Written by stretch `hostOps1_3` (22 operations). -/
noncomputable def wlist1_3 : List (Ref sig .tc) :=
  [main_call1_cst, main_call1_v0, main_call1_v1, main_call1_cst_0, main_call1_v2, main_call1_v3, main_call1_v4, main_call1_v5,
   main_call1_v6, main_call1_v7, main_call1_cst_1, main_call1_v8, main_call1_cst_2, main_call1_v9, main_call1_v10, main_call1_v11,
   main_call1_cst_3, main_call1_v12, main_call1_cst_4, main_call1_call0_v0, main_call1_call0_v1, main_v124]
/-- Written by stretch `hostOps1_4` (16 operations). -/
noncomputable def wlist1_4 : List (Ref sig .tc) :=
  [main_v125, main_v126, main_v127, main_cst_16, main_v128, main_v129, main_v130, main_v131,
   main_v132, main_v133, main_v134, main_v135, main_v136, main_v137, main_v138, main_v139]
/-- Written by stretch `hostOps1_5` (3 operations). -/
noncomputable def wlist1_5 : List (Ref sig .tc) :=
  [main_call2_cst, main_call2_v0, main_v140]
/-- Written by stretch `hostOps1_6` (3 operations). -/
noncomputable def wlist1_6 : List (Ref sig .tc) :=
  [main_call3_cst, main_call3_v0, main_v141]
/-- Written by stretch `hostOps1_7` (107 operations). -/
noncomputable def wlist1_7 : List (Ref sig .tc) :=
  [main_v142, main_v143, main_v144, main_v145, main_v146, main_v147, main_v148, main_v149,
   main_v150, main_v151, main_v152, main_v153, main_v154, main_v155, main_v156, main_v157,
   main_v158, main_v159, main_v160, main_v161, main_v162, main_v163, main_v164, main_v165,
   main_v166, main_v167, main_v168, main_v169, main_v170, main_v171, main_v172, main_v173,
   main_v174, main_v175, main_v176, main_v177, main_v178, main_v179, main_v180, main_v181,
   main_v182, main_v183, main_c_17, main_v184, main_v185, main_c_18, main_v186, main_v187,
   main_v188, main_v189, main_v190, main_c_19, main_v191, main_v192, main_c_20, main_v193,
   main_v194, main_v195, main_v196, main_v197, main_v198, main_v199, main_v200, main_v201,
   main_cst_21, main_v202, main_v203, main_cst_22, main_v204, main_v205, main_c_23, main_v206,
   main_v207, main_c_24, main_v208, main_v209, main_v210, main_v211, main_v212, main_v213,
   main_cst_25, main_v214, main_v215, main_v216, main_cst_26, main_v217, main_v218, main_v219,
   main_cst_27, main_v220, main_v221, main_v222, main_v223, main_v224, main_v225, main_v226,
   main_v227, main_v228, main_v229, main_v230, main_v231, main_cst_28, main_v232, main_cst_29,
   main_v233, main_v234, main_c_30]
/-- Written by stretch `hostOps1_8` (22 operations). -/
noncomputable def wlist1_8 : List (Ref sig .tc) :=
  [main_call4_cst, main_call4_v0, main_call4_v1, main_call4_cst_0, main_call4_v2, main_call4_v3, main_call4_v4, main_call4_v5,
   main_call4_v6, main_call4_v7, main_call4_cst_1, main_call4_v8, main_call4_cst_2, main_call4_v9, main_call4_v10, main_call4_v11,
   main_call4_cst_3, main_call4_v12, main_call4_cst_4, main_call4_call0_v0, main_call4_call0_v1, main_v235]
/-- Written by stretch `hostOps1_9` (26 operations). -/
noncomputable def wlist1_9 : List (Ref sig .tc) :=
  [main_v236, main_v237, main_v238, main_cst_31, main_v239, main_v240, main_v241, main_v242,
   main_v243, main_v244, main_v245, main_v246, main_v247, main_v248, main_v249, main_v250,
   main_v251, main_v252, main_v253, main_v254, main_cst_32, main_v255, main_cst_33, main_v256,
   main_v257, main_c_34]
/-- Written by stretch `hostOps1_10` (22 operations). -/
noncomputable def wlist1_10 : List (Ref sig .tc) :=
  [main_call5_cst, main_call5_v0, main_call5_v1, main_call5_cst_0, main_call5_v2, main_call5_v3, main_call5_v4, main_call5_v5,
   main_call5_v6, main_call5_v7, main_call5_cst_1, main_call5_v8, main_call5_cst_2, main_call5_v9, main_call5_v10, main_call5_v11,
   main_call5_cst_3, main_call5_v12, main_call5_cst_4, main_call5_call0_v0, main_call5_call0_v1, main_v258]
/-- Written by stretch `hostOps1_11` (16 operations). -/
noncomputable def wlist1_11 : List (Ref sig .tc) :=
  [main_v259, main_v260, main_v261, main_cst_35, main_v262, main_v263, main_v264, main_v265,
   main_v266, main_v267, main_v268, main_v269, main_v270, main_v271, main_v272, main_v273]
/-- Written by stretch `hostOps1_12` (3 operations). -/
noncomputable def wlist1_12 : List (Ref sig .tc) :=
  [main_call6_cst, main_call6_v0, main_v274]
/-- Written by stretch `hostOps1_13` (3 operations). -/
noncomputable def wlist1_13 : List (Ref sig .tc) :=
  [main_call7_cst, main_call7_v0, main_v275]
/-- Written by stretch `hostOps1_14` (5 operations). -/
noncomputable def wlist1_14 : List (Ref sig .tc) :=
  [main_v276, main_v277, main_v278, main_v279, main_c_36]
/-- Written by stretch `hostOps1_15` (21 operations). -/
noncomputable def wlist1_15 : List (Ref sig .tc) :=
  [main_call8_v0, main_call8_c, main_call8_v1, main_call8_c_0, main_call8_v2, main_call8_v3, main_call8_v4, main_call8_c_1,
   main_call8_v5, main_call8_v6, main_call8_c_2, main_call8_v7, main_call8_v8, main_call8_c_3, main_call8_v9, main_call8_v10,
   main_call8_v11, main_call8_v12, main_call8_v13, main_call8_v14, main_v280]
/-- Written by stretch `hostOps1_16` (35 operations). -/
noncomputable def wlist1_16 : List (Ref sig .tc) :=
  [main_v281, main_v282, main_c_37, main_v283, main_v284, main_c_38, main_v285, main_v286,
   main_v287, main_v288, main_v289, main_c_39, main_v290, main_v291, main_c_40, main_v292,
   main_v293, main_v294, main_v295, main_v296, main_v297, main_v298, main_c_41, main_v299,
   main_v300, main_c_42, main_v301, main_v302, main_v303, main_v304, main_v305, main_v306,
   main_v307, main_cst_43, main_v308]

/-- The stretches after the region, in order. -/
noncomputable def wtails : List (List (Ref sig .tc)) :=
  [wlist1, wlist1_1, wlist1_2, wlist1_3, wlist1_4, wlist1_5, wlist1_6, wlist1_7, wlist1_8, wlist1_9, wlist1_10, wlist1_11, wlist1_12, wlist1_13, wlist1_14, wlist1_15, wlist1_16]

/-! ## Each entry is what its operation writes -/

theorem hostOps0_wr : List.Forall₂ WritesRef (hostOps0 : List (HloOp τ sig (Elt F))) wlist0 := by
  unfold wlist0; repeat' constructor
set_option maxHeartbeats 4000000 in
theorem hostOps1_wr : List.Forall₂ WritesRef (hostOps1 : List (HloOp τ sig (Elt F))) wlist1 := by
  unfold wlist1; repeat' constructor
theorem hostOps1_1_wr : List.Forall₂ WritesRef (hostOps1_1 : List (HloOp τ sig (Elt F))) wlist1_1 := by
  unfold wlist1_1; repeat' constructor
theorem hostOps1_2_wr : List.Forall₂ WritesRef (hostOps1_2 : List (HloOp τ sig (Elt F))) wlist1_2 := by
  unfold wlist1_2; repeat' constructor
theorem hostOps1_3_wr : List.Forall₂ WritesRef (hostOps1_3 : List (HloOp τ sig (Elt F))) wlist1_3 := by
  unfold wlist1_3; repeat' constructor
theorem hostOps1_4_wr : List.Forall₂ WritesRef (hostOps1_4 : List (HloOp τ sig (Elt F))) wlist1_4 := by
  unfold wlist1_4; repeat' constructor
theorem hostOps1_5_wr : List.Forall₂ WritesRef (hostOps1_5 : List (HloOp τ sig (Elt F))) wlist1_5 := by
  unfold wlist1_5; repeat' constructor
theorem hostOps1_6_wr : List.Forall₂ WritesRef (hostOps1_6 : List (HloOp τ sig (Elt F))) wlist1_6 := by
  unfold wlist1_6; repeat' constructor
set_option maxHeartbeats 4000000 in
theorem hostOps1_7_wr : List.Forall₂ WritesRef (hostOps1_7 : List (HloOp τ sig (Elt F))) wlist1_7 := by
  unfold wlist1_7; repeat' constructor
theorem hostOps1_8_wr : List.Forall₂ WritesRef (hostOps1_8 : List (HloOp τ sig (Elt F))) wlist1_8 := by
  unfold wlist1_8; repeat' constructor
theorem hostOps1_9_wr : List.Forall₂ WritesRef (hostOps1_9 : List (HloOp τ sig (Elt F))) wlist1_9 := by
  unfold wlist1_9; repeat' constructor
theorem hostOps1_10_wr : List.Forall₂ WritesRef (hostOps1_10 : List (HloOp τ sig (Elt F))) wlist1_10 := by
  unfold wlist1_10; repeat' constructor
theorem hostOps1_11_wr : List.Forall₂ WritesRef (hostOps1_11 : List (HloOp τ sig (Elt F))) wlist1_11 := by
  unfold wlist1_11; repeat' constructor
theorem hostOps1_12_wr : List.Forall₂ WritesRef (hostOps1_12 : List (HloOp τ sig (Elt F))) wlist1_12 := by
  unfold wlist1_12; repeat' constructor
theorem hostOps1_13_wr : List.Forall₂ WritesRef (hostOps1_13 : List (HloOp τ sig (Elt F))) wlist1_13 := by
  unfold wlist1_13; repeat' constructor
theorem hostOps1_14_wr : List.Forall₂ WritesRef (hostOps1_14 : List (HloOp τ sig (Elt F))) wlist1_14 := by
  unfold wlist1_14; repeat' constructor
theorem hostOps1_15_wr : List.Forall₂ WritesRef (hostOps1_15 : List (HloOp τ sig (Elt F))) wlist1_15 := by
  unfold wlist1_15; repeat' constructor
theorem hostOps1_16_wr : List.Forall₂ WritesRef (hostOps1_16 : List (HloOp τ sig (Elt F))) wlist1_16 := by
  unfold wlist1_16; repeat' constructor

/-- The lines after the region, stretch against stretch. -/
theorem tail_wr : List.Forall₂ (List.Forall₂ WritesRef) (tailOps : List (List (HloOp τ sig (Elt F)))) wtails := by
  unfold wtails
  exact .cons hostOps1_wr (.cons hostOps1_1_wr (.cons hostOps1_2_wr (.cons hostOps1_3_wr (.cons hostOps1_4_wr (.cons hostOps1_5_wr (.cons hostOps1_6_wr (.cons hostOps1_7_wr (.cons hostOps1_8_wr (.cons hostOps1_9_wr (.cons hostOps1_10_wr (.cons hostOps1_11_wr (.cons hostOps1_12_wr (.cons hostOps1_13_wr (.cons hostOps1_14_wr (.cons hostOps1_15_wr (.cons hostOps1_16_wr (.nil)))))))))))))))))

/-- Every operation after the region writes within the tail's list. -/
theorem tail_writes : ∀ ops ∈ (tailOps : List (List (HloOp τ sig (Elt F)))), ∀ op ∈ ops,
    op.writes ⊆ (wtails.flatten.map (Proc.devRef (τ := τ) .tc)).toFinset :=
  fun ops hops op hop => writes_sub_of_forall₂ (List.rel_flatten tail_wr) op (List.mem_flatten.mpr ⟨ops, hops, hop⟩)

/-! ## What no line writes -/

/-- No line after the region has an array of the pipeline as its result. -/
theorem arr_not_written : ∀ w, Pipeline.arrRef spec0 w ∉ wtails.flatten := by decide

/-- A reference no line before the region writes is found by the region as launched. -/
theorem V_of (c : Dev nD) (r : Ref sig .tc) (hr : r ∉ wlist0) : V m c r = m ((c : Thread nD τ).loc r) :=
  StableHlo.after_of_writes_sub (r := r) _ _ (forall_writes_of_forall₂ hostOps0_wr) hr

/-- A reference that is no array of the pipeline and that no line writes ends as launched. -/
theorem W_of (dats' : (p : Fin 1) → (c : Dev nD) → Dat τ (Elt F) Unit ℕ (UR sig nD τ) ℕ (cfgs p) c) (c : Dev nD)
    (r : Ref sig .tc) (hr : r ∉ wtails.flatten) (ha : ∀ w, Pipeline.arrRef spec0 w ≠ r)
    (hV : V m c r = m ((c : Thread nD τ).loc r)) :
    Pipeline.afterTail₀ cfgs dats' 0 (V0 m) tailOps c r = m ((c : Thread nD τ).loc r) := by
  unfold Pipeline.afterTail₀
  rw [StableHlo.after_of_writes_sub (r := r) _ _
      (List.forall_iff_forall_mem.mpr (writes_sub_of_forall₂ (List.rel_flatten tail_wr))) hr,
    Pipeline.withArrays_of_ne _ c (V0 m c) _ r ha]
  exact hV

/-! ## The arguments -/

theorem V_main_arg0 (c : Dev nD) : V m c main_arg0 = m ((c : Thread nD τ).loc main_arg0) := V_of m c main_arg0 (by decide)
theorem V_main_arg1 (c : Dev nD) : V m c main_arg1 = m ((c : Thread nD τ).loc main_arg1) := V_of m c main_arg1 (by decide)
theorem V_main_arg2 (c : Dev nD) : V m c main_arg2 = m ((c : Thread nD τ).loc main_arg2) := V_of m c main_arg2 (by decide)
theorem V_main_arg3 (c : Dev nD) : V m c main_arg3 = m ((c : Thread nD τ).loc main_arg3) := V_of m c main_arg3 (by decide)
theorem V_main_arg4 (c : Dev nD) : V m c main_arg4 = m ((c : Thread nD τ).loc main_arg4) := V_of m c main_arg4 (by decide)
theorem V_main_arg5 (c : Dev nD) : V m c main_arg5 = m ((c : Thread nD τ).loc main_arg5) := V_of m c main_arg5 (by decide)
theorem V_main_arg6 (c : Dev nD) : V m c main_arg6 = m ((c : Thread nD τ).loc main_arg6) := V_of m c main_arg6 (by decide)
theorem V_main_arg7 (c : Dev nD) : V m c main_arg7 = m ((c : Thread nD τ).loc main_arg7) := V_of m c main_arg7 (by decide)
theorem V_main_arg8 (c : Dev nD) : V m c main_arg8 = m ((c : Thread nD τ).loc main_arg8) := V_of m c main_arg8 (by decide)
theorem V_main_arg9 (c : Dev nD) : V m c main_arg9 = m ((c : Thread nD τ).loc main_arg9) := V_of m c main_arg9 (by decide)
theorem V_main_arg10 (c : Dev nD) : V m c main_arg10 = m ((c : Thread nD τ).loc main_arg10) := V_of m c main_arg10 (by decide)
theorem V_main_arg11 (c : Dev nD) : V m c main_arg11 = m ((c : Thread nD τ).loc main_arg11) := V_of m c main_arg11 (by decide)
theorem V_main_arg12 (c : Dev nD) : V m c main_arg12 = m ((c : Thread nD τ).loc main_arg12) := V_of m c main_arg12 (by decide)
theorem V_main_arg13 (c : Dev nD) : V m c main_arg13 = m ((c : Thread nD τ).loc main_arg13) := V_of m c main_arg13 (by decide)
theorem V_main_arg14 (c : Dev nD) : V m c main_arg14 = m ((c : Thread nD τ).loc main_arg14) := V_of m c main_arg14 (by decide)
theorem V_main_arg15 (c : Dev nD) : V m c main_arg15 = m ((c : Thread nD τ).loc main_arg15) := V_of m c main_arg15 (by decide)
theorem V_main_arg16 (c : Dev nD) : V m c main_arg16 = m ((c : Thread nD τ).loc main_arg16) := V_of m c main_arg16 (by decide)
theorem V_main_arg17 (c : Dev nD) : V m c main_arg17 = m ((c : Thread nD τ).loc main_arg17) := V_of m c main_arg17 (by decide)
theorem V_main_arg18 (c : Dev nD) : V m c main_arg18 = m ((c : Thread nD τ).loc main_arg18) := V_of m c main_arg18 (by decide)
theorem V_main_arg19 (c : Dev nD) : V m c main_arg19 = m ((c : Thread nD τ).loc main_arg19) := V_of m c main_arg19 (by decide)
theorem V_main_arg20 (c : Dev nD) : V m c main_arg20 = m ((c : Thread nD τ).loc main_arg20) := V_of m c main_arg20 (by decide)
theorem V_main_arg21 (c : Dev nD) : V m c main_arg21 = m ((c : Thread nD τ).loc main_arg21) := V_of m c main_arg21 (by decide)
theorem V_main_arg22 (c : Dev nD) : V m c main_arg22 = m ((c : Thread nD τ).loc main_arg22) := V_of m c main_arg22 (by decide)
theorem V_main_arg23 (c : Dev nD) : V m c main_arg23 = m ((c : Thread nD τ).loc main_arg23) := V_of m c main_arg23 (by decide)
theorem V_main_arg24 (c : Dev nD) : V m c main_arg24 = m ((c : Thread nD τ).loc main_arg24) := V_of m c main_arg24 (by decide)

theorem W_main_arg1 (dats' : (p : Fin 1) → (c : Dev nD) → Dat τ (Elt F) Unit ℕ (UR sig nD τ) ℕ (cfgs p) c) (c : Dev nD) :
    Pipeline.afterTail₀ cfgs dats' 0 (V0 m) tailOps c main_arg1 = m ((c : Thread nD τ).loc main_arg1) :=
  W_of m dats' c main_arg1 (by decide) (by decide) (V_main_arg1 m c)
theorem W_main_arg2 (dats' : (p : Fin 1) → (c : Dev nD) → Dat τ (Elt F) Unit ℕ (UR sig nD τ) ℕ (cfgs p) c) (c : Dev nD) :
    Pipeline.afterTail₀ cfgs dats' 0 (V0 m) tailOps c main_arg2 = m ((c : Thread nD τ).loc main_arg2) :=
  W_of m dats' c main_arg2 (by decide) (by decide) (V_main_arg2 m c)
theorem W_main_arg3 (dats' : (p : Fin 1) → (c : Dev nD) → Dat τ (Elt F) Unit ℕ (UR sig nD τ) ℕ (cfgs p) c) (c : Dev nD) :
    Pipeline.afterTail₀ cfgs dats' 0 (V0 m) tailOps c main_arg3 = m ((c : Thread nD τ).loc main_arg3) :=
  W_of m dats' c main_arg3 (by decide) (by decide) (V_main_arg3 m c)
theorem W_main_arg5 (dats' : (p : Fin 1) → (c : Dev nD) → Dat τ (Elt F) Unit ℕ (UR sig nD τ) ℕ (cfgs p) c) (c : Dev nD) :
    Pipeline.afterTail₀ cfgs dats' 0 (V0 m) tailOps c main_arg5 = m ((c : Thread nD τ).loc main_arg5) :=
  W_of m dats' c main_arg5 (by decide) (by decide) (V_main_arg5 m c)
theorem W_main_arg6 (dats' : (p : Fin 1) → (c : Dev nD) → Dat τ (Elt F) Unit ℕ (UR sig nD τ) ℕ (cfgs p) c) (c : Dev nD) :
    Pipeline.afterTail₀ cfgs dats' 0 (V0 m) tailOps c main_arg6 = m ((c : Thread nD τ).loc main_arg6) :=
  W_of m dats' c main_arg6 (by decide) (by decide) (V_main_arg6 m c)
theorem W_main_arg7 (dats' : (p : Fin 1) → (c : Dev nD) → Dat τ (Elt F) Unit ℕ (UR sig nD τ) ℕ (cfgs p) c) (c : Dev nD) :
    Pipeline.afterTail₀ cfgs dats' 0 (V0 m) tailOps c main_arg7 = m ((c : Thread nD τ).loc main_arg7) :=
  W_of m dats' c main_arg7 (by decide) (by decide) (V_main_arg7 m c)
theorem W_main_arg8 (dats' : (p : Fin 1) → (c : Dev nD) → Dat τ (Elt F) Unit ℕ (UR sig nD τ) ℕ (cfgs p) c) (c : Dev nD) :
    Pipeline.afterTail₀ cfgs dats' 0 (V0 m) tailOps c main_arg8 = m ((c : Thread nD τ).loc main_arg8) :=
  W_of m dats' c main_arg8 (by decide) (by decide) (V_main_arg8 m c)
theorem W_main_arg9 (dats' : (p : Fin 1) → (c : Dev nD) → Dat τ (Elt F) Unit ℕ (UR sig nD τ) ℕ (cfgs p) c) (c : Dev nD) :
    Pipeline.afterTail₀ cfgs dats' 0 (V0 m) tailOps c main_arg9 = m ((c : Thread nD τ).loc main_arg9) :=
  W_of m dats' c main_arg9 (by decide) (by decide) (V_main_arg9 m c)
theorem W_main_arg10 (dats' : (p : Fin 1) → (c : Dev nD) → Dat τ (Elt F) Unit ℕ (UR sig nD τ) ℕ (cfgs p) c) (c : Dev nD) :
    Pipeline.afterTail₀ cfgs dats' 0 (V0 m) tailOps c main_arg10 = m ((c : Thread nD τ).loc main_arg10) :=
  W_of m dats' c main_arg10 (by decide) (by decide) (V_main_arg10 m c)
theorem W_main_arg11 (dats' : (p : Fin 1) → (c : Dev nD) → Dat τ (Elt F) Unit ℕ (UR sig nD τ) ℕ (cfgs p) c) (c : Dev nD) :
    Pipeline.afterTail₀ cfgs dats' 0 (V0 m) tailOps c main_arg11 = m ((c : Thread nD τ).loc main_arg11) :=
  W_of m dats' c main_arg11 (by decide) (by decide) (V_main_arg11 m c)
theorem W_main_arg12 (dats' : (p : Fin 1) → (c : Dev nD) → Dat τ (Elt F) Unit ℕ (UR sig nD τ) ℕ (cfgs p) c) (c : Dev nD) :
    Pipeline.afterTail₀ cfgs dats' 0 (V0 m) tailOps c main_arg12 = m ((c : Thread nD τ).loc main_arg12) :=
  W_of m dats' c main_arg12 (by decide) (by decide) (V_main_arg12 m c)
theorem W_main_arg13 (dats' : (p : Fin 1) → (c : Dev nD) → Dat τ (Elt F) Unit ℕ (UR sig nD τ) ℕ (cfgs p) c) (c : Dev nD) :
    Pipeline.afterTail₀ cfgs dats' 0 (V0 m) tailOps c main_arg13 = m ((c : Thread nD τ).loc main_arg13) :=
  W_of m dats' c main_arg13 (by decide) (by decide) (V_main_arg13 m c)
theorem W_main_arg14 (dats' : (p : Fin 1) → (c : Dev nD) → Dat τ (Elt F) Unit ℕ (UR sig nD τ) ℕ (cfgs p) c) (c : Dev nD) :
    Pipeline.afterTail₀ cfgs dats' 0 (V0 m) tailOps c main_arg14 = m ((c : Thread nD τ).loc main_arg14) :=
  W_of m dats' c main_arg14 (by decide) (by decide) (V_main_arg14 m c)
theorem W_main_arg15 (dats' : (p : Fin 1) → (c : Dev nD) → Dat τ (Elt F) Unit ℕ (UR sig nD τ) ℕ (cfgs p) c) (c : Dev nD) :
    Pipeline.afterTail₀ cfgs dats' 0 (V0 m) tailOps c main_arg15 = m ((c : Thread nD τ).loc main_arg15) :=
  W_of m dats' c main_arg15 (by decide) (by decide) (V_main_arg15 m c)
theorem W_main_arg16 (dats' : (p : Fin 1) → (c : Dev nD) → Dat τ (Elt F) Unit ℕ (UR sig nD τ) ℕ (cfgs p) c) (c : Dev nD) :
    Pipeline.afterTail₀ cfgs dats' 0 (V0 m) tailOps c main_arg16 = m ((c : Thread nD τ).loc main_arg16) :=
  W_of m dats' c main_arg16 (by decide) (by decide) (V_main_arg16 m c)
theorem W_main_arg17 (dats' : (p : Fin 1) → (c : Dev nD) → Dat τ (Elt F) Unit ℕ (UR sig nD τ) ℕ (cfgs p) c) (c : Dev nD) :
    Pipeline.afterTail₀ cfgs dats' 0 (V0 m) tailOps c main_arg17 = m ((c : Thread nD τ).loc main_arg17) :=
  W_of m dats' c main_arg17 (by decide) (by decide) (V_main_arg17 m c)
theorem W_main_arg18 (dats' : (p : Fin 1) → (c : Dev nD) → Dat τ (Elt F) Unit ℕ (UR sig nD τ) ℕ (cfgs p) c) (c : Dev nD) :
    Pipeline.afterTail₀ cfgs dats' 0 (V0 m) tailOps c main_arg18 = m ((c : Thread nD τ).loc main_arg18) :=
  W_of m dats' c main_arg18 (by decide) (by decide) (V_main_arg18 m c)
theorem W_main_arg19 (dats' : (p : Fin 1) → (c : Dev nD) → Dat τ (Elt F) Unit ℕ (UR sig nD τ) ℕ (cfgs p) c) (c : Dev nD) :
    Pipeline.afterTail₀ cfgs dats' 0 (V0 m) tailOps c main_arg19 = m ((c : Thread nD τ).loc main_arg19) :=
  W_of m dats' c main_arg19 (by decide) (by decide) (V_main_arg19 m c)
theorem W_main_arg20 (dats' : (p : Fin 1) → (c : Dev nD) → Dat τ (Elt F) Unit ℕ (UR sig nD τ) ℕ (cfgs p) c) (c : Dev nD) :
    Pipeline.afterTail₀ cfgs dats' 0 (V0 m) tailOps c main_arg20 = m ((c : Thread nD τ).loc main_arg20) :=
  W_of m dats' c main_arg20 (by decide) (by decide) (V_main_arg20 m c)
theorem W_main_arg21 (dats' : (p : Fin 1) → (c : Dev nD) → Dat τ (Elt F) Unit ℕ (UR sig nD τ) ℕ (cfgs p) c) (c : Dev nD) :
    Pipeline.afterTail₀ cfgs dats' 0 (V0 m) tailOps c main_arg21 = m ((c : Thread nD τ).loc main_arg21) :=
  W_of m dats' c main_arg21 (by decide) (by decide) (V_main_arg21 m c)
theorem W_main_arg22 (dats' : (p : Fin 1) → (c : Dev nD) → Dat τ (Elt F) Unit ℕ (UR sig nD τ) ℕ (cfgs p) c) (c : Dev nD) :
    Pipeline.afterTail₀ cfgs dats' 0 (V0 m) tailOps c main_arg22 = m ((c : Thread nD τ).loc main_arg22) :=
  W_of m dats' c main_arg22 (by decide) (by decide) (V_main_arg22 m c)
theorem W_main_arg23 (dats' : (p : Fin 1) → (c : Dev nD) → Dat τ (Elt F) Unit ℕ (UR sig nD τ) ℕ (cfgs p) c) (c : Dev nD) :
    Pipeline.afterTail₀ cfgs dats' 0 (V0 m) tailOps c main_arg23 = m ((c : Thread nD τ).loc main_arg23) :=
  W_of m dats' c main_arg23 (by decide) (by decide) (V_main_arg23 m c)
theorem W_main_arg24 (dats' : (p : Fin 1) → (c : Dev nD) → Dat τ (Elt F) Unit ℕ (UR sig nD τ) ℕ (cfgs p) c) (c : Dev nD) :
    Pipeline.afterTail₀ cfgs dats' 0 (V0 m) tailOps c main_arg24 = m ((c : Thread nD τ).loc main_arg24) :=
  W_of m dats' c main_arg24 (by decide) (by decide) (V_main_arg24 m c)

end Cert.KernelIdeal.Hand

end
-- ==== Proof.KIFrame.lean ====
/-
  The frame of the program: it runs, and its 25 argument arrays end as launched. The program is five host lines, one
  pipelined region over ten row blocks, and seventeen stretches of host lines. The lines before the region touch
  TensorCore references only and allocate nothing, so the region is entered at their contents; the region's body meets
  the pipeline's obligation at every point (the inputs' staging buffers hold their blocks whether or not they were
  fetched there, the body's triple does the rest); the lines after the region touch unscoped references only, allocate
  nothing and write no array of the pipeline. So the run ends with every array at what the pipeline computes and every
  other buffer as the later lines leave it; an argument that is an input array ends as it started, and no line writes
  any argument.
-/
import proofs.«121394_g42563125903665_cont_8to1_b_1637_2_alg».proof.Proof.KIBody
import proofs.«121394_g42563125903665_cont_8to1_b_1637_2_alg».proof.Proof.KIWrites

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
set_option maxHeartbeats 4000000 in
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor
theorem hostOps1_13_fresh : (hostOps1_13 : List (HloOp τ sig (Elt F))).Forall fun op => op.fresh = ∅ := by
  simp only [List.Forall]; repeat' constructor
theorem hostOps1_14_fresh : (hostOps1_14 : List (HloOp τ sig (Elt F))).Forall fun op => op.fresh = ∅ := by
  simp only [List.Forall]; repeat' constructor
theorem hostOps1_15_fresh : (hostOps1_15 : List (HloOp τ sig (Elt F))).Forall fun op => op.fresh = ∅ := by
  simp only [List.Forall]; repeat' constructor
theorem hostOps1_16_fresh : (hostOps1_16 : List (HloOp τ sig (Elt F))).Forall fun op => op.fresh = ∅ := by
  simp only [List.Forall]; repeat' constructor

/-- The program is the lines before the region, the region, and the later stretches: it reduces to the region
    continued by the later lines, entered at the contents the first lines leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the bypassing buffers only: their buffers are unscoped TensorCore
    references, and with nothing prefetched every such reference is one or the other. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)
  · exact Pipeline.sub_ucRefs op ((List.forall_iff_forall_mem.mp hostOps1_13_sub) op hop)
  · exact Pipeline.sub_ucRefs op ((List.forall_iff_forall_mem.mp hostOps1_14_sub) op hop)
  · exact Pipeline.sub_ucRefs op ((List.forall_iff_forall_mem.mp hostOps1_15_sub) op hop)
  · exact Pipeline.sub_ucRefs op ((List.forall_iff_forall_mem.mp hostOps1_16_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop
  · exact (List.forall_iff_forall_mem.mp hostOps1_13_fresh) op hop
  · exact (List.forall_iff_forall_mem.mp hostOps1_14_fresh) op hop
  · exact (List.forall_iff_forall_mem.mp hostOps1_15_fresh) op hop
  · exact (List.forall_iff_forall_mem.mp hostOps1_16_fresh) op hop

/-- And they write no array of the pipeline: each writes its own result, and no result is an array. -/
theorem sfx_keeps : ∀ ops ∈ (tailOps : List (List (HloOp τ sig (Elt F)))), ∀ op ∈ ops,
    ∀ w, Proc.devRef .tc (Pipeline.arrRef spec0 w) ∉ op.writes :=
  fun ops hops op hop w => not_mem_writes_of_sub (tail_writes ops hops op hop) (arr_not_written w)

/-! ## The input windows' blocks -/

/-- Input window 0's current staging buffer holds its block at every point, fetched there or not (unfetched, the
    block index has not moved), for any proof data whose array is the region-entry contents and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d

/-- Input window 1's current staging buffer holds its block at every point, fetched there or not (unfetched, the
    block index has not moved), for any proof data whose array is the region-entry contents and whose body leaves
    the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_1 (c : Dev nD) (t : Fin cfg0.N) (d) : (dats m 0 c).before 1 t d = iblk m c 1 t :=
  before0_1_of m (dats m 0 c) (A_eq m c 1) (after0_1 m c) t d

/-- Input window 2's current staging buffer holds its block at every point, fetched there or not (unfetched, the
    block index has not moved), for any proof data whose array is the region-entry contents and whose body leaves
    the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters, every weakly fair execution of the program on the TensorCores terminates, and
    every final state has every array of the pipeline at what the pipeline computes from the proof data and every
    other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The arguments in a final state that meets the frame run's post, for any proof data whose arrays are the
    region-entry contents: an argument that is an input array of the pipeline ends as the region found it, which is
    as launched; every other argument bypasses the region and is written by no later line. -/
theorem args_of_post (dats' : (p : Fin 1) → (c : Dev nD) → Dat τ (Elt F) Unit ℕ (UR sig nD τ) ℕ (cfgs p) c)
    (hA : ∀ c w, (dats' 0 c).A w = V m c (Pipeline.arrRef spec0 w)) (r : PUnit × MemSt nD τ sig (Elt F))
    (h : Pipeline.FramePost cfgs dats' 0 (Pipeline.afterTail₀ cfgs dats' 0 (V0 m) tailOps) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  ⟨((h c).1 0).trans (((dats' 0 c).arrAt_in 0 rfl _).trans ((hA c 0).trans (V_main_arg0 m c))),
   ((h c).2 main_arg1 (Pipeline.mem_restRefs_of main_arg1 (by decide) (by decide))).trans (W_main_arg1 m dats' c),
   ((h c).2 main_arg2 (Pipeline.mem_restRefs_of main_arg2 (by decide) (by decide))).trans (W_main_arg2 m dats' c),
   ((h c).2 main_arg3 (Pipeline.mem_restRefs_of main_arg3 (by decide) (by decide))).trans (W_main_arg3 m dats' c),
   ((h c).1 1).trans (((dats' 0 c).arrAt_in 1 rfl _).trans ((hA c 1).trans (V_main_arg4 m c))),
   ((h c).2 main_arg5 (Pipeline.mem_restRefs_of main_arg5 (by decide) (by decide))).trans (W_main_arg5 m dats' c),
   ((h c).2 main_arg6 (Pipeline.mem_restRefs_of main_arg6 (by decide) (by decide))).trans (W_main_arg6 m dats' c),
   ((h c).2 main_arg7 (Pipeline.mem_restRefs_of main_arg7 (by decide) (by decide))).trans (W_main_arg7 m dats' c),
   ((h c).2 main_arg8 (Pipeline.mem_restRefs_of main_arg8 (by decide) (by decide))).trans (W_main_arg8 m dats' c),
   ((h c).2 main_arg9 (Pipeline.mem_restRefs_of main_arg9 (by decide) (by decide))).trans (W_main_arg9 m dats' c),
   ((h c).2 main_arg10 (Pipeline.mem_restRefs_of main_arg10 (by decide) (by decide))).trans (W_main_arg10 m dats' c),
   ((h c).2 main_arg11 (Pipeline.mem_restRefs_of main_arg11 (by decide) (by decide))).trans (W_main_arg11 m dats' c),
   ((h c).2 main_arg12 (Pipeline.mem_restRefs_of main_arg12 (by decide) (by decide))).trans (W_main_arg12 m dats' c),
   ((h c).2 main_arg13 (Pipeline.mem_restRefs_of main_arg13 (by decide) (by decide))).trans (W_main_arg13 m dats' c),
   ((h c).2 main_arg14 (Pipeline.mem_restRefs_of main_arg14 (by decide) (by decide))).trans (W_main_arg14 m dats' c),
   ((h c).2 main_arg15 (Pipeline.mem_restRefs_of main_arg15 (by decide) (by decide))).trans (W_main_arg15 m dats' c),
   ((h c).2 main_arg16 (Pipeline.mem_restRefs_of main_arg16 (by decide) (by decide))).trans (W_main_arg16 m dats' c),
   ((h c).2 main_arg17 (Pipeline.mem_restRefs_of main_arg17 (by decide) (by decide))).trans (W_main_arg17 m dats' c),
   ((h c).2 main_arg18 (Pipeline.mem_restRefs_of main_arg18 (by decide) (by decide))).trans (W_main_arg18 m dats' c),
   ((h c).2 main_arg19 (Pipeline.mem_restRefs_of main_arg19 (by decide) (by decide))).trans (W_main_arg19 m dats' c),
   ((h c).2 main_arg20 (Pipeline.mem_restRefs_of main_arg20 (by decide) (by decide))).trans (W_main_arg20 m dats' c),
   ((h c).2 main_arg21 (Pipeline.mem_restRefs_of main_arg21 (by decide) (by decide))).trans (W_main_arg21 m dats' c),
   ((h c).2 main_arg22 (Pipeline.mem_restRefs_of main_arg22 (by decide) (by decide))).trans (W_main_arg22 m dats' c),
   ((h c).2 main_arg23 (Pipeline.mem_restRefs_of main_arg23 (by decide) (by decide))).trans (W_main_arg23 m dats' c),
   ((h c).2 main_arg24 (Pipeline.mem_restRefs_of main_arg24 (by decide) (by decide))).trans (W_main_arg24 m dats' c)⟩

/-- The result buffer in such a final state: it bypasses the region, so it holds what the later lines leave in it. -/
theorem result_of_post (dats' : (p : Fin 1) → (c : Dev nD) → Dat τ (Elt F) Unit ℕ (UR sig nD τ) ℕ (cfgs p) c)
    (hA : ∀ c w, (dats' 0 c).A w = V m c (Pipeline.arrRef spec0 w)) (r : PUnit × MemSt nD τ sig (Elt F))
    (h : Pipeline.FramePost cfgs dats' 0 (Pipeline.afterTail₀ cfgs dats' 0 (V0 m) tailOps) r) (c : Dev nD) :
    r.2.mem ((c.tc : Thread nD τ).loc main_v308) = Pipeline.afterTail₀ cfgs dats' 0 (V0 m) tailOps c main_v308 :=
  (h c).2 main_v308 (Pipeline.mem_restRefs_of main_v308 (by decide) (by decide))

/-- The frame from a frame run: the post read at the arguments in every final state. -/
theorem frame_of (dats' : (p : Fin 1) → (c : Dev nD) → Dat τ (Elt F) Unit ℕ (UR sig nD τ) ℕ (cfgs p) c)
    (hA : ∀ c w, (dats' 0 c).A w = V m c (Pipeline.arrRef spec0 w))
    (h : θ_run defs (onTc (τ := τ) (main (F := F))) (s₀ m ρ) (Pipeline.FramePost cfgs dats' 0 (Pipeline.afterTail₀ cfgs dats' 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun r h c => args_of_post m dats' hA r h c) h

/-- The frame: the program runs and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  frame_of m ρ (dats m) (A_eq m) (run_main m ρ)

end Cert.KernelIdeal.Hand

end
-- ==== Proof.RefRun.lean ====
import proofs.«121394_g42563125903665_cont_8to1_b_1637_2_alg».proof.Proof.RefLaunch
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-! # The reference program: its run and its frame

The reference's @main is a straight line of 469 tensor operations, seventeen stretches one after the other (a called
function's operations are a stretch of their own, over that call's buffers). Run one after the other, the stretches
are their concatenation run as one line, so every weakly fair execution terminates with each TensorCore buffer at
the fold of the operations' results over what the launch put there. Every operation writes exactly one reference, its
result, and no argument of @main is the result of any: each argument ends as launched. -/

/-- The reference's @main, stretch by stretch: the operations of @main proper and, at each call, the called
    function's operations over that call's buffers. -/
abbrev opss : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

section General

variable {nD' : Nat} {τ' : Topo} {sig' : RefSig} {Val : EltTy → Type} {Λ : Labels}

/-- Straight lines run one after the other are their concatenation run as one line. -/
theorem chain_map_seq (l : List (List (HloOp τ' sig' Val))) :
    Pipeline.chain (l.map fun ops => (StableHlo.seq ops : Prog (TpuEff nD' τ' sig' Val Λ .tc) PUnit)) = StableHlo.seq l.flatten := by
  induction l with
  | nil => rfl
  | cons a l ih => rw [List.map_cons, Pipeline.chain_cons, ih, List.flatten_cons, StableHlo.seq_append]

/-- A property of every operation of every stretch holds of every operation of the concatenation. -/
theorem forall_flatten {α : Type} {p : α → Prop} {l : List (List α)} (h : l.Forall fun ops => ops.Forall p) :
    l.flatten.Forall p :=
  List.forall_iff_forall_mem.mpr fun a ha => by
    obtain ⟨ops, hops, h'⟩ := List.mem_flatten.mp ha
    exact List.forall_iff_forall_mem.mp (List.forall_iff_forall_mem.mp h ops hops) a h'

end General

theorem main_eq (c : Dev nD) : main (F := F) c = StableHlo.seq (opss (F := F)).flatten := by
  rw [main_chain, ← chain_map_seq]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opss_sub : (opss (F := F)).flatten.Forall fun op => op.bufs ⊆ StableHlo.tcRefs τ sig :=
  forall_flatten ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩

/-- No operation leaves a result undetermined: each stretch's operations, one by one. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps0_2_fresh : (hostOps0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl⟩
theorem hostOps0_5_fresh : (hostOps0_5 : List (HloOp τ sig (Elt F))).Forall fun op => op.fresh = ∅ :=
  ⟨rfl, rfl, rfl⟩
theorem hostOps0_6_fresh : (hostOps0_6 : List (HloOp τ sig (Elt F))).Forall fun op => op.fresh = ∅ :=
  ⟨rfl, rfl, rfl⟩
theorem hostOps0_7_fresh : (hostOps0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps0_9_fresh : (hostOps0_9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩
theorem hostOps0_10_fresh : (hostOps0_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem hostOps0_11_fresh : (hostOps0_11 : List (HloOp τ sig (Elt F))).Forall fun op => op.fresh = ∅ :=
  ⟨rfl, rfl, rfl, rfl, rfl, rfl, rfl, rfl, rfl, rfl, rfl, rfl, rfl, rfl, rfl, rfl⟩
theorem hostOps0_12_fresh : (hostOps0_12 : List (HloOp τ sig (Elt F))).Forall fun op => op.fresh = ∅ :=
  ⟨rfl, rfl, rfl⟩
theorem hostOps0_13_fresh : (hostOps0_13 : List (HloOp τ sig (Elt F))).Forall fun op => op.fresh = ∅ :=
  ⟨rfl, rfl, rfl⟩
theorem hostOps0_14_fresh : (hostOps0_14 : List (HloOp τ sig (Elt F))).Forall fun op => op.fresh = ∅ :=
  ⟨rfl, rfl, rfl, rfl, rfl⟩
theorem hostOps0_15_fresh : (hostOps0_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem hostOps0_16_fresh : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem opss_fresh : ∀ op ∈ (opss (F := F)).flatten, op.fresh = ∅ :=
  List.forall_iff_forall_mem.mp (forall_flatten ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩)

/-- On every device, for any float values, from any memory with zero counters: every weakly fair execution of @main
    terminates with each TensorCore buffer at the fold of the operations' results over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = StableHlo.after (opss (F := F)).flatten (StableHlo.launchContents m d) (Proc.devRef .tc b) :=
  StableHlo.run_seq scopedRefs_eq scopedSems_eq defs main (fun _ => (opss (F := F)).flatten) main_eq (fun _ => opss_sub) m ρ (fun _ => opss_fresh)

section General

variable {τ' : Topo} {sig' : RefSig} {Val : EltTy → Type}

/-- Operations each writing exactly the reference paired with it, all among the references `Ws`, write within `Ws`. -/
theorem writes_sub_of_forall₂ {ops : List (HloOp τ' sig' Val)} {W Ws : List (Ref sig' .tc)}
    (h : List.Forall₂ (fun op y => op.writes = {Proc.devRef .tc y}) ops W) (hsub : ∀ y ∈ W, y ∈ Ws) :
    ops.Forall fun op => op.writes ⊆ (Ws.map (Proc.devRef (τ := τ') .tc)).toFinset := by
  apply List.forall_iff_forall_mem.mpr
  induction h with
  | nil => intro op hop; exact absurd hop List.not_mem_nil
  | @cons op y ops W hab _ ih =>
    intro o ho
    rcases List.mem_cons.mp ho with rfl | ho
    · rw [hab, Finset.singleton_subset_iff, List.mem_toFinset]
      exact List.mem_map_of_mem (hsub y List.mem_cons_self)
    · exact ih (fun z hz => hsub z (List.mem_cons_of_mem _ hz)) o ho

end General

/-! ## What the operations write

Each operation writes one reference, its result; stretch by stretch, the results in order. No argument of @main is
among them, so every argument ends as launched. -/

abbrev hostOps0_results : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39, main_v40, main_v41, main_v42, main_v43, main_v44, main_v45, main_v46, main_v47, main_v48, main_v49, main_v50, main_v51, main_c, main_v52, main_v53, main_c_0, main_v54, main_v55, main_v56, main_v57, main_v58, main_c_1, main_v59, main_v60, main_c_2, main_v61, main_v62, main_v63, main_v64, main_v65, main_v66, main_v67, main_v68, main_v69, main_cst, main_v70, main_v71, main_cst_3, main_v72, main_v73, main_c_4, main_v74, main_v75, main_c_5, main_v76, main_v77, main_v78, main_v79, main_v80, main_v81, main_cst_6, main_v82, main_v83, main_v84, main_cst_7, main_v85, main_v86, main_v87, main_cst_8, main_v88, main_v89, main_v90, main_v91, main_v92, main_v93, main_v94, main_v95, main_v96, main_v97, main_v98, main_v99, main_cst_9, main_v100, main_cst_10, main_v101, main_v102, main_c_11]
theorem hostOps0_writes : List.Forall₂ (fun (op : HloOp τ sig (Elt F)) y => op.writes = {Proc.devRef .tc y}) hostOps0 hostOps0_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))
abbrev hostOps0_1_results : List (Ref sig .tc) :=
  [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v103]
theorem hostOps0_1_writes : List.Forall₂ (fun (op : HloOp τ sig (Elt F)) y => op.writes = {Proc.devRef .tc y}) hostOps0_1 hostOps0_1_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
abbrev hostOps0_2_results : List (Ref sig .tc) :=
  [main_v104, main_v105, main_v106, main_cst_12, main_v107, main_v108, main_v109, main_v110, main_v111, main_v112, main_v113, main_v114, main_v115, main_v116, main_v117, main_v118, main_v119, main_v120, main_v121, main_v122, main_cst_13, main_v123, main_cst_14, main_v124, main_v125, main_c_15]
theorem hostOps0_2_writes : List.Forall₂ (fun (op : HloOp τ sig (Elt F)) y => op.writes = {Proc.devRef .tc y}) hostOps0_2 hostOps0_2_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))
abbrev hostOps0_3_results : List (Ref sig .tc) :=
  [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v126]
theorem hostOps0_3_writes : List.Forall₂ (fun (op : HloOp τ sig (Elt F)) y => op.writes = {Proc.devRef .tc y}) hostOps0_3 hostOps0_3_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
abbrev hostOps0_4_results : List (Ref sig .tc) :=
  [main_v127, main_v128, main_v129, main_cst_16, main_v130, main_v131, main_v132, main_v133, main_v134, main_v135, main_v136, main_v137, main_v138, main_v139, main_v140, main_v141]
theorem hostOps0_4_writes : List.Forall₂ (fun (op : HloOp τ sig (Elt F)) y => op.writes = {Proc.devRef .tc y}) hostOps0_4 hostOps0_4_results :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
abbrev hostOps0_5_results : List (Ref sig .tc) :=
  [main_call2_cst, main_call2_v0, main_v142]
theorem hostOps0_5_writes : List.Forall₂ (fun (op : HloOp τ sig (Elt F)) y => op.writes = {Proc.devRef .tc y}) hostOps0_5 hostOps0_5_results :=
  .cons rfl (.cons rfl (.cons rfl (.nil)))
abbrev hostOps0_6_results : List (Ref sig .tc) :=
  [main_call3_cst, main_call3_v0, main_v143]
theorem hostOps0_6_writes : List.Forall₂ (fun (op : HloOp τ sig (Elt F)) y => op.writes = {Proc.devRef .tc y}) hostOps0_6 hostOps0_6_results :=
  .cons rfl (.cons rfl (.cons rfl (.nil)))
abbrev hostOps0_7_results : List (Ref sig .tc) :=
  [main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_c_17, main_v186, main_v187, main_c_18, main_v188, main_v189, main_v190, main_v191, main_v192, main_c_19, main_v193, main_v194, main_c_20, main_v195, main_v196, main_v197, main_v198, main_v199, main_v200, main_v201, main_v202, main_v203, main_cst_21, main_v204, main_v205, main_cst_22, main_v206, main_v207, main_c_23, main_v208, main_v209, main_c_24, main_v210, main_v211, main_v212, main_v213, main_v214, main_v215, main_cst_25, main_v216, main_v217, main_v218, main_cst_26, main_v219, main_v220, main_v221, main_cst_27, main_v222, main_v223, main_v224, main_v225, main_v226, main_v227, main_v228, main_v229, main_v230, main_v231, main_v232, main_v233, main_cst_28, main_v234, main_cst_29, main_v235, main_v236, main_c_30]
theorem hostOps0_7_writes : List.Forall₂ (fun (op : HloOp τ sig (Elt F)) y => op.writes = {Proc.devRef .tc y}) hostOps0_7 hostOps0_7_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))
abbrev hostOps0_8_results : List (Ref sig .tc) :=
  [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v237]
theorem hostOps0_8_writes : List.Forall₂ (fun (op : HloOp τ sig (Elt F)) y => op.writes = {Proc.devRef .tc y}) hostOps0_8 hostOps0_8_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
abbrev hostOps0_9_results : List (Ref sig .tc) :=
  [main_v238, main_v239, main_v240, main_cst_31, main_v241, main_v242, main_v243, main_v244, main_v245, main_v246, main_v247, main_v248, main_v249, main_v250, main_v251, main_v252, main_v253, main_v254, main_v255, main_v256, main_cst_32, main_v257, main_cst_33, main_v258, main_v259, main_c_34]
theorem hostOps0_9_writes : List.Forall₂ (fun (op : HloOp τ sig (Elt F)) y => op.writes = {Proc.devRef .tc y}) hostOps0_9 hostOps0_9_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))
abbrev hostOps0_10_results : List (Ref sig .tc) :=
  [main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v260]
theorem hostOps0_10_writes : List.Forall₂ (fun (op : HloOp τ sig (Elt F)) y => op.writes = {Proc.devRef .tc y}) hostOps0_10 hostOps0_10_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))
abbrev hostOps0_11_results : List (Ref sig .tc) :=
  [main_v261, main_v262, main_v263, main_cst_35, main_v264, main_v265, main_v266, main_v267, main_v268, main_v269, main_v270, main_v271, main_v272, main_v273, main_v274, main_v275]
theorem hostOps0_11_writes : List.Forall₂ (fun (op : HloOp τ sig (Elt F)) y => op.writes = {Proc.devRef .tc y}) hostOps0_11 hostOps0_11_results :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
abbrev hostOps0_12_results : List (Ref sig .tc) :=
  [main_call6_cst, main_call6_v0, main_v276]
theorem hostOps0_12_writes : List.Forall₂ (fun (op : HloOp τ sig (Elt F)) y => op.writes = {Proc.devRef .tc y}) hostOps0_12 hostOps0_12_results :=
  .cons rfl (.cons rfl (.cons rfl (.nil)))
abbrev hostOps0_13_results : List (Ref sig .tc) :=
  [main_call7_cst, main_call7_v0, main_v277]
theorem hostOps0_13_writes : List.Forall₂ (fun (op : HloOp τ sig (Elt F)) y => op.writes = {Proc.devRef .tc y}) hostOps0_13 hostOps0_13_results :=
  .cons rfl (.cons rfl (.cons rfl (.nil)))
abbrev hostOps0_14_results : List (Ref sig .tc) :=
  [main_v278, main_v279, main_v280, main_v281, main_c_36]
theorem hostOps0_14_writes : List.Forall₂ (fun (op : HloOp τ sig (Elt F)) y => op.writes = {Proc.devRef .tc y}) hostOps0_14 hostOps0_14_results :=
  .cons rfl (.cons rfl (.cons rfl (.cons rfl (.cons rfl (.nil)))))
abbrev hostOps0_15_results : List (Ref sig .tc) :=
  [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v282]
theorem hostOps0_15_writes : List.Forall₂ (fun (op : HloOp τ sig (Elt F)) y => op.writes = {Proc.devRef .tc y}) hostOps0_15 hostOps0_15_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))
abbrev hostOps0_16_results : List (Ref sig .tc) :=
  [main_v283, main_v284, main_c_37, main_v285, main_v286, main_c_38, main_v287, main_v288, main_v289, main_v290, main_v291, main_c_39, main_v292, main_v293, main_c_40, main_v294, main_v295, main_v296, main_v297, main_v298, main_v299, main_v300, main_c_41, main_v301, main_v302, main_c_42, main_v303, main_v304, main_v305, main_v306, main_v307, main_v308, main_v309, main_cst_43, main_v310]
theorem hostOps0_16_writes : List.Forall₂ (fun (op : HloOp τ sig (Elt F)) y => op.writes = {Proc.devRef .tc y}) hostOps0_16 hostOps0_16_results :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))

/-- The results stretch by stretch, and all of them. -/
abbrev resultss : List (List (Ref sig .tc)) := [hostOps0_results, hostOps0_1_results, hostOps0_2_results, hostOps0_3_results, hostOps0_4_results, hostOps0_5_results, hostOps0_6_results, hostOps0_7_results, hostOps0_8_results, hostOps0_9_results, hostOps0_10_results, hostOps0_11_results, hostOps0_12_results, hostOps0_13_results, hostOps0_14_results, hostOps0_15_results, hostOps0_16_results]
abbrev results : List (Ref sig .tc) := resultss.flatten

theorem opss_writes : (opss (F := F)).Forall fun ops => ops.Forall fun op =>
    op.writes ⊆ (results.map (Proc.devRef (τ := τ) .tc)).toFinset :=
  ⟨writes_sub_of_forall₂ hostOps0_writes fun _ hy => List.mem_flatten_of_mem (.head _) hy,
   writes_sub_of_forall₂ hostOps0_1_writes fun _ hy => List.mem_flatten_of_mem (.tail _ (.head _)) hy,
   writes_sub_of_forall₂ hostOps0_2_writes fun _ hy => List.mem_flatten_of_mem (.tail _ (.tail _ (.head _))) hy,
   writes_sub_of_forall₂ hostOps0_3_writes fun _ hy => List.mem_flatten_of_mem (.tail _ (.tail _ (.tail _ (.head _)))) hy,
   writes_sub_of_forall₂ hostOps0_4_writes fun _ hy => List.mem_flatten_of_mem (.tail _ (.tail _ (.tail _ (.tail _ (.head _))))) hy,
   writes_sub_of_forall₂ hostOps0_5_writes fun _ hy => List.mem_flatten_of_mem (.tail _ (.tail _ (.tail _ (.tail _ (.tail _ (.head _)))))) hy,
   writes_sub_of_forall₂ hostOps0_6_writes fun _ hy => List.mem_flatten_of_mem (.tail _ (.tail _ (.tail _ (.tail _ (.tail _ (.tail _ (.head _))))))) hy,
   writes_sub_of_forall₂ hostOps0_7_writes fun _ hy => List.mem_flatten_of_mem (.tail _ (.tail _ (.tail _ (.tail _ (.tail _ (.tail _ (.tail _ (.head _)))))))) hy,
   writes_sub_of_forall₂ hostOps0_8_writes fun _ hy => List.mem_flatten_of_mem (.tail _ (.tail _ (.tail _ (.tail _ (.tail _ (.tail _ (.tail _ (.tail _ (.head _))))))))) hy,
   writes_sub_of_forall₂ hostOps0_9_writes fun _ hy => List.mem_flatten_of_mem (.tail _ (.tail _ (.tail _ (.tail _ (.tail _ (.tail _ (.tail _ (.tail _ (.tail _ (.head _)))))))))) hy,
   writes_sub_of_forall₂ hostOps0_10_writes fun _ hy => List.mem_flatten_of_mem (.tail _ (.tail _ (.tail _ (.tail _ (.tail _ (.tail _ (.tail _ (.tail _ (.tail _ (.tail _ (.head _))))))))))) hy,
   writes_sub_of_forall₂ hostOps0_11_writes fun _ hy => List.mem_flatten_of_mem (.tail _ (.tail _ (.tail _ (.tail _ (.tail _ (.tail _ (.tail _ (.tail _ (.tail _ (.tail _ (.tail _ (.head _)))))))))))) hy,
   writes_sub_of_forall₂ hostOps0_12_writes fun _ hy => List.mem_flatten_of_mem (.tail _ (.tail _ (.tail _ (.tail _ (.tail _ (.tail _ (.tail _ (.tail _ (.tail _ (.tail _ (.tail _ (.tail _ (.head _))))))))))))) hy,
   writes_sub_of_forall₂ hostOps0_13_writes fun _ hy => List.mem_flatten_of_mem (.tail _ (.tail _ (.tail _ (.tail _ (.tail _ (.tail _ (.tail _ (.tail _ (.tail _ (.tail _ (.tail _ (.tail _ (.tail _ (.head _)))))))))))))) hy,
   writes_sub_of_forall₂ hostOps0_14_writes fun _ hy => List.mem_flatten_of_mem (.tail _ (.tail _ (.tail _ (.tail _ (.tail _ (.tail _ (.tail _ (.tail _ (.tail _ (.tail _ (.tail _ (.tail _ (.tail _ (.tail _ (.head _))))))))))))))) hy,
   writes_sub_of_forall₂ hostOps0_15_writes fun _ hy => List.mem_flatten_of_mem (.tail _ (.tail _ (.tail _ (.tail _ (.tail _ (.tail _ (.tail _ (.tail _ (.tail _ (.tail _ (.tail _ (.tail _ (.tail _ (.tail _ (.tail _ (.head _)))))))))))))))) hy,
   writes_sub_of_forall₂ hostOps0_16_writes fun _ hy => List.mem_flatten_of_mem (.tail _ (.tail _ (.tail _ (.tail _ (.tail _ (.tail _ (.tail _ (.tail _ (.tail _ (.tail _ (.tail _ (.tail _ (.tail _ (.tail _ (.tail _ (.tail _ (.head _))))))))))))))))) hy⟩

/-- A reference that is no operation's result keeps its contents through the whole of @main. -/
theorem kept_of_not_result (W : Valuation τ sig (Elt F)) {r : Ref sig .tc} (hr : r ∉ results) :
    StableHlo.after (opss (F := F)).flatten W (Proc.devRef .tc r) = W (Proc.devRef .tc r) :=
  StableHlo.after_of_writes_sub _ W (forall_flatten opss_writes) hr

theorem kept_main_arg0 (W : Valuation τ sig (Elt F)) :
    StableHlo.after (opss (F := F)).flatten W (Proc.devRef .tc main_arg0) = W (Proc.devRef .tc main_arg0) :=
  kept_of_not_result W (by decide)
theorem kept_main_arg1 (W : Valuation τ sig (Elt F)) :
    StableHlo.after (opss (F := F)).flatten W (Proc.devRef .tc main_arg1) = W (Proc.devRef .tc main_arg1) :=
  kept_of_not_result W (by decide)
theorem kept_main_arg2 (W : Valuation τ sig (Elt F)) :
    StableHlo.after (opss (F := F)).flatten W (Proc.devRef .tc main_arg2) = W (Proc.devRef .tc main_arg2) :=
  kept_of_not_result W (by decide)
theorem kept_main_arg3 (W : Valuation τ sig (Elt F)) :
    StableHlo.after (opss (F := F)).flatten W (Proc.devRef .tc main_arg3) = W (Proc.devRef .tc main_arg3) :=
  kept_of_not_result W (by decide)
theorem kept_main_arg4 (W : Valuation τ sig (Elt F)) :
    StableHlo.after (opss (F := F)).flatten W (Proc.devRef .tc main_arg4) = W (Proc.devRef .tc main_arg4) :=
  kept_of_not_result W (by decide)
theorem kept_main_arg5 (W : Valuation τ sig (Elt F)) :
    StableHlo.after (opss (F := F)).flatten W (Proc.devRef .tc main_arg5) = W (Proc.devRef .tc main_arg5) :=
  kept_of_not_result W (by decide)
theorem kept_main_arg6 (W : Valuation τ sig (Elt F)) :
    StableHlo.after (opss (F := F)).flatten W (Proc.devRef .tc main_arg6) = W (Proc.devRef .tc main_arg6) :=
  kept_of_not_result W (by decide)
theorem kept_main_arg7 (W : Valuation τ sig (Elt F)) :
    StableHlo.after (opss (F := F)).flatten W (Proc.devRef .tc main_arg7) = W (Proc.devRef .tc main_arg7) :=
  kept_of_not_result W (by decide)
theorem kept_main_arg8 (W : Valuation τ sig (Elt F)) :
    StableHlo.after (opss (F := F)).flatten W (Proc.devRef .tc main_arg8) = W (Proc.devRef .tc main_arg8) :=
  kept_of_not_result W (by decide)
theorem kept_main_arg9 (W : Valuation τ sig (Elt F)) :
    StableHlo.after (opss (F := F)).flatten W (Proc.devRef .tc main_arg9) = W (Proc.devRef .tc main_arg9) :=
  kept_of_not_result W (by decide)
theorem kept_main_arg10 (W : Valuation τ sig (Elt F)) :
    StableHlo.after (opss (F := F)).flatten W (Proc.devRef .tc main_arg10) = W (Proc.devRef .tc main_arg10) :=
  kept_of_not_result W (by decide)
theorem kept_main_arg11 (W : Valuation τ sig (Elt F)) :
    StableHlo.after (opss (F := F)).flatten W (Proc.devRef .tc main_arg11) = W (Proc.devRef .tc main_arg11) :=
  kept_of_not_result W (by decide)
theorem kept_main_arg12 (W : Valuation τ sig (Elt F)) :
    StableHlo.after (opss (F := F)).flatten W (Proc.devRef .tc main_arg12) = W (Proc.devRef .tc main_arg12) :=
  kept_of_not_result W (by decide)
theorem kept_main_arg13 (W : Valuation τ sig (Elt F)) :
    StableHlo.after (opss (F := F)).flatten W (Proc.devRef .tc main_arg13) = W (Proc.devRef .tc main_arg13) :=
  kept_of_not_result W (by decide)
theorem kept_main_arg14 (W : Valuation τ sig (Elt F)) :
    StableHlo.after (opss (F := F)).flatten W (Proc.devRef .tc main_arg14) = W (Proc.devRef .tc main_arg14) :=
  kept_of_not_result W (by decide)
theorem kept_main_arg15 (W : Valuation τ sig (Elt F)) :
    StableHlo.after (opss (F := F)).flatten W (Proc.devRef .tc main_arg15) = W (Proc.devRef .tc main_arg15) :=
  kept_of_not_result W (by decide)
theorem kept_main_arg16 (W : Valuation τ sig (Elt F)) :
    StableHlo.after (opss (F := F)).flatten W (Proc.devRef .tc main_arg16) = W (Proc.devRef .tc main_arg16) :=
  kept_of_not_result W (by decide)
theorem kept_main_arg17 (W : Valuation τ sig (Elt F)) :
    StableHlo.after (opss (F := F)).flatten W (Proc.devRef .tc main_arg17) = W (Proc.devRef .tc main_arg17) :=
  kept_of_not_result W (by decide)
theorem kept_main_arg18 (W : Valuation τ sig (Elt F)) :
    StableHlo.after (opss (F := F)).flatten W (Proc.devRef .tc main_arg18) = W (Proc.devRef .tc main_arg18) :=
  kept_of_not_result W (by decide)
theorem kept_main_arg19 (W : Valuation τ sig (Elt F)) :
    StableHlo.after (opss (F := F)).flatten W (Proc.devRef .tc main_arg19) = W (Proc.devRef .tc main_arg19) :=
  kept_of_not_result W (by decide)
theorem kept_main_arg20 (W : Valuation τ sig (Elt F)) :
    StableHlo.after (opss (F := F)).flatten W (Proc.devRef .tc main_arg20) = W (Proc.devRef .tc main_arg20) :=
  kept_of_not_result W (by decide)
theorem kept_main_arg21 (W : Valuation τ sig (Elt F)) :
    StableHlo.after (opss (F := F)).flatten W (Proc.devRef .tc main_arg21) = W (Proc.devRef .tc main_arg21) :=
  kept_of_not_result W (by decide)
theorem kept_main_arg22 (W : Valuation τ sig (Elt F)) :
    StableHlo.after (opss (F := F)).flatten W (Proc.devRef .tc main_arg22) = W (Proc.devRef .tc main_arg22) :=
  kept_of_not_result W (by decide)
theorem kept_main_arg23 (W : Valuation τ sig (Elt F)) :
    StableHlo.after (opss (F := F)).flatten W (Proc.devRef .tc main_arg23) = W (Proc.devRef .tc main_arg23) :=
  kept_of_not_result W (by decide)
theorem kept_main_arg24 (W : Valuation τ sig (Elt F)) :
    StableHlo.after (opss (F := F)).flatten W (Proc.devRef .tc main_arg24) = W (Proc.devRef .tc main_arg24) :=
  kept_of_not_result W (by decide)

/-- Every weakly fair execution of @main terminates with every argument unchanged. -/
theorem frame (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  (θ_run defs _ _).mono (fun _ h c => ⟨(h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _),
      (h c main_arg17).trans (kept_main_arg17 _),
      (h c main_arg18).trans (kept_main_arg18 _),
      (h c main_arg19).trans (kept_main_arg19 _),
      (h c main_arg20).trans (kept_main_arg20 _),
      (h c main_arg21).trans (kept_main_arg21 _),
      (h c main_arg22).trans (kept_main_arg22 _),
      (h c main_arg23).trans (kept_main_arg23 _),
      (h c main_arg24).trans (kept_main_arg24 _)⟩)
    (run m ρ)

end Cert.ReferenceIdeal.Hand

end
-- ==== Proof.SpecH0.lean ====
/-
  The first dense layer of the network as one function of its three argument arrays: the node features x (10000 rows
  of 256), the weights w (256 by 256) and the bias vector b (256 entries). Entry (r, j) of the result is the exact sum
  over k of x(r, k) · w(k, j), plus b(j), computed in the extended reals. Nothing here depends on a program.
-/
import Idealize.ShloMosaic.PureOps.Ideal
import Idealize.ShloMosaic.Lib.ValueIdx

noncomputable section

open scoped BigOperators

namespace Cert.Spec

open Idealize.ShloMosaic Idealize.ShloMosaic.ValueIdx

/-- x · w + b, entry by entry: row r of x against column j of w, plus entry j of b. -/
def H0 (x : (⟨2, ![10000, 256]⟩ : Shape).Idx → EReal) (w : (⟨2, ![256, 256]⟩ : Shape).Idx → EReal)
    (b : (⟨1, ![256]⟩ : Shape).Idx → EReal) : (⟨2, ![10000, 256]⟩ : Shape).Idx → EReal :=
  fun i => (∑ k : Fin 256, x (ix2 (i 0) k) * w (ix2 k (i 1))) + b (ix1 (i 1))

/-- The same at an index given by its coordinates. -/
theorem H0_apply (x : (⟨2, ![10000, 256]⟩ : Shape).Idx → EReal) (w : (⟨2, ![256, 256]⟩ : Shape).Idx → EReal)
    (b : (⟨1, ![256]⟩ : Shape).Idx → EReal) (r : Fin 10000) (j : Fin 256) :
    H0 x w b (ix2 r j) = (∑ k : Fin 256, x (ix2 r k) * w (ix2 k j)) + b (ix1 j) := rfl

end Cert.Spec

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.LibRowTiles.lean ====
/-
  A matrix computed in tiles of rows, read as one function of the whole arrays; and the two ways of laying a bias vector
  along the rows of a matrix before a maximum with zero. Nothing here depends on a program; every extent is a variable.

  * `prod X W` is the product of an M × K matrix and a K × N matrix, entry by entry: (i, j) ↦ Σ_k X(i, k) · W(k, j), an exact
    finite sum of extended reals. The host's `dot_general` with the plain dimension numbers is `prod` (`dotGeneral_eq_prod`).
    A tile of m rows of X times the whole W into the zero accumulator — after the change of float format a kernel makes
    on the way into the product, which is the identity on the ideal values — read at an entry of the tile is `prod X W` at
    the entry of the whole matrix that has the same row of X and the same column of W (`tile_prod_apply`).
  * `biasRelu A r` is (i, j) ↦ max (A(i, j) + r(0, j)) 0 for a one-row matrix r. A tile of rows of A plus the row
    broadcast down the tile, under the maximum with the zero splat, read at an entry of the tile is `biasRelu A r` at the
    matching entry (`tile_biasRelu_apply`); the host's spelling — A plus the vector b broadcast first to one row along axis 1
    and then down the rows, under the maximum with the broadcast zero constant — is `biasRelu A` of b recast as one row
    (`host_biasRelu_eq`). No finiteness is used: each side is the same sum and the same maximum.
-/
import Idealize.ShloMosaic.Lib.StackMember
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowTiles

open Idealize.ShloMosaic Idealize.ShloMosaic.ValueIdx

/-- The product of an M × K matrix and a K × N matrix, entry by entry. -/
def prod {M K N : Nat} (X : FVec Ideal ⟨2, ![M, K]⟩ .f32) (W : FVec Ideal ⟨2, ![K, N]⟩ .f32) : FVec Ideal ⟨2, ![M, N]⟩ .f32 :=
  fun i => ∑ k : Fin K, X (ix2 (i 0) k) * W (ix2 k (i 1))

/-- The host's product with the plain dimension numbers is `prod`. -/
theorem dotGeneral_eq_prod {M K N : Nat} (d : DotDims ⟨2, ![M, K]⟩ ⟨2, ![K, N]⟩ ⟨2, ![M, N]⟩) (hd : d = DotDims.plain M K N)
    (X : FVec Ideal ⟨2, ![M, K]⟩ .f32) (W : FVec Ideal ⟨2, ![K, N]⟩ .f32) : Host.dotGeneral d none X W = prod X W := by
  subst hd
  funext j
  conv_lhs => rw [eq_ix2 j]
  exact StackMember.dotGeneral_plain_apply none X W (j 0) (j 1)

/-- A tile's product into the zero accumulator, at an entry whose row of the tile is row `i 0` of X and whose column of
    the weights is column `i 1` of W, is the whole product at `i`. -/
theorem tile_prod_apply {m M K N : Nat} (d : DotDims ⟨2, ![m, K]⟩ ⟨2, ![K, N]⟩ ⟨2, ![m, N]⟩) (hd : d = DotDims.plain m K N)
    (h1 : FTy.bf16.bits < FTy.f32.bits)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 xb h1) (truncf .bf16 wb h1) (constant ⟨2, ![m, N]⟩ .f32 0x00000000#32) y = prod X W i := by
  subst hd
  rw [matmul_zero_eq_dotGeneral]
  conv_lhs => rw [eq_ix2 y]
  refine (StackMember.dotGeneral_plain_apply none (truncf .bf16 xb h1) (truncf .bf16 wb h1) (y 0) (y 1)).trans ?_
  exact Finset.sum_congr rfl fun k _ => congrArg₂ (· * ·) (hx k) (hw k)

/-- The same with the tile passed through a cast to its own shape first (how a kernel reads a block it has just loaded). -/
theorem tile_prod_cast_apply {m M K N : Nat} (d : DotDims ⟨2, ![m, K]⟩ ⟨2, ![K, N]⟩ ⟨2, ![m, N]⟩) (hd : d = DotDims.plain m K N)
    (h1 : FTy.bf16.bits < FTy.f32.bits) (hs : (⟨2, ![m, K]⟩ : Shape).ShapeCasts ⟨2, ![m, K]⟩)
    (xb : FVec Ideal ⟨2, ![m, K]⟩ .f32) (wb : FVec Ideal ⟨2, ![K, N]⟩ .f32)
    (X : FVec Ideal ⟨2, ![M, K]⟩ .f32) (W : FVec Ideal ⟨2, ![K, N]⟩ .f32)
    (y : (⟨2, ![m, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1))) :
    matmul d none (truncf .bf16 (shapeCast ⟨2, ![m, K]⟩ xb hs) h1) (truncf .bf16 wb h1) (constant ⟨2, ![m, N]⟩ .f32 0x00000000#32) y = prod X W i := by
  rw [shapeCast_self]
  exact tile_prod_apply d hd h1 xb wb X W y i hx hw

/-- A matrix plus a one-row matrix laid along every row, under the maximum with zero, entry by entry. -/
def biasRelu {M n : Nat} (A : FVec Ideal ⟨2, ![M, n]⟩ .f32) (r : FVec Ideal ⟨2, ![1, n]⟩ .f32) : FVec Ideal ⟨2, ![M, n]⟩ .f32 :=
  fun i => max (A i + r (ix2 (0 : Fin 1) (i 1))) (Ideal.ofBits .f32 0x00000000#32)

/-- A one-row matrix broadcast down m rows in the kernel's spelling, read at an entry, is the row at that column. -/
theorem broadcastTo_oneRow_at {α : Type} {m n : Nat} (b : (⟨2, ![1, n]⟩ : Shape).Idx → α)
    (hb : (⟨2, ![1, n]⟩ : Shape).Broadcasts ⟨2, ![m, n]⟩) (y : (⟨2, ![m, n]⟩ : Shape).Idx) :
    broadcastTo ⟨2, ![m, n]⟩ b hb y = b (ix2 (0 : Fin 1) (y 1)) := by
  refine broadcastTo_apply b hb y (ix2 (0 : Fin 1) (y 1)) ?_
  intro a
  match a with
  | ⟨0, _⟩ => rfl
  | ⟨1, _⟩ =>
    show (y 1).val = if n = 1 then 0 else (y 1).val
    split
    · have := idx2_lt1 y; omega
    · rfl

/-- A tile of rows plus the row broadcast down the tile, under the maximum with the zero splat, at an entry of the tile. -/
theorem tile_biasRelu_apply {m M n : Nat} (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf ab (broadcastTo ⟨2, ![m, n]⟩ rb hb)) (broadcast ⟨2, ![m, n]⟩ (Scalar.ofBits (F := Ideal) .f32 0x00000000#32)) y
      = biasRelu A r i := by
  show max (ab y + broadcastTo ⟨2, ![m, n]⟩ rb hb y) (Ideal.ofBits .f32 0x00000000#32) = max (A i + r (ix2 (0 : Fin 1) (i 1))) _
  rw [broadcastTo_oneRow_at rb hb y, ha, hr]

/-- The same with the tile and the row each passed through a cast to its own shape first. -/
theorem tile_biasRelu_cast_apply {m M n : Nat} (hs1 : (⟨2, ![m, n]⟩ : Shape).ShapeCasts ⟨2, ![m, n]⟩)
    (hs2 : (⟨2, ![1, n]⟩ : Shape).ShapeCasts ⟨2, ![1, n]⟩) (hb : (⟨2, ![1, n]⟩ : Shape).Broadcasts ⟨2, ![m, n]⟩)
    (ab : FVec Ideal ⟨2, ![m, n]⟩ .f32) (rb : FVec Ideal ⟨2, ![1, n]⟩ .f32)
    (A : FVec Ideal ⟨2, ![M, n]⟩ .f32) (r : FVec Ideal ⟨2, ![1, n]⟩ .f32)
    (y : (⟨2, ![m, n]⟩ : Shape).Idx) (i : (⟨2, ![M, n]⟩ : Shape).Idx)
    (ha : ab y = A i) (hr : rb (ix2 (0 : Fin 1) (y 1)) = r (ix2 (0 : Fin 1) (i 1))) :
    maximumf (addf (shapeCast ⟨2, ![m, n]⟩ ab hs1) (broadcastTo ⟨2, ![m, n]⟩ (shapeCast ⟨2, ![1, n]⟩ rb hs2) hb))
        (broadcast ⟨2, ![m, n]⟩ (Scalar.ofBits (F := Ideal) .f32 0x00000000#32)) y
      = biasRelu A r i := by
  rw [shapeCast_self, shapeCast_self]
  exact tile_biasRelu_apply hb ab rb A r y i ha hr

/-- The host's spelling of the same function of the whole arrays: the bias vector b broadcast to one row along axis 1 and
    then down the rows, added, under the maximum with the broadcast zero constant. -/
theorem host_biasRelu_eq {M n : Nat} (dims0 : Fin 0 → Fin 2)
    (hd1 : (⟨1, ![n]⟩ : Shape).BroadcastsInDim ⟨2, ![1, n]⟩ ![1])
    (hd2 : (⟨2, ![1, n]⟩ : Shape).BroadcastsInDim ⟨2, ![M, n]⟩ ![0, 1])
    (h0 : (⟨0, ![]⟩ : Shape).BroadcastsInDim ⟨2, ![M, n]⟩ dims0)
    (h1 : (⟨1, ![n]⟩ : Shape).ShapeCasts ⟨2, ![1, n]⟩)
    (A : FVec Ideal ⟨2, ![M, n]⟩ .f32) (b : FVec Ideal ⟨1, ![n]⟩ .f32) :
    maximumf (addf A (broadcastInDim ⟨2, ![M, n]⟩ ![0, 1] hd2 (broadcastInDim ⟨2, ![1, n]⟩ ![1] hd1 b)))
        (broadcastInDim ⟨2, ![M, n]⟩ dims0 h0 (constant (F := Ideal) ⟨0, ![]⟩ .f32 0x00000000#32))
      = biasRelu A (shapeCast ⟨2, ![1, n]⟩ b h1) := by
  funext i
  show max (A i + broadcastInDim ⟨2, ![M, n]⟩ ![0, 1] hd2 (broadcastInDim ⟨2, ![1, n]⟩ ![1] hd1 b) i) (Ideal.ofBits .f32 0x00000000#32)
    = max (A i + shapeCast ⟨2, ![1, n]⟩ b h1 (ix2 (0 : Fin 1) (i 1))) _
  have e1 : broadcastInDim ⟨2, ![M, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  have e2 : broadcastInDim ⟨2, ![1, n]⟩ ![1] hd1 b (ix2 (0 : Fin 1) (i 1)) = b (ix1 (i 1)) := by
    refine broadcastInDim_apply ![1] hd1 b (ix2 (0 : Fin 1) (i 1)) (ix1 (i 1)) ?_
    intro a
    match a with
    | ⟨0, _⟩ =>
      show (i 1).val = if n = 1 then 0 else (i 1).val
      split
      · have := idx2_lt1 i; omega
      · rfl
  have e3 : shapeCast ⟨2, ![1, n]⟩ b h1 (ix2 (0 : Fin 1) (i 1)) = b (ix1 (i 1)) := by
    refine shapeCast_apply b h1 (ix2 (0 : Fin 1) (i 1)) (ix1 (i 1)) ?_
    rw [Shape.rowMajor_val_two, Shape.rowMajor_val_one]
    show (i 1).val = 0 * n + (i 1).val
    omega
  rw [e1, e2, e3]

/-- A vector recast as one row and broadcast down m rows (the kernel's spelling), at an entry, is the vector at the column. -/
theorem kernelRow_apply {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (i : (⟨2, ![m, n]⟩ : Shape).Idx) : broadcastTo ⟨2, ![m, n]⟩ (shapeCast ⟨2, ![1, n]⟩ b h1) hb i = b (ix1 (i 1)) := by
  rw [broadcastTo_oneRow_at]
  refine shapeCast_apply b h1 (ix2 (0 : Fin 1) (i 1)) (ix1 (i 1)) ?_
  rw [Shape.rowMajor_val_two, Shape.rowMajor_val_one]
  show (i 1).val = 0 * n + (i 1).val
  omega

/-- A vector broadcast to one row along axis 1 and then down m rows (the host's spelling), at an entry, is the vector at
    the column. -/
theorem hostRow_apply {α : Type} {m n : Nat} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1])
    (i : (⟨2, ![m, n]⟩ : Shape).Idx) :
    broadcastInDim ⟨2, ![m, n]⟩ ![0, 1] hd2 (broadcastInDim ⟨2, ![1, n]⟩ ![1] hd1 b) i = b (ix1 (i 1)) := by
  have e1 : broadcastInDim ⟨2, ![m, n]⟩ ![0, 1] hd2 (broadcastInDim ⟨2, ![1, n]⟩ ![1] hd1 b) i
      = broadcastInDim ⟨2, ![1, n]⟩ ![1] hd1 b (ix2 (0 : Fin 1) (i 1)) := by
    conv_lhs => rw [eq_ix2 i]
    exact broadcastInDim_oneRow_apply hd2 _ (i 0) (i 1)
  rw [e1]
  refine broadcastInDim_apply ![1] hd1 b (ix2 (0 : Fin 1) (i 1)) (ix1 (i 1)) ?_
  intro a
  match a with
  | ⟨0, _⟩ =>
    show (i 1).val = if n = 1 then 0 else (i 1).val
    split
    · have := idx2_lt1 i; omega
    · rfl

/-- The two spellings of a vector laid along every row are one array. -/
theorem kernelRow_eq_hostRow {α : Type} {m n : Nat} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (hd1 : (⟨1, ![n]⟩ : Shape).BroadcastsInDim ⟨2, ![1, n]⟩ ![1])
    (hd2 : (⟨2, ![1, n]⟩ : Shape).BroadcastsInDim ⟨2, ![m, n]⟩ ![0, 1]) :
    broadcastTo ⟨2, ![m, n]⟩ (shapeCast ⟨2, ![1, n]⟩ b h1) hb
      = broadcastInDim ⟨2, ![m, n]⟩ ![0, 1] hd2 (broadcastInDim ⟨2, ![1, n]⟩ ![1] hd1 b) :=
  funext fun i => (kernelRow_apply b h1 hb i).trans (hostRow_apply b hd1 hd2 i).symm

/-- A whole matrix as its own tile: the kernel's product of the whole arrays into the zero accumulator is `prod`. -/
theorem matmul_eq_prod {M K N : Nat} (d : DotDims ⟨2, ![M, K]⟩ ⟨2, ![K, N]⟩ ⟨2, ![M, N]⟩) (hd : d = DotDims.plain M K N)
    (h1 : FTy.bf16.bits < FTy.f32.bits) (X : FVec Ideal ⟨2, ![M, K]⟩ .f32) (W : FVec Ideal ⟨2, ![K, N]⟩ .f32) :
    matmul d none (truncf .bf16 X h1) (truncf .bf16 W h1) (constant ⟨2, ![M, N]⟩ .f32 0x00000000#32) = prod X W :=
  funext fun y => tile_prod_apply d hd h1 X W X W y y (fun _ => rfl) (fun _ => rfl)

/-- A whole matrix as its own tile: the kernel's bias and relu of the whole arrays is `biasRelu`. -/
theorem kernel_biasRelu_eq {M n : Nat} (hb : (⟨2, ![1, n]⟩ : Shape).Broadcasts ⟨2, ![M, n]⟩)
    (A : FVec Ideal ⟨2, ![M, n]⟩ .f32) (r : FVec Ideal ⟨2, ![1, n]⟩ .f32) :
    maximumf (addf A (broadcastTo ⟨2, ![M, n]⟩ r hb)) (broadcast ⟨2, ![M, n]⟩ (Scalar.ofBits (F := Ideal) .f32 0x00000000#32))
      = biasRelu A r :=
  funext fun y => tile_biasRelu_apply hb A r A r y y rfl rfl

end Cert.LibRowTiles

end
-- ==== Proof.KIValue.lean ====
/-
  The value of the kernel's one region at the ideal instance. Each of its ten grid points loads a block of 1000 rows of
  the node features, the whole weight matrix and the one-row bias, and stores, for its 1000 rows, the product of the
  block with the weights plus the bias row laid along every row. Entry (y, j) of the stored block at point t is
  therefore the sum over k of x(1000·t + y, k) · w(k, j), plus b(j): block t of the one function x · w + b of the three
  argument arrays. The ten blocks tile the 10000 rows (row r lies in the block of point r / 1000), so after the region
  the output array is x · w + b.
-/
import proofs.«121394_g42563125903665_cont_8to1_b_1637_2_alg».proof.Proof.KIDefs
import proofs.«121394_g42563125903665_cont_8to1_b_1637_2_alg».proof.Proof.SpecH0
import proofs.«121394_g42563125903665_cont_8to1_b_1637_2_alg».proof.Proof.LibMatmulAt
import proofs.«121394_g42563125903665_cont_8to1_b_1637_2_alg».proof.Proof.LibRowTiles
import Idealize.ShloMosaic.Lib.Pipeline.Value

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-- The bias row as the region finds it is the bias vector recast as one row: the one host line before the region that
    writes a window's array. -/
theorem V_main_v4 (c : Dev nD) :
    (V (F := Ideal) m c main_v4 : S1x256.Idx → EReal) = shapeCast S1x256 (V (F := Ideal) m c main_arg5) shapeCasts_S256_S1x256 := by
  show StableHlo.after (List.flatten [hostOps0]) _ (Proc.devRef .tc main_v4) = shapeCast S1x256 (StableHlo.after (List.flatten [hostOps0]) _ (Proc.devRef .tc main_arg5)) shapeCasts_S256_S1x256
  simp only [hostOps0, List.flatten_cons, List.flatten_nil, List.append_nil]
  after_results
  rfl

/-- The zero offsets of a whole-buffer rectangle, as a constant function. -/
theorem hz : (![0, 0] : Fin 2 → Nat) = fun _ => 0 := funext fun a => by fin_cases a <;> rfl

/-- The body's one stored value at an entry: row y 0 of the loaded feature block against column y 1 of the loaded
    weights, summed over the contracted coordinate, plus the loaded bias row's entry at that column. -/
theorem pay_apply (x0 : FVec Ideal S1000x256 .f32) (x1 : FVec Ideal S256x256 .f32) (x2 : FVec Ideal S1x256 .f32)
    (y : S1000x256.Idx) :
    k0_pay1 (F := Ideal) x0 x1 x2 y
      = (∑ k : Fin 256, x0 (ix2 (y 0) k) * x1 (ix2 k (y 1))) + x2 (ix2 (0 : Fin 1) (y 1)) := by
  unfold k0_pay1
  refine (addf_apply _ _ y).trans ?_
  refine congrArg₂ (· + ·) ?_ ?_
  · exact matmul_zero_plain_apply dot_S1000x256_S256x256_S1000x256_1_0_0_1_n_n rfl none x0 x1 y
  · rw [shapeCast_self]
    exact Cert.LibRowTiles.broadcastTo_oneRow_at x2 broadcasts_S1x256_S1000x256 y

/-- The stored value at entry y of a block is x · w + b at entry i of the whole arrays, when the loaded blocks hold, along
    row y 0 and column y 1, what the whole arrays hold along row i 0 and column i 1. -/
theorem point_eq (X : S10000x256.Idx → EReal) (Wt : S256x256.Idx → EReal) (B : S256.Idx → EReal)
    (x0 : FVec Ideal S1000x256 .f32) (x1 : FVec Ideal S256x256 .f32) (x2 : FVec Ideal S1x256 .f32)
    (y : S1000x256.Idx) (i : S10000x256.Idx)
    (hx : ∀ k : Fin 256, x0 (ix2 (y 0) k) = X (ix2 (i 0) k))
    (hw : ∀ k : Fin 256, x1 (ix2 k (y 1)) = Wt (ix2 k (i 1)))
    (hb : x2 (ix2 (0 : Fin 1) (y 1)) = B (ix1 (i 1))) :
    k0_pay1 (F := Ideal) x0 x1 x2 y = Cert.Spec.H0 X Wt B i := by
  refine (pay_apply x0 x1 x2 y).trans ?_
  show _ = (∑ k : Fin 256, X (ix2 (i 0) k) * Wt (ix2 k (i 1))) + B (ix1 (i 1))
  rw [hb]
  exact congrArg (· + B (ix1 (i 1))) (Finset.sum_congr rfl fun k _ => by rw [hx k, hw k])

/-- A vector of 256 entries recast as one row, read at an entry of the row, is the vector's entry at the column. -/
theorem row_of_vec (b : S256.Idx → EReal) (q : Fin 256) (y : S1x256.Idx) (hy0 : (y 0).val = 0) (hy1 : (y 1).val = q.val) :
    shapeCast S1x256 b shapeCasts_S256_S1x256 y = b (ix1 q) := by
  refine shapeCast_apply b shapeCasts_S256_S1x256 y (ix1 q) ?_
  rw [Shape.rowMajor_val_two, Shape.rowMajor_val_one]
  show q.val = (y 0).val * 256 + (y 1).val
  omega

/-- The printed index maps, decided over the grid: the feature window's row block moves with the output's, which is the
    point's number; every other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of x · w + b of the argument arrays as the region finds them. -/
theorem flushed_eq (c : Dev nD) (t : Fin cfg0.N) :
    (dats (F := Ideal) m 0 c).flushed 3 t
      = ((cfg0.win 3).blk t).view.read (Elt Ideal) (Cert.Spec.H0 (V m c main_arg0) (V m c main_arg4) (V m c main_arg5)) := by
  show (cfg0.win 3).cut (grid0.coords t) ((dats m 0 c).after 3 t) = _
  rw [after0_3]
  unfold out0_3
  rw [View.canon_unit_zero hz]
  simp only [View.ld_unit_zero (S := S1000x256) hz, View.ld_unit_zero (S := S256x256) hz, View.ld_unit_zero (S := S1x256) hz]
  obtain ⟨e00, e01, e10, e11, e20, e21, e30, e31⟩ := idx_facts t
  funext j
  show k0_pay1 (iblk m c 0 t) (iblk m c 1 t) (iblk m c 2 t) j
      = Cert.Spec.H0 (V m c main_arg0) (V m c main_arg4) (V m c main_arg5) (((cfg0.win 3).blk t).view.emb j)
  refine point_eq (V m c main_arg0) (V m c main_arg4) (V m c main_arg5) (iblk m c 0 t) (iblk m c 1 t) (iblk m c 2 t) j
    (((cfg0.win 3).blk t).view.emb j) ?_ ?_ ?_
  · intro k
    show V m c main_arg0 (((cfg0.win 0).blk t).view.emb (ix2 (n0 := 1000) (n1 := 256) (j 0) k))
        = V m c main_arg0 (ix2 (n0 := 10000) (n1 := 256) ((((cfg0.win 3).blk t).view.emb j) 0) k)
    refine congrArg (V m c main_arg0) (funext fun a => Fin.ext ?_)
    match a with
    | ⟨0, _⟩ =>
      show win0_0.index t (0 : Fin 2) * 1000 + 1 * (j 0).val = win0_3.index t (0 : Fin 2) * 1000 + 1 * (j 0).val
      rw [e00, e30]
    | ⟨1, _⟩ =>
      show win0_0.index t (1 : Fin 2) * 256 + 1 * k.val = k.val
      rw [e01]; omega
  · intro k
    show V m c main_arg4 (((cfg0.win 1).blk t).view.emb (ix2 (n0 := 256) (n1 := 256) k (j 1)))
        = V m c main_arg4 (ix2 (n0 := 256) (n1 := 256) k ((((cfg0.win 3).blk t).view.emb j) 1))
    refine congrArg (V m c main_arg4) (funext fun a => Fin.ext ?_)
    match a with
    | ⟨0, _⟩ =>
      show win0_1.index t (0 : Fin 2) * 256 + 1 * k.val = k.val
      rw [e10]; omega
    | ⟨1, _⟩ =>
      show win0_1.index t (1 : Fin 2) * 256 + 1 * (j 1).val = win0_3.index t (1 : Fin 2) * 256 + 1 * (j 1).val
      rw [e11, e31]
  · show V m c main_v4 (((cfg0.win 2).blk t).view.emb (ix2 (n0 := 1) (n1 := 256) (0 : Fin 1) (j 1)))
        = V m c main_arg5 (ix1 (n := 256) ((((cfg0.win 3).blk t).view.emb j) 1))
    refine (congrFun (V_main_v4 m c) _).trans ?_
    refine row_of_vec (V m c main_arg5) ((((cfg0.win 3).blk t).view.emb j) 1)
      (((cfg0.win 2).blk t).view.emb (ix2 (n0 := 1) (n1 := 256) (0 : Fin 1) (j 1))) ?_ ?_
    · show win0_2.index t (0 : Fin 2) * 1 + 1 * 0 = 0
      rw [e20]
    · show win0_2.index t (1 : Fin 2) * 256 + 1 * (j 1).val = win0_3.index t (1 : Fin 2) * 256 + 1 * (j 1).val
      rw [e21, e31]

/-- An index of the array is in point t's block iff each coordinate is in the block's range on its axis. -/
theorem mem_blk (t : Fin cfg0.N) (i : S10000x256.Idx) :
    i ∈ ((cfg0.win 3).blk t).view.set
      ↔ ∀ a : Fin 2, win0_3.index t a * S1000x256.size a ≤ (i a).val ∧ (i a).val < win0_3.index t a * S1000x256.size a + S1000x256.size a := by
  show i ∈ ((View.whole main_v5).slice (win0_3.rect t)).set ↔ _
  rw [View.set_slice_whole, Rect.mem_set_unit]
  exact Iff.rfl

/-- Every row of the output lies in the block of the point numbered by the row's thousand. -/
theorem cover (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  have hN : cfg0.N = 10 := N_0
  refine ⟨⟨(i 0).val / 1000, by rw [hN]; omega⟩, flush0_3 _, ?_⟩
  rw [mem_blk]
  obtain ⟨-, -, -, -, -, -, e30, e31⟩ := idx_facts ⟨(i 0).val / 1000, by rw [hN]; omega⟩
  intro a
  match a with
  | ⟨0, _⟩ =>
    show win0_3.index _ (0 : Fin 2) * 1000 ≤ (i 0).val ∧ (i 0).val < win0_3.index _ (0 : Fin 2) * 1000 + 1000
    rw [e30]
    show (i 0).val / 1000 * 1000 ≤ (i 0).val ∧ (i 0).val < (i 0).val / 1000 * 1000 + 1000
    omega
  | ⟨1, _⟩ =>
    show win0_3.index _ (1 : Fin 2) * 256 ≤ (i 1).val ∧ (i 1).val < win0_3.index _ (1 : Fin 2) * 256 + 256
    rw [e31]
    omega

/-- After the region the output array is x · w + b of the three argument arrays as the region finds them. -/
theorem kernel_h0 (m : (ℓ : Loc nD τ sig) → Buf (Elt Ideal) ℓ) (c : Dev nD) :
    ((dats (F := Ideal) m 0 c).arrAt 3 cfg0.N : S10000x256.Idx → EReal)
      = Cert.Spec.H0 (V m c main_arg0) (V m c main_arg4) (V m c main_arg5) :=
  (dats (F := Ideal) m 0 c).arrAt_eq_of_cover 3 (Cert.Spec.H0 (V m c main_arg0) (V m c main_arg4) (V m c main_arg5))
    (fun t _ => flushed_eq m c t) cover

end Cert.KernelIdeal.HandValue

end
-- ==== Proof.RefH0.lean ====
/-
  The reference's first dense layer, read entry by entry. Its first host lines compute the product of the node features
  and the weights (one dot_general, contracting the features' columns against the weights' rows), lay the bias vector
  along every row (a broadcast to one row, then down the 10000 rows) and add the two. Entry (r, j) is therefore the sum
  over k of x(r, k) · w(k, j), plus b(j): the specification's function of the three argument arrays.
-/
import proofs.«121394_g42563125903665_cont_8to1_b_1637_2_alg».proof.Proof.RefLaunch
import proofs.«121394_g42563125903665_cont_8to1_b_1637_2_alg».proof.Proof.SpecH0
import proofs.«121394_g42563125903665_cont_8to1_b_1637_2_alg».proof.Proof.LibMatmulAt
import proofs.«121394_g42563125903665_cont_8to1_b_1637_2_alg».proof.Proof.LibRowTiles

noncomputable section

namespace Cert.ReferenceIdeal.HandValue

open Cert.ReferenceIdeal Cert.ReferenceIdeal.Gen
open Idealize.ShloMosaic Idealize.ShloMosaic.TcCoe Idealize.ShloMosaic.ValueIdx
open Idealize.SL.Sem

/-- After the first eight host lines the buffer of the layer's result holds x · w + b, whatever the buffers held before:
    the product's entry is the sum over the contracted coordinate, the broadcast bias's entry is the vector's entry at
    the column. -/
theorem ref_h0 (W : Valuation τ sig (Elt Ideal)) :
    (StableHlo.after ((hostOps0 (F := Ideal)).take 8) W (Proc.devRef .tc main_v7) : S10000x256.Idx → EReal)
      = Cert.Spec.H0 (W (Proc.devRef .tc main_arg0)) (W (Proc.devRef .tc main_arg4)) (W (Proc.devRef .tc main_arg5)) := by
  simp only [hostOps0, List.take_succ_cons, List.take_zero]
  after_results
  funext i
  refine (addf_apply _ _ i).trans ?_
  unfold Cert.Spec.H0
  refine congrArg₂ (· + ·) ?_ ?_
  · exact Cert.KernelIdeal.Hand.dotGeneral_plain_apply' dot_S10000x256_S256x256_S10000x256_1_0_0_1_n_n rfl none _ _ i
  · exact Cert.LibRowTiles.hostRow_apply _ bcast_S256_S1x256_1 bcast_S1x256_S10000x256_0_1 i

end Cert.ReferenceIdeal.HandValue

end
-- ==== Proof.BridgeRef.lean ====
import proofs.«121394_g42563125903665_cont_8to1_b_1637_2_alg».proof.Proof.RefRun
import Idealize.ShloMosaic.Lib.Pipeline.Frame
import Idealize.ShloMosaic.PureOps.Ideal

noncomputable section

namespace Cert.ReferenceIdeal.HandValue

open Cert.ReferenceIdeal Cert.ReferenceIdeal.Gen Cert.ReferenceIdeal.Hand
open Idealize.ShloMosaic Idealize.ShloMosaic.TcCoe Idealize.SL.Sem

/-! # The reference's line, read for the final comparison

The reference's line is split after its first eight operations: those compute the edge-index rows and the first
node transform, the rest everything after it. What the first eight leave: every argument as it was, and the two
edge-index rows as slices of the edge-index argument. The run's post is then read at the result buffer and at the
arguments. All statements are over the reference's own signature. -/

/-- A concatenation of stretches, the first one cut at `n`. -/
theorem flatten_cons_split {α : Type} (a : List α) (tl : List (List α)) (n : ℕ) :
    (a :: tl).flatten = a.take n ++ (a.drop n :: tl).flatten := by
  rw [List.flatten_cons, List.flatten_cons, ← List.append_assoc, List.take_append_drop]

/-- The reference's line is its first eight operations, then the rest. -/
theorem opss_split : (opss (F := Ideal)).flatten = (hostOps0 (F := Ideal)).take 8 ++ List.flatten [(hostOps0 (F := Ideal)).drop 8, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] :=
  flatten_cons_split _ _ 8

/-- The contents after the whole line are those after the rest, from the contents the first eight operations leave. -/
theorem after_split (W : Valuation τ sig (Elt Ideal)) (b : DevRef τ sig) :
    StableHlo.after (opss (F := Ideal)).flatten W b = StableHlo.after (List.flatten [(hostOps0 (F := Ideal)).drop 8, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (StableHlo.after ((hostOps0 (F := Ideal)).take 8) W) b := by
  rw [opss_split, StableHlo.after_append]

/-- The first eight operations write within the line's results. -/
theorem head_writes : ((hostOps0 (F := Ideal)).take 8).Forall fun op =>
    op.writes ⊆ (results.map (Proc.devRef (τ := τ) .tc)).toFinset :=
  List.forall_iff_forall_mem.mpr fun op h =>
    List.forall_iff_forall_mem.mp (opss_writes (F := Ideal)).1 op (List.mem_of_mem_take h)

/-- A reference that is no operation's result keeps its contents through the first eight operations. -/
theorem head_kept (W : Valuation τ sig (Elt Ideal)) {r : Ref sig .tc} (hr : r ∉ results) :
    StableHlo.after ((hostOps0 (F := Ideal)).take 8) W (Proc.devRef .tc r) = W (Proc.devRef .tc r) :=
  StableHlo.after_of_writes_sub _ W head_writes hr

theorem head_main_arg0 (W : Valuation τ sig (Elt Ideal)) :
    StableHlo.after ((hostOps0 (F := Ideal)).take 8) W (Proc.devRef .tc main_arg0) = W (Proc.devRef .tc main_arg0) :=
  head_kept W (by decide)
theorem head_main_arg1 (W : Valuation τ sig (Elt Ideal)) :
    StableHlo.after ((hostOps0 (F := Ideal)).take 8) W (Proc.devRef .tc main_arg1) = W (Proc.devRef .tc main_arg1) :=
  head_kept W (by decide)
theorem head_main_arg2 (W : Valuation τ sig (Elt Ideal)) :
    StableHlo.after ((hostOps0 (F := Ideal)).take 8) W (Proc.devRef .tc main_arg2) = W (Proc.devRef .tc main_arg2) :=
  head_kept W (by decide)
theorem head_main_arg3 (W : Valuation τ sig (Elt Ideal)) :
    StableHlo.after ((hostOps0 (F := Ideal)).take 8) W (Proc.devRef .tc main_arg3) = W (Proc.devRef .tc main_arg3) :=
  head_kept W (by decide)
theorem head_main_arg4 (W : Valuation τ sig (Elt Ideal)) :
    StableHlo.after ((hostOps0 (F := Ideal)).take 8) W (Proc.devRef .tc main_arg4) = W (Proc.devRef .tc main_arg4) :=
  head_kept W (by decide)
theorem head_main_arg5 (W : Valuation τ sig (Elt Ideal)) :
    StableHlo.after ((hostOps0 (F := Ideal)).take 8) W (Proc.devRef .tc main_arg5) = W (Proc.devRef .tc main_arg5) :=
  head_kept W (by decide)
theorem head_main_arg6 (W : Valuation τ sig (Elt Ideal)) :
    StableHlo.after ((hostOps0 (F := Ideal)).take 8) W (Proc.devRef .tc main_arg6) = W (Proc.devRef .tc main_arg6) :=
  head_kept W (by decide)
theorem head_main_arg7 (W : Valuation τ sig (Elt Ideal)) :
    StableHlo.after ((hostOps0 (F := Ideal)).take 8) W (Proc.devRef .tc main_arg7) = W (Proc.devRef .tc main_arg7) :=
  head_kept W (by decide)
theorem head_main_arg8 (W : Valuation τ sig (Elt Ideal)) :
    StableHlo.after ((hostOps0 (F := Ideal)).take 8) W (Proc.devRef .tc main_arg8) = W (Proc.devRef .tc main_arg8) :=
  head_kept W (by decide)
theorem head_main_arg9 (W : Valuation τ sig (Elt Ideal)) :
    StableHlo.after ((hostOps0 (F := Ideal)).take 8) W (Proc.devRef .tc main_arg9) = W (Proc.devRef .tc main_arg9) :=
  head_kept W (by decide)
theorem head_main_arg10 (W : Valuation τ sig (Elt Ideal)) :
    StableHlo.after ((hostOps0 (F := Ideal)).take 8) W (Proc.devRef .tc main_arg10) = W (Proc.devRef .tc main_arg10) :=
  head_kept W (by decide)
theorem head_main_arg11 (W : Valuation τ sig (Elt Ideal)) :
    StableHlo.after ((hostOps0 (F := Ideal)).take 8) W (Proc.devRef .tc main_arg11) = W (Proc.devRef .tc main_arg11) :=
  head_kept W (by decide)
theorem head_main_arg12 (W : Valuation τ sig (Elt Ideal)) :
    StableHlo.after ((hostOps0 (F := Ideal)).take 8) W (Proc.devRef .tc main_arg12) = W (Proc.devRef .tc main_arg12) :=
  head_kept W (by decide)
theorem head_main_arg13 (W : Valuation τ sig (Elt Ideal)) :
    StableHlo.after ((hostOps0 (F := Ideal)).take 8) W (Proc.devRef .tc main_arg13) = W (Proc.devRef .tc main_arg13) :=
  head_kept W (by decide)
theorem head_main_arg14 (W : Valuation τ sig (Elt Ideal)) :
    StableHlo.after ((hostOps0 (F := Ideal)).take 8) W (Proc.devRef .tc main_arg14) = W (Proc.devRef .tc main_arg14) :=
  head_kept W (by decide)
theorem head_main_arg15 (W : Valuation τ sig (Elt Ideal)) :
    StableHlo.after ((hostOps0 (F := Ideal)).take 8) W (Proc.devRef .tc main_arg15) = W (Proc.devRef .tc main_arg15) :=
  head_kept W (by decide)
theorem head_main_arg16 (W : Valuation τ sig (Elt Ideal)) :
    StableHlo.after ((hostOps0 (F := Ideal)).take 8) W (Proc.devRef .tc main_arg16) = W (Proc.devRef .tc main_arg16) :=
  head_kept W (by decide)
theorem head_main_arg17 (W : Valuation τ sig (Elt Ideal)) :
    StableHlo.after ((hostOps0 (F := Ideal)).take 8) W (Proc.devRef .tc main_arg17) = W (Proc.devRef .tc main_arg17) :=
  head_kept W (by decide)
theorem head_main_arg18 (W : Valuation τ sig (Elt Ideal)) :
    StableHlo.after ((hostOps0 (F := Ideal)).take 8) W (Proc.devRef .tc main_arg18) = W (Proc.devRef .tc main_arg18) :=
  head_kept W (by decide)
theorem head_main_arg19 (W : Valuation τ sig (Elt Ideal)) :
    StableHlo.after ((hostOps0 (F := Ideal)).take 8) W (Proc.devRef .tc main_arg19) = W (Proc.devRef .tc main_arg19) :=
  head_kept W (by decide)
theorem head_main_arg20 (W : Valuation τ sig (Elt Ideal)) :
    StableHlo.after ((hostOps0 (F := Ideal)).take 8) W (Proc.devRef .tc main_arg20) = W (Proc.devRef .tc main_arg20) :=
  head_kept W (by decide)
theorem head_main_arg21 (W : Valuation τ sig (Elt Ideal)) :
    StableHlo.after ((hostOps0 (F := Ideal)).take 8) W (Proc.devRef .tc main_arg21) = W (Proc.devRef .tc main_arg21) :=
  head_kept W (by decide)
theorem head_main_arg22 (W : Valuation τ sig (Elt Ideal)) :
    StableHlo.after ((hostOps0 (F := Ideal)).take 8) W (Proc.devRef .tc main_arg22) = W (Proc.devRef .tc main_arg22) :=
  head_kept W (by decide)
theorem head_main_arg23 (W : Valuation τ sig (Elt Ideal)) :
    StableHlo.after ((hostOps0 (F := Ideal)).take 8) W (Proc.devRef .tc main_arg23) = W (Proc.devRef .tc main_arg23) :=
  head_kept W (by decide)
theorem head_main_arg24 (W : Valuation τ sig (Elt Ideal)) :
    StableHlo.after ((hostOps0 (F := Ideal)).take 8) W (Proc.devRef .tc main_arg24) = W (Proc.devRef .tc main_arg24) :=
  head_kept W (by decide)

open StableHlo in
/-- The first edge-index row: the first eight operations leave it the first row of the edge-index argument. -/
theorem head_main_v1 (W : Valuation τ sig (Elt Ideal)) :
    (StableHlo.after ((hostOps0 (F := Ideal)).take 8) W (Proc.devRef .tc main_v1) : S160000.Idx → Elt Ideal .i32)
      = shapeCast S160000 (extractStridedSlice S1x160000 ![0, 0] (W (Proc.devRef .tc main_arg23)) slices_S2x160000_S1x160000_0_0) shapeCasts_S1x160000_S160000 := by
  simp only [hostOps0, List.take_succ_cons, List.take_zero]
  after_results
  rfl

open StableHlo in
/-- The second edge-index row, likewise. -/
theorem head_main_v3 (W : Valuation τ sig (Elt Ideal)) :
    (StableHlo.after ((hostOps0 (F := Ideal)).take 8) W (Proc.devRef .tc main_v3) : S160000.Idx → Elt Ideal .i32)
      = shapeCast S160000 (extractStridedSlice S1x160000 ![1, 0] (W (Proc.devRef .tc main_arg23)) slices_S2x160000_S1x160000_1_0) shapeCasts_S1x160000_S160000 := by
  simp only [hostOps0, List.take_succ_cons, List.take_zero]
  after_results
  rfl

/-- The launch contents of a device at a TensorCore reference are the memory there. -/
theorem launch_arg (m : (ℓ : Loc nD τ sig) → Buf (Elt Ideal) ℓ) (c : Dev nD) (b : Ref sig .tc) :
    StableHlo.launchContents m c (Proc.devRef .tc b) = m ((c.tc : Thread nD τ).loc b) := rfl

/-- Every weakly fair execution of the reference's @main terminates with the result buffer at the line's fold over the
    launch contents and every argument unchanged. -/
theorem run_result (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v310) = StableHlo.after (opss (F := Ideal)).flatten (StableHlo.launchContents m c) (Proc.devRef .tc main_v310)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨h c main_v310,
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _),
      (h c main_arg17).trans (kept_main_arg17 _),
      (h c main_arg18).trans (kept_main_arg18 _),
      (h c main_arg19).trans (kept_main_arg19 _),
      (h c main_arg20).trans (kept_main_arg20 _),
      (h c main_arg21).trans (kept_main_arg21 _),
      (h c main_arg22).trans (kept_main_arg22 _),
      (h c main_arg23).trans (kept_main_arg23 _),
      (h c main_arg24).trans (kept_main_arg24 _)⟩)
    (Hand.run (F := Ideal) m ρ)

end Cert.ReferenceIdeal.HandValue

end
-- ==== Proof.TailTactic.lean ====
/-
  The host lines after the kernel's region are, operation for operation, the reference's host lines after its own first
  matrix product: the same functions applied to buffers that correspond one to one. Contents that agree on the buffers a
  stretch of lines reads therefore agree on the buffers it writes. This module fixes the two valuation types and the one
  step used for every buffer: read both folds down to the operations' functions of the stretch's inputs, replace the
  kernel's inputs by the reference's, and compare.
-/
import proofs.«121394_g42563125903665_cont_8to1_b_1637_2_alg».proof.Proof.Gen.KernelIdeal.Launch
import proofs.«121394_g42563125903665_cont_8to1_b_1637_2_alg».proof.Proof.RefLaunch
import Idealize.ShloMosaic.Lib.StableHlo.Run
import Idealize.ShloMosaic.PureOps.Ideal

open Idealize.ShloMosaic Idealize.ShloMosaic.StableHlo

noncomputable section
namespace Cert.TailAgree

/-- Buffer contents of the kernel program, and of the reference, at the ideal instance. -/
abbrev VK := Valuation Cert.KernelIdeal.τ Cert.KernelIdeal.sig (Elt Ideal)
abbrev VR := Valuation Cert.ReferenceIdeal.τ Cert.ReferenceIdeal.sig (Elt Ideal)

/-- A value at a stated type: the contents of a kernel buffer and of the reference's buffer holding the same value are
    compared at the tensor type both buffers have. -/
abbrev asT (T : Type) (x : T) : T := x

/-- One buffer after one stretch: a buffer the stretch does not write keeps the agreement it had; a buffer it writes
    is the same composed function of inputs that agree. -/
macro "agree_field" : tactic =>
  `(tactic| (after_results_simp <;> (first | (simp only [*] <;> rfl) | rfl)))

end Cert.TailAgree
end
-- ==== Proof.TailAgree.lean ====
/-
  The host lines after the kernel's region against the reference's host lines after its first eight operations, as whole
  lines: seventeen stretches on each side, the same operations stretch by stretch. Contents agreeing on what the first
  stretch reads — the arguments, the two index vectors, and the first layer's input x·w + b — give, one stretch after the
  other, contents agreeing on the final scores.
-/
import proofs.«121394_g42563125903665_cont_8to1_b_1637_2_alg».proof.Proof.TailStepA
import proofs.«121394_g42563125903665_cont_8to1_b_1637_2_alg».proof.Proof.TailStepB
import proofs.«121394_g42563125903665_cont_8to1_b_1637_2_alg».proof.Proof.TailStepC
import proofs.«121394_g42563125903665_cont_8to1_b_1637_2_alg».proof.Proof.TailStepD
import proofs.«121394_g42563125903665_cont_8to1_b_1637_2_alg».proof.Proof.TailStepE
import Idealize.ShloMosaic.Lib.Pipeline.Frame

open Idealize.ShloMosaic Idealize.ShloMosaic.StableHlo

noncomputable section
namespace Cert.TailAgree

/-- The kernel program's lines after its region, stretch by stretch. -/
abbrev tailK : List (List (HloOp Cert.KernelIdeal.τ Cert.KernelIdeal.sig (Elt Ideal))) :=
  [Cert.KernelIdeal.Gen.hostOps1 (F := Ideal),
   Cert.KernelIdeal.Gen.hostOps1_1 (F := Ideal),
   Cert.KernelIdeal.Gen.hostOps1_2 (F := Ideal),
   Cert.KernelIdeal.Gen.hostOps1_3 (F := Ideal),
   Cert.KernelIdeal.Gen.hostOps1_4 (F := Ideal),
   Cert.KernelIdeal.Gen.hostOps1_5 (F := Ideal),
   Cert.KernelIdeal.Gen.hostOps1_6 (F := Ideal),
   Cert.KernelIdeal.Gen.hostOps1_7 (F := Ideal),
   Cert.KernelIdeal.Gen.hostOps1_8 (F := Ideal),
   Cert.KernelIdeal.Gen.hostOps1_9 (F := Ideal),
   Cert.KernelIdeal.Gen.hostOps1_10 (F := Ideal),
   Cert.KernelIdeal.Gen.hostOps1_11 (F := Ideal),
   Cert.KernelIdeal.Gen.hostOps1_12 (F := Ideal),
   Cert.KernelIdeal.Gen.hostOps1_13 (F := Ideal),
   Cert.KernelIdeal.Gen.hostOps1_14 (F := Ideal),
   Cert.KernelIdeal.Gen.hostOps1_15 (F := Ideal),
   Cert.KernelIdeal.Gen.hostOps1_16 (F := Ideal)]

/-- The reference's lines after its first eight operations, stretch by stretch. -/
abbrev tailR : List (List (HloOp Cert.ReferenceIdeal.τ Cert.ReferenceIdeal.sig (Elt Ideal))) :=
  [(Cert.ReferenceIdeal.Gen.hostOps0 (F := Ideal)).drop 8,
   Cert.ReferenceIdeal.Gen.hostOps0_1 (F := Ideal),
   Cert.ReferenceIdeal.Gen.hostOps0_2 (F := Ideal),
   Cert.ReferenceIdeal.Gen.hostOps0_3 (F := Ideal),
   Cert.ReferenceIdeal.Gen.hostOps0_4 (F := Ideal),
   Cert.ReferenceIdeal.Gen.hostOps0_5 (F := Ideal),
   Cert.ReferenceIdeal.Gen.hostOps0_6 (F := Ideal),
   Cert.ReferenceIdeal.Gen.hostOps0_7 (F := Ideal),
   Cert.ReferenceIdeal.Gen.hostOps0_8 (F := Ideal),
   Cert.ReferenceIdeal.Gen.hostOps0_9 (F := Ideal),
   Cert.ReferenceIdeal.Gen.hostOps0_10 (F := Ideal),
   Cert.ReferenceIdeal.Gen.hostOps0_11 (F := Ideal),
   Cert.ReferenceIdeal.Gen.hostOps0_12 (F := Ideal),
   Cert.ReferenceIdeal.Gen.hostOps0_13 (F := Ideal),
   Cert.ReferenceIdeal.Gen.hostOps0_14 (F := Ideal),
   Cert.ReferenceIdeal.Gen.hostOps0_15 (F := Ideal),
   Cert.ReferenceIdeal.Gen.hostOps0_16 (F := Ideal)]

/-- Agreement on the first stretch's inputs is agreement on the scores after the last. -/
theorem tail_agree (WK : VK) (WR : VR) (h : Agree0 WK WR) :
    Agree17 (StableHlo.after tailK.flatten WK) (StableHlo.after tailR.flatten WR) := by
  simp only [tailK, tailR, List.flatten_cons, List.flatten_nil, List.append_nil, StableHlo.after_append]
  exact step17 _ _ (step16 _ _ (step15 _ _ (step14 _ _ (step13 _ _ (step12 _ _ (step11 _ _ (step10 _ _ (step9 _ _ (step8 _ _ (step7 _ _ (step6 _ _ (step5 _ _ (step4 _ _ (step3 _ _ (step2 _ _ (step1 WK WR h))))))))))))))))

end Cert.TailAgree
end
-- ==== Proof.Bridge.lean ====
/-
  The algebraic claim assembled. On the kernel's side the result buffer ends at the host lines after the region folded
  over the contents the region leaves: its output array — x·w + b entry by entry — in place of the output buffer, every
  other buffer as the region found it. On the reference's side it ends at the same lines folded over the contents after
  its first eight operations, among them x·w + b computed by a matrix product, two broadcasts and an addition. The two
  starting contents agree on everything the later lines read, so the results agree; the arguments end unchanged on both
  sides.
-/
import proofs.«121394_g42563125903665_cont_8to1_b_1637_2_alg».proof.Defs
import proofs.«121394_g42563125903665_cont_8to1_b_1637_2_alg».proof.Proof.KIFrame
import proofs.«121394_g42563125903665_cont_8to1_b_1637_2_alg».proof.Proof.KIValue
import proofs.«121394_g42563125903665_cont_8to1_b_1637_2_alg».proof.Proof.RefRun
import proofs.«121394_g42563125903665_cont_8to1_b_1637_2_alg».proof.Proof.RefH0
import proofs.«121394_g42563125903665_cont_8to1_b_1637_2_alg».proof.Proof.BridgeRef
import proofs.«121394_g42563125903665_cont_8to1_b_1637_2_alg».proof.Proof.TailAgree
import proofs.«121394_g42563125903665_cont_8to1_b_1637_2_alg».proof.Proof.Gen.Pre_finite_inputs

noncomputable section
namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel program's buffer contents when its region has ended: the pipeline's arrays as the region leaves them,
    every other buffer as the region found it. -/
abbrev WK (c : Dev Cert.KernelIdeal.nD) : Cert.TailAgree.VK :=
  Pipeline.withArrays Cert.KernelIdeal.spec0 c (Cert.KernelIdeal.Hand.V0 m c) (fun w => (Cert.KernelIdeal.Hand.dats m 0 c).arrAt w Cert.KernelIdeal.cfg0.N)

/-- The reference's buffer contents after its first eight operations. -/
abbrev WR (c : Dev Cert.ReferenceIdeal.nD) : Cert.TailAgree.VR :=
  StableHlo.after ((Cert.ReferenceIdeal.Gen.hostOps0 (F := Ideal)).take 8) (StableHlo.launchContents m' c)

/-- A buffer that is no array of the pipeline is as the region found it. -/
theorem wk_arg (c : Dev Cert.KernelIdeal.nD) (b : Ref Cert.KernelIdeal.sig .tc) (hb : ∀ w, Pipeline.arrRef Cert.KernelIdeal.spec0 w ≠ b) :
    WK m c (Proc.devRef .tc b) = Cert.KernelIdeal.Hand.V m c b :=
  Pipeline.withArrays_of_ne Cert.KernelIdeal.spec0 c _ _ b hb

/-- The output buffer holds the output array the region leaves. -/
theorem wk_out (c : Dev Cert.KernelIdeal.nD) :
    WK m c (Proc.devRef .tc Cert.KernelIdeal.main_v5) = (Cert.KernelIdeal.Hand.dats m 0 c).arrAt 3 Cert.KernelIdeal.cfg0.N :=
  Pipeline.withArrays_arr Cert.KernelIdeal.spec0 Cert.KernelIdeal.Gen.launch0.win.arr_inj c _ _ 3

open Cert.KernelIdeal Cert.KernelIdeal.Gen Cert.KernelIdeal.Hand in
/-- The source row of the edge index as the region finds it: the first two host lines applied to the argument. -/
theorem V_main_v1 (c : Dev Cert.KernelIdeal.nD) :
    (Cert.KernelIdeal.Hand.V m c Cert.KernelIdeal.main_v1 : Cert.KernelIdeal.S160000.Idx → Elt Ideal .i32)
      = shapeCast Cert.KernelIdeal.S160000 (extractStridedSlice Cert.KernelIdeal.S1x160000 ![0, 0] (m ((c : Thread Cert.KernelIdeal.nD Cert.KernelIdeal.τ).loc Cert.KernelIdeal.main_arg23)) Cert.KernelIdeal.Gen.slices_S2x160000_S1x160000_0_0) Cert.KernelIdeal.Gen.shapeCasts_S1x160000_S160000 := by
  show StableHlo.after (List.flatten [hostOps0]) (fun b => m (c, b)) (Proc.devRef .tc main_v1) = _
  simp only [hostOps0, List.flatten_cons, List.flatten_nil, List.append_nil]
  after_results
  rfl

open Cert.KernelIdeal Cert.KernelIdeal.Gen Cert.KernelIdeal.Hand in
/-- The destination row likewise. -/
theorem V_main_v3 (c : Dev Cert.KernelIdeal.nD) :
    (Cert.KernelIdeal.Hand.V m c Cert.KernelIdeal.main_v3 : Cert.KernelIdeal.S160000.Idx → Elt Ideal .i32)
      = shapeCast Cert.KernelIdeal.S160000 (extractStridedSlice Cert.KernelIdeal.S1x160000 ![1, 0] (m ((c : Thread Cert.KernelIdeal.nD Cert.KernelIdeal.τ).loc Cert.KernelIdeal.main_arg23)) Cert.KernelIdeal.Gen.slices_S2x160000_S1x160000_1_0) Cert.KernelIdeal.Gen.shapeCasts_S1x160000_S160000 := by
  show StableHlo.after (List.flatten [hostOps0]) (fun b => m (c, b)) (Proc.devRef .tc main_v3) = _
  simp only [hostOps0, List.flatten_cons, List.flatten_nil, List.append_nil]
  after_results
  rfl

/-- From arguments that agree, the two starting contents agree on everything the later lines read. -/
theorem agree0 (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) :
    Cert.TailAgree.Agree0 (WK m c) (WR m' c) := by
  obtain ⟨a0, a1, a2, a3, a4, a5, a6, a7, a8, a9, a10, a11, a12, a13, a14, a15, a16, a17, a18, a19, a20, a21, a22, a23, a24⟩ := hag
  simp only [Cert.TailAgree.Agree0, Cert.TailAgree.asT]
  refine ⟨?_, ?_, ?_, ?_, ?_, ?_, ?_, ?_, ?_, ?_, ?_, ?_, ?_, ?_, ?_, ?_, ?_, ?_, ?_, ?_, ?_, ?_, ?_, ?_⟩
  · -- main_arg1: an argument, written by no host line on either side
    rw [wk_arg m c Cert.KernelIdeal.main_arg1 (by decide), Cert.KernelIdeal.Hand.V_main_arg1 m c]
    exact ((Cert.ReferenceIdeal.HandValue.head_main_arg1 _).trans ((Cert.ReferenceIdeal.HandValue.launch_arg m' c _).trans a1)).symm
  · -- main_arg6: an argument, written by no host line on either side
    rw [wk_arg m c Cert.KernelIdeal.main_arg6 (by decide), Cert.KernelIdeal.Hand.V_main_arg6 m c]
    exact ((Cert.ReferenceIdeal.HandValue.head_main_arg6 _).trans ((Cert.ReferenceIdeal.HandValue.launch_arg m' c _).trans a6)).symm
  · -- main_arg7: an argument, written by no host line on either side
    rw [wk_arg m c Cert.KernelIdeal.main_arg7 (by decide), Cert.KernelIdeal.Hand.V_main_arg7 m c]
    exact ((Cert.ReferenceIdeal.HandValue.head_main_arg7 _).trans ((Cert.ReferenceIdeal.HandValue.launch_arg m' c _).trans a7)).symm
  · -- main_arg9: an argument, written by no host line on either side
    rw [wk_arg m c Cert.KernelIdeal.main_arg9 (by decide), Cert.KernelIdeal.Hand.V_main_arg9 m c]
    exact ((Cert.ReferenceIdeal.HandValue.head_main_arg9 _).trans ((Cert.ReferenceIdeal.HandValue.launch_arg m' c _).trans a9)).symm
  · -- the first layer's input: the region's output array on the kernel's side, x·w + b on the reference's
    rw [wk_out m c, Cert.KernelIdeal.HandValue.kernel_h0 m c, Cert.KernelIdeal.Hand.V_main_arg0 m c, Cert.KernelIdeal.Hand.V_main_arg4 m c, Cert.KernelIdeal.Hand.V_main_arg5 m c]
    refine Eq.trans ?_ (Cert.ReferenceIdeal.HandValue.ref_h0 _).symm
    rw [Cert.ReferenceIdeal.HandValue.launch_arg, Cert.ReferenceIdeal.HandValue.launch_arg, Cert.ReferenceIdeal.HandValue.launch_arg, a0, a4, a5]
  · -- main_arg10: an argument, written by no host line on either side
    rw [wk_arg m c Cert.KernelIdeal.main_arg10 (by decide), Cert.KernelIdeal.Hand.V_main_arg10 m c]
    exact ((Cert.ReferenceIdeal.HandValue.head_main_arg10 _).trans ((Cert.ReferenceIdeal.HandValue.launch_arg m' c _).trans a10)).symm
  · -- main_arg11: an argument, written by no host line on either side
    rw [wk_arg m c Cert.KernelIdeal.main_arg11 (by decide), Cert.KernelIdeal.Hand.V_main_arg11 m c]
    exact ((Cert.ReferenceIdeal.HandValue.head_main_arg11 _).trans ((Cert.ReferenceIdeal.HandValue.launch_arg m' c _).trans a11)).symm
  · -- main_arg12: an argument, written by no host line on either side
    rw [wk_arg m c Cert.KernelIdeal.main_arg12 (by decide), Cert.KernelIdeal.Hand.V_main_arg12 m c]
    exact ((Cert.ReferenceIdeal.HandValue.head_main_arg12 _).trans ((Cert.ReferenceIdeal.HandValue.launch_arg m' c _).trans a12)).symm
  · -- main_arg15: an argument, written by no host line on either side
    rw [wk_arg m c Cert.KernelIdeal.main_arg15 (by decide), Cert.KernelIdeal.Hand.V_main_arg15 m c]
    exact ((Cert.ReferenceIdeal.HandValue.head_main_arg15 _).trans ((Cert.ReferenceIdeal.HandValue.launch_arg m' c _).trans a15)).symm
  · -- main_arg16: an argument, written by no host line on either side
    rw [wk_arg m c Cert.KernelIdeal.main_arg16 (by decide), Cert.KernelIdeal.Hand.V_main_arg16 m c]
    exact ((Cert.ReferenceIdeal.HandValue.head_main_arg16 _).trans ((Cert.ReferenceIdeal.HandValue.launch_arg m' c _).trans a16)).symm
  · -- main_arg17: an argument, written by no host line on either side
    rw [wk_arg m c Cert.KernelIdeal.main_arg17 (by decide), Cert.KernelIdeal.Hand.V_main_arg17 m c]
    exact ((Cert.ReferenceIdeal.HandValue.head_main_arg17 _).trans ((Cert.ReferenceIdeal.HandValue.launch_arg m' c _).trans a17)).symm
  · -- main_arg18: an argument, written by no host line on either side
    rw [wk_arg m c Cert.KernelIdeal.main_arg18 (by decide), Cert.KernelIdeal.Hand.V_main_arg18 m c]
    exact ((Cert.ReferenceIdeal.HandValue.head_main_arg18 _).trans ((Cert.ReferenceIdeal.HandValue.launch_arg m' c _).trans a18)).symm
  · -- main_arg13: an argument, written by no host line on either side
    rw [wk_arg m c Cert.KernelIdeal.main_arg13 (by decide), Cert.KernelIdeal.Hand.V_main_arg13 m c]
    exact ((Cert.ReferenceIdeal.HandValue.head_main_arg13 _).trans ((Cert.ReferenceIdeal.HandValue.launch_arg m' c _).trans a13)).symm
  · -- main_arg14: an argument, written by no host line on either side
    rw [wk_arg m c Cert.KernelIdeal.main_arg14 (by decide), Cert.KernelIdeal.Hand.V_main_arg14 m c]
    exact ((Cert.ReferenceIdeal.HandValue.head_main_arg14 _).trans ((Cert.ReferenceIdeal.HandValue.launch_arg m' c _).trans a14)).symm
  · -- main_v1: one row of the edge-index argument, sliced and flattened by the same two host lines on both sides
    rw [wk_arg m c Cert.KernelIdeal.main_v1 (by decide), V_main_v1 m c]
    refine Eq.trans ?_ (Cert.ReferenceIdeal.HandValue.head_main_v1 _).symm
    rw [Cert.ReferenceIdeal.HandValue.launch_arg, a23]
  · -- main_v3: one row of the edge-index argument, sliced and flattened by the same two host lines on both sides
    rw [wk_arg m c Cert.KernelIdeal.main_v3 (by decide), V_main_v3 m c]
    refine Eq.trans ?_ (Cert.ReferenceIdeal.HandValue.head_main_v3 _).symm
    rw [Cert.ReferenceIdeal.HandValue.launch_arg, a23]
  · -- main_arg2: an argument, written by no host line on either side
    rw [wk_arg m c Cert.KernelIdeal.main_arg2 (by decide), Cert.KernelIdeal.Hand.V_main_arg2 m c]
    exact ((Cert.ReferenceIdeal.HandValue.head_main_arg2 _).trans ((Cert.ReferenceIdeal.HandValue.launch_arg m' c _).trans a2)).symm
  · -- main_arg3: an argument, written by no host line on either side
    rw [wk_arg m c Cert.KernelIdeal.main_arg3 (by decide), Cert.KernelIdeal.Hand.V_main_arg3 m c]
    exact ((Cert.ReferenceIdeal.HandValue.head_main_arg3 _).trans ((Cert.ReferenceIdeal.HandValue.launch_arg m' c _).trans a3)).symm
  · -- main_arg19: an argument, written by no host line on either side
    rw [wk_arg m c Cert.KernelIdeal.main_arg19 (by decide), Cert.KernelIdeal.Hand.V_main_arg19 m c]
    exact ((Cert.ReferenceIdeal.HandValue.head_main_arg19 _).trans ((Cert.ReferenceIdeal.HandValue.launch_arg m' c _).trans a19)).symm
  · -- main_arg20: an argument, written by no host line on either side
    rw [wk_arg m c Cert.KernelIdeal.main_arg20 (by decide), Cert.KernelIdeal.Hand.V_main_arg20 m c]
    exact ((Cert.ReferenceIdeal.HandValue.head_main_arg20 _).trans ((Cert.ReferenceIdeal.HandValue.launch_arg m' c _).trans a20)).symm
  · -- main_arg21: an argument, written by no host line on either side
    rw [wk_arg m c Cert.KernelIdeal.main_arg21 (by decide), Cert.KernelIdeal.Hand.V_main_arg21 m c]
    exact ((Cert.ReferenceIdeal.HandValue.head_main_arg21 _).trans ((Cert.ReferenceIdeal.HandValue.launch_arg m' c _).trans a21)).symm
  · -- main_arg22: an argument, written by no host line on either side
    rw [wk_arg m c Cert.KernelIdeal.main_arg22 (by decide), Cert.KernelIdeal.Hand.V_main_arg22 m c]
    exact ((Cert.ReferenceIdeal.HandValue.head_main_arg22 _).trans ((Cert.ReferenceIdeal.HandValue.launch_arg m' c _).trans a22)).symm
  · -- main_arg24: an argument, written by no host line on either side
    rw [wk_arg m c Cert.KernelIdeal.main_arg24 (by decide), Cert.KernelIdeal.Hand.V_main_arg24 m c]
    exact ((Cert.ReferenceIdeal.HandValue.head_main_arg24 _).trans ((Cert.ReferenceIdeal.HandValue.launch_arg m' c _).trans a24)).symm
  · -- main_arg8: an argument, written by no host line on either side
    rw [wk_arg m c Cert.KernelIdeal.main_arg8 (by decide), Cert.KernelIdeal.Hand.V_main_arg8 m c]
    exact ((Cert.ReferenceIdeal.HandValue.head_main_arg8 _).trans ((Cert.ReferenceIdeal.HandValue.launch_arg m' c _).trans a8)).symm

/-- The two idealized programs, run from memories agreeing on the arguments, end with equal scores and unchanged
    arguments. -/
theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m) Cert.KernelIdeal.Hand.tailOps c Cert.KernelIdeal.main_v308, ?_, ?_⟩
  · exact (θ_run Cert.KernelIdeal.defs _ _).mono
      (fun r h c => ⟨Cert.KernelIdeal.Hand.result_of_post m _ (Cert.KernelIdeal.Hand.A_eq m) r h c, Cert.KernelIdeal.Hand.args_of_post m _ (Cert.KernelIdeal.Hand.A_eq m) r h c⟩)
      (Cert.KernelIdeal.Hand.run_main m ρ)
  · refine (θ_run Cert.ReferenceIdeal.defs _ _).mono (fun r h c => ⟨(h c).1.trans ?_, (h c).2⟩) (Cert.ReferenceIdeal.HandValue.run_result m' ρ')
    rw [Cert.ReferenceIdeal.HandValue.after_split]
    have e := Cert.TailAgree.tail_agree (WK m c) (WR m' c) (agree0 m m' c (hagree c))
    simp only [Cert.TailAgree.Agree17, Cert.TailAgree.asT] at e
    exact e.symm

end Cert.Bridge
end
-- ==== Proof.lean ====
/-
  A gated graph-convolution network scored on triplets: two layers of edge-gated message passing over 10000 nodes and
  160000 edges with batch normalisation, then s·r·o summed over the feature axis for 50000 triplets. The kernel program
  computes the first node embedding h = x·w + b by one pipelined matrix-product kernel over ten row blocks of 1000 rows
  and everything else by the same host operations as the reference, which computes h by a host matrix product, two
  broadcasts and an addition.

  The three frames: each program terminates without a fault and leaves its 25 argument arrays as launched — for the two
  kernel programs (word level and idealized, the same text) the pipeline's launch with the body's one store per block
  and the 461 later host lines, none of which writes an argument or an array of the pipeline; for the reference its
  469 host operations as one straight line. The idealization rewrote nothing, so `preserves` is `True`. The algebraic
  claim: at the ideal instance the kernel's output array is x·w + b entry by entry (every block of 1000 rows is the
  product of that block of x with all of w into a zero accumulator plus the bias row, and the blocks cover the array),
  which is what the reference's first operations compute; from there on the two programs apply the same operations to
  agreeing contents, stretch by stretch, to the final scores. No finiteness of the inputs is used.
-/
import proofs.«121394_g42563125903665_cont_8to1_b_1637_2_alg».proof.Defs
import proofs.«121394_g42563125903665_cont_8to1_b_1637_2_alg».proof.Proof.Gen.Kernel
import proofs.«121394_g42563125903665_cont_8to1_b_1637_2_alg».proof.Proof.Gen.KernelIdeal
import proofs.«121394_g42563125903665_cont_8to1_b_1637_2_alg».proof.Proof.Gen.ReferenceIdeal
import proofs.«121394_g42563125903665_cont_8to1_b_1637_2_alg».proof.Proof.Gen.Pre_finite_inputs
import proofs.«121394_g42563125903665_cont_8to1_b_1637_2_alg».proof.Proof.KFrame
import proofs.«121394_g42563125903665_cont_8to1_b_1637_2_alg».proof.Proof.KIFrame
import proofs.«121394_g42563125903665_cont_8to1_b_1637_2_alg».proof.Proof.RefRun
import proofs.«121394_g42563125903665_cont_8to1_b_1637_2_alg».proof.Proof.Bridge

noncomputable section

namespace Cert.Proof

open Idealize.ShloMosaic Idealize.SL.Sem

/-- The word-level kernel program runs and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- And the idealized reference. -/
theorem frame_ri : Cert.frame_ReferenceIdeal := fun m ρ _ => Cert.ReferenceIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
